-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S8192x16384 : Shape := ⟨2, ![8192, 16384]⟩
abbrev S256x128 : Shape := ⟨2, ![256, 128]⟩
abbrev S256x1 : Shape := ⟨2, ![256, 1]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S8192x16384 : S_.BroadcastsInDim S8192x16384 (![] : Fin 0 → Fin S8192x16384.rank)
  reducesTo_S8192x16384_S_d0_1 : S8192x16384.ReducesTo [0, 1] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S16384x256 .f32) (main_arg1 : FVec F S8192x16384 .f32) (main_arg2 : FVec F S256x128 .f32) (main_arg3 : FVec F S256x1 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S8192x16384 .f32 := Host.absf main_arg1
  let main_cst_0 : FVec F S_ .f32 := constant S_ .f32 0x7F800000#32
  let main_v5 : FVec F S8192x16384 .f32 := broadcastInDim S8192x16384 ![] bcast_S_S8192x16384 main_cst_0
  let main_v6 : IVec S8192x16384 1 := cmpf .olt main_v4 main_v5
  let main_c_1 : IVec S_ 1 := constantI S_ 1 1#1
  let main_v7 : IVec S_ 1 := (fun x v => Host.reduce IntOp.andi x v reducesTo_S8192x16384_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S16384x256 : Shape := ⟨2, ![16384, 256]⟩
abbrev S8192x16384 : Shape := ⟨2, ![8192, 16384]⟩
abbrev S256x128 : Shape := ⟨2, ![256, 128]⟩
abbrev S256x1 : Shape := ⟨2, ![256, 1]⟩
abbrev S128x1 : Shape := ⟨2, ![128, 1]⟩
abbrev S16384x128 : Shape := ⟨2, ![16384, 128]⟩
abbrev S16384x1 : Shape := ⟨2, ![16384, 1]⟩
abbrev S2048x256 : Shape := ⟨2, ![2048, 256]⟩
abbrev S2048x128 : Shape := ⟨2, ![2048, 128]⟩
abbrev S2048x1 : Shape := ⟨2, ![2048, 1]⟩
abbrev S8192x1 : Shape := ⟨2, ![8192, 1]⟩
abbrev S1x16384 : Shape := ⟨2, ![1, 16384]⟩
abbrev S8192x128 : Shape := ⟨2, ![8192, 128]⟩
abbrev S1024x4096 : Shape := ⟨2, ![1024, 4096]⟩
abbrev S1024x1 : Shape := ⟨2, ![1024, 1]⟩
abbrev S1x4096 : Shape := ⟨2, ![1, 4096]⟩
abbrev S1024x128 : Shape := ⟨2, ![1024, 128]⟩
abbrev S1024 : Shape := ⟨1, ![1024]⟩
abbrev S4096x128 : Shape := ⟨2, ![4096, 128]⟩

abbrev nBuf : Space → Nat
  | .hbm => 12
  | .vmem => 23
  | .smem => 0
  | _ => 0

abbrev bufTy : (tb : Table) → Fin (tcTables nBuf tb) → BufTy
  | .hbm, ⟨0, _⟩ => ⟨S16384x256, .f32⟩
  | .hbm, ⟨1, _⟩ => ⟨S8192x16384, .f32⟩
  | .hbm, ⟨2, _⟩ => ⟨S256x128, .f32⟩
  | .hbm, ⟨3, _⟩ => ⟨S256x1, .f32⟩
  | .hbm, ⟨4, _⟩ => ⟨S128x1, .f32⟩
  | .hbm, ⟨5, _⟩ => ⟨S128x1, .f32⟩
  | .hbm, ⟨6, _⟩ => ⟨S16384x128, .f32⟩
  | .hbm, ⟨7, _⟩ => ⟨S16384x1, .f32⟩
  | .hbm, ⟨8, _⟩ => ⟨S16384x1, .f32⟩
  | .hbm, ⟨9, _⟩ => ⟨S8192x1, .f32⟩
  | .hbm, ⟨10, _⟩ => ⟨S1x16384, .f32⟩
  | .hbm, ⟨11, _⟩ => ⟨S8192x128, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S128x1, .f32⟩
  | .local _ .vmem, ⟨4, _⟩ => ⟨S128x1, .f32⟩
  | .local _ .vmem, ⟨5, _⟩ => ⟨S2048x128, .f32⟩
  | .local _ .vmem, ⟨6, _⟩ => ⟨S2048x128, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S1024x4096, .f32⟩
  | .local _ .vmem, ⟨12, _⟩ => ⟨S1024x4096, .f32⟩
  | .local _ .vmem, ⟨13, _⟩ => ⟨S1024x1, .f32⟩
  | .local _ .vmem, ⟨14, _⟩ => ⟨S1024x1, .f32⟩
  | .local _ .vmem, ⟨15, _⟩ => ⟨S1x4096, .f32⟩
  | .local _ .vmem, ⟨16, _⟩ => ⟨S1x4096, .f32⟩
  | .local _ .vmem, ⟨17, _⟩ => ⟨S16384x128, .f32⟩
  | .local _ .vmem, ⟨18, _⟩ => ⟨S1024x128, .f32⟩
  | .local _ .vmem, ⟨19, _⟩ => ⟨S1024x128, .f32⟩
  | .local _ .vmem, ⟨20, _⟩ => ⟨S1024x1, .f32⟩
  | .local _ .vmem, ⟨21, _⟩ => ⟨S1024x1, .f32⟩
  | .local _ .vmem, ⟨22, _⟩ => ⟨S1024x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c4096_i32 : BitVec 32 := 4096#32
  let v43 : BitVec 32 := Scalar.muli arg1 c4096_i32
  v43
def k1_off1 (i : grid1.Coords) : Fin 2 → Nat :=
  let arg1 : BitVec 32 := BitVec.ofNat 32 (i 1).val
  let c4096_i32 : BitVec 32 := 4096#32
  let v43 : BitVec 32 := Scalar.muli arg1 c4096_i32
  let v44 : BitVec 32 := v43
  let v45 : Index := Scalar.indexCast v44
  let c0_21 : Index := 0#32
  ![v45.toNat, 0]
def k1_cond2 (i : grid1.Coords) : BitVec 1 :=
  let arg1 : BitVec 32 := BitVec.ofNat 32 (i 1).val
  let c3_i32 : BitVec 32 := 3#32
  let v59 : BitVec 1 := Scalar.cmpi .eq arg1 c3_i32
  let v60 : BitVec 32 := Scalar.extui v59
  let c0_i32_29 : BitVec 32 := 0#32
  let v61 : BitVec 1 := Scalar.cmpi .ne v60 c0_i32_29
  v61

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S16384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S256x1_S128x1_0_0 : S256x1.Slices ![0, 0] S128x1
  slices_S256x1_S128x1_128_0 : S256x1.Slices ![128, 0] S128x1
  inb_S2048x256_S2048x256_0_0 : ∀ a, (![0, 0] : Fin 2 → Nat) a + S2048x256.size a ≤ S2048x256.size a
  h_S2048x256 : 0 < S2048x256.numel
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S2048x1_S2048x1_0_0 : ∀ a, (![0, 0] : Fin 2 → Nat) a + S2048x1.size a ≤ S2048x1.size a
  h_S2048x1 : 0 < S2048x1.numel
  slices_S16384x1_S8192x1_0_0 : S16384x1.Slices ![0, 0] S8192x1
  shapeCasts_S16384x1_S1x16384 : S16384x1.ShapeCasts S1x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x4096_S1024x4096_0_0 : ∀ a, (![0, 0] : Fin 2 → Nat) a + S1024x4096.size a ≤ S1024x4096.size a
  h_S1024x4096 : 0 < S1024x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1024x1_S1024x4096 : S1024x1.Broadcasts S1024x4096
  broadcasts_S1x4096_S1024x4096 : S1x4096.Broadcasts S1024x4096
  reduces_S1024x4096_S1024 : S1024x4096.Reduces [1] S1024
  shapeCasts_S1024_S1024x1 : S1024.ShapeCasts S1024x1
  h_S4096x128 : 0 < S4096x128.numel
  shapeCasts_S4096x128_S4096x128 : S4096x128.ShapeCasts S4096x128
  broadcasts_S1024x1_S1024x128 : S1024x1.Broadcasts S1024x128
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  dot_S1024x4096_S4096x128_S1024x128_1_0_0_1_n_n_wf : DotDims.WF S1024x4096 S4096x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .f32 = 32 ∨ (Rect.block (s := S16384x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S16384x1.size a
  hwx0_5 : ∀ i : grid0.Coords, EltTy.bits .f32 = 32 ∨ (Rect.block (s := S16384x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S16384x1.size a
  hwx0_6 : ∀ i : grid0.Coords, EltTy.bits .f32 = 32 ∨ (Rect.block (s := S16384x1) S2048x1.size (cc0_transform_6 i) (hinb0_6 i)).WholeWords (EltTy.packing .f32)
  hrank1 : 0 < grid1.rank
  k1_mult1_dvd : ∀ i : grid1.Coords, 4096 ∣ (k1_mult1 i).toNat
  k1_off1_inb : ∀ i : grid1.Coords, ∀ a, (k1_off1 i) a + S4096x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x16384.size a
  hwx1_0 : ∀ i : grid1.Coords, EltTy.bits .f32 = 32 ∨ (Rect.block (s := S8192x16384) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x16384.size a
  hwx1_2 : ∀ i : grid1.Coords, EltTy.bits .f32 = 32 ∨ (Rect.block (s := S1x16384) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16384x128.size a ≤ S16384x128.size a
  hwx1_3 : ∀ i : grid1.Coords, EltTy.bits .f32 = 32 ∨ (Rect.block (s := S16384x128) S16384x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2048x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S16384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x256 : Shape := ⟨2, ![16384, 256]⟩
abbrev S8192x16384 : Shape := ⟨2, ![8192, 16384]⟩
abbrev S256x128 : Shape := ⟨2, ![256, 128]⟩
abbrev S256x1 : Shape := ⟨2, ![256, 1]⟩
abbrev S16384x128 : Shape := ⟨2, ![16384, 128]⟩
abbrev S8192x128 : Shape := ⟨2, ![8192, 128]⟩
abbrev S128x1 : Shape := ⟨2, ![128, 1]⟩
abbrev S8192x1 : Shape := ⟨2, ![8192, 1]⟩
abbrev S16384x1 : Shape := ⟨2, ![16384, 1]⟩
abbrev S1x16384 : Shape := ⟨2, ![1, 16384]⟩
abbrev S_ : Shape := ⟨0, ![]⟩
abbrev S8192 : Shape := ⟨1, ![8192]⟩

abbrev nBuf : Space → Nat
  | .hbm => 65
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8192x16384, .f32⟩
  | .hbm, ⟨2, _⟩ => ⟨S256x128, .f32⟩
  | .hbm, ⟨3, _⟩ => ⟨S256x1, .f32⟩
  | .hbm, ⟨4, _⟩ => ⟨S16384x128, .f32⟩
  | .hbm, ⟨5, _⟩ => ⟨S8192x128, .f32⟩
  | .hbm, ⟨6, _⟩ => ⟨S128x1, .f32⟩
  | .hbm, ⟨7, _⟩ => ⟨S8192x1, .f32⟩
  | .hbm, ⟨8, _⟩ => ⟨S128x1, .f32⟩
  | .hbm, ⟨9, _⟩ => ⟨S16384x1, .f32⟩
  | .hbm, ⟨10, _⟩ => ⟨S1x16384, .f32⟩
  | .hbm, ⟨11, _⟩ => ⟨S8192x16384, .f32⟩
  | .hbm, ⟨12, _⟩ => ⟨S8192x16384, .f32⟩
  | .hbm, ⟨13, _⟩ => ⟨S8192x16384, .f32⟩
  | .hbm, ⟨14, _⟩ => ⟨S_, .f32⟩
  | .hbm, ⟨15, _⟩ => ⟨S_, .f32⟩
  | .hbm, ⟨16, _⟩ => ⟨S8192x16384, .f32⟩
  | .hbm, ⟨17, _⟩ => ⟨S8192x16384, .i1⟩
  | .hbm, ⟨18, _⟩ => ⟨S_, .f32⟩
  | .hbm, ⟨19, _⟩ => ⟨S8192x16384, .f32⟩
  | .hbm, ⟨20, _⟩ => ⟨S8192x16384, .f32⟩
  | .hbm, ⟨21, _⟩ => ⟨S8192x16384, .f32⟩
  | .hbm, ⟨22, _⟩ => ⟨S_, .f32⟩
  | .hbm, ⟨23, _⟩ => ⟨S8192x16384, .f32⟩
  | .hbm, ⟨24, _⟩ => ⟨S8192x16384, .i1⟩
  | .hbm, ⟨25, _⟩ => ⟨S_, .f32⟩
  | .hbm, ⟨26, _⟩ => ⟨S8192x16384, .f32⟩
  | .hbm, ⟨27, _⟩ => ⟨S8192x16384, .f32⟩
  | .hbm, ⟨28, _⟩ => ⟨S8192x16384, .f32⟩
  | .hbm, ⟨29, _⟩ => ⟨S_, .f32⟩
  | .hbm, ⟨30, _⟩ => ⟨S8192x16384, .f32⟩
  | .hbm, ⟨31, _⟩ => ⟨S8192x16384, .i1⟩
  | .hbm, ⟨32, _⟩ => ⟨S_, .f32⟩
  | .hbm, ⟨33, _⟩ => ⟨S8192x16384, .f32⟩
  | .hbm, ⟨34, _⟩ => ⟨S8192x16384, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x16384, .f32⟩
  | .hbm, ⟨42, _⟩ => ⟨S8192x16384, .f32⟩
  | .hbm, ⟨43, _⟩ => ⟨S8192x16384, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x16384, .f32⟩
  | .hbm, ⟨48, _⟩ => ⟨S8192x16384, .f32⟩
  | .hbm, ⟨49, _⟩ => ⟨S8192x128, .f32⟩
  | .hbm, ⟨50, _⟩ => ⟨S_, .f32⟩
  | .hbm, ⟨51, _⟩ => ⟨S8192x128, .f32⟩
  | .hbm, ⟨52, _⟩ => ⟨S8192x128, .i1⟩
  | .hbm, ⟨53, _⟩ => ⟨S_, .f32⟩
  | .hbm, ⟨54, _⟩ => ⟨S8192x128, .f32⟩
  | .hbm, ⟨55, _⟩ => ⟨S8192x128, .i1⟩
  | .hbm, ⟨56, _⟩ => ⟨S_, .f32⟩
  | .hbm, ⟨57, _⟩ => ⟨S_, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S_, .f32⟩
  | .hbm, ⟨62, _⟩ => ⟨S8192x128, .f32⟩
  | .hbm, ⟨63, _⟩ => ⟨S8192x128, .f32⟩
  | .hbm, ⟨64, _⟩ => ⟨S8192x128, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call2_v0 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call3_cst : Ref sig .tc := ⟨.hbm, 50, rfl⟩
abbrev main_call3_v0 : Ref sig .tc := ⟨.hbm, 51, rfl⟩
abbrev main_call3_v1 : Ref sig .tc := ⟨.hbm, 52, rfl⟩
abbrev main_call3_cst_0 : Ref sig .tc := ⟨.hbm, 53, rfl⟩
abbrev main_call3_v2 : Ref sig .tc := ⟨.hbm, 54, rfl⟩
abbrev main_call3_v3 : Ref sig .tc := ⟨.hbm, 55, rfl⟩
abbrev main_call3_cst_1 : Ref sig .tc := ⟨.hbm, 56, rfl⟩
abbrev main_call3_call0_v0 : Ref sig .tc := ⟨.hbm, 57, rfl⟩
abbrev main_call3_call0_v1 : Ref sig .tc := ⟨.hbm, 58, rfl⟩
abbrev main_call3_v4 : Ref sig .tc := ⟨.hbm, 59, rfl⟩
abbrev main_call3_v5 : Ref sig .tc := ⟨.hbm, 60, rfl⟩
abbrev main_call3_cst_2 : Ref sig .tc := ⟨.hbm, 61, rfl⟩
abbrev main_call3_v6 : Ref sig .tc := ⟨.hbm, 62, rfl⟩
abbrev main_call3_v7 : Ref sig .tc := ⟨.hbm, 63, rfl⟩
abbrev main_v31 : Ref sig .tc := ⟨.hbm, 64, rfl⟩

abbrev nD : Nat := 1
abbrev τ : Topo := Topo.v7x

variable {F : FTy → Type} [FloatOps F]

class Facts₀ : Prop where
  slices_S16384x128_S8192x128_0_0 : S16384x128.Slices ![0, 0] S8192x128
  slices_S256x1_S128x1_0_0 : S256x1.Slices ![0, 0] S128x1
  slices_S256x1_S128x1_128_0 : S256x1.Slices ![128, 0] S128x1
  transposes_S16384x1_S1x16384_1_0 : S16384x1.Transposes [1, 0] S1x16384
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  reducesTo_S8192x16384_S8192_d1 : S8192x16384.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x128 : S_.BroadcastsInDim S8192x128 (![] : Fin 0 → Fin S8192x128.rank)
  dot_S16384x256_S256x128_S16384x128_1_0_0_1_n_n_wf : DotDims.WF S16384x256 S256x128 S16384x128 [1] [0] [0] [1] [] []
  dot_S8192x128_S128x1_S8192x1_1_0_0_1_n_n_wf : DotDims.WF S8192x128 S128x1 S8192x1 [1] [0] [0] [1] [] []
  dot_S16384x128_S128x1_S16384x1_1_0_0_1_n_n_wf : DotDims.WF S16384x128 S128x1 S16384x1 [1] [0] [0] [1] [] []
  dot_S8192x16384_S16384x128_S8192x128_1_0_0_1_n_n_wf : DotDims.WF S8192x16384 S16384x128 S8192x128 [1] [0] [0] [1] [] []

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf

class Facts : Prop extends Facts₀ where

variable [Facts]
-- ==== Proof.KFrame0.lean ====
/-
  The projection kernel's region of the program, at the buffer contents V the region is entered from: what a grid
  point's body leaves in each of its three output blocks as a function of its four input blocks (the 2048 rows of x
  of the point, the whole of w, the two halves of a), the body's run, the region's proof data and the body
  obligation at every point. Point t computes rows 2048 t .. 2048 t + 2047 of wh = x w, of wh a1 and of wh a2.
-/
import proofs.«152033_j31903017074983_2_alg».proof.Proof.Gen.Kernel.Launch
import proofs.«152033_j31903017074983_2_alg».proof.Proof.Gen.Kernel.Skeleton
import proofs.«152033_j31903017074983_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not: an input the
    pipeline does not fetch at a point has not moved its block index since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref is read and written whole -/

abbrev rx0 : Rect S2048x256 := Rect.unit (s := S2048x256) ![0, 0] S2048x256.size inb_S2048x256_S2048x256_0_0
abbrev rx1 : Rect S256x128 := Rect.unit (s := S256x128) ![0, 0] S256x128.size inb_S256x128_S256x128_0_0
abbrev rx2 : Rect S128x1 := Rect.unit (s := S128x1) ![0, 0] S128x1.size inb_S128x1_S128x1_0_0
abbrev ro4 : Rect S2048x128 := Rect.unit (s := S2048x128) ![0, 0] S2048x128.size inb_S2048x128_S2048x128_0_0
abbrev ro5 : Rect S2048x1 := Rect.unit (s := S2048x1) ![0, 0] S2048x1.size inb_S2048x1_S2048x1_0_0

/-- The projected rows: the block of x times w. -/
def out0_4 (x0 : Vec F S2048x256 .f32) (x1 : Vec F S256x128 .f32) : Vec F S2048x128 .f32 :=
  View.canon [⟨ro4, k0_pay1 (View.ld x0 rx0) (View.ld x1 rx1)⟩]
/-- The projected rows against the first half of a. -/
def out0_5 (x0 : Vec F S2048x256 .f32) (x1 : Vec F S256x128 .f32) (x2 : Vec F S128x1 .f32) : Vec F S2048x1 .f32 :=
  View.canon [⟨ro5, k0_pay2 (View.ld x0 rx0) (View.ld x1 rx1) (View.ld x2 rx2)⟩]
/-- The projected rows against the second half of a. -/
def out0_6 (x0 : Vec F S2048x256 .f32) (x1 : Vec F S256x128 .f32) (x3 : Vec F S128x1 .f32) : Vec F S2048x1 .f32 :=
  View.canon [⟨ro5, k0_pay3 (View.ld x0 rx0) (View.ld x1 rx1) (View.ld x3 rx2)⟩]

theorem cover0_4 (p0 : Vec F S2048x128 .f32) (y : S2048x128.Idx) :
    ∃ pc ∈ ([⟨ro4, p0⟩] : List (View.Piece (Elt F) S2048x128 .f32)), y ∈ pc.1.set :=
  View.cover_of_tiled [⟨ro4, p0⟩] S2048x128.size (by rfl) y
theorem cover0_5 (p0 : Vec F S2048x1 .f32) (y : S2048x1.Idx) :
    ∃ pc ∈ ([⟨ro5, p0⟩] : List (View.Piece (Elt F) S2048x1 .f32)), y ∈ pc.1.set :=
  View.cover_of_tiled [⟨ro5, p0⟩] S2048x1.size (by rfl) y

set_option maxHeartbeats 1000000 in
/-- The body on whole staging memrefs, the inputs' at contents xW and the outputs' at anything, runs to the
    continuation holding the inputs' as they were and each output's at outK_W of the inputs'. -/
theorem sound_kernel0 (c : Dev nD) (E : Set ℕ) (i : grid0.Coords)
    (arg1 : Memref sig .tc .vmem S2048x256 .f32) (harg1 : arg1.IsWhole) (arg2 : Memref sig .tc .vmem S256x128 .f32) (harg2 : arg2.IsWhole)
    (arg3 : Memref sig .tc .vmem S128x1 .f32) (harg3 : arg3.IsWhole) (arg4 : Memref sig .tc .vmem S128x1 .f32) (harg4 : arg4.IsWhole)
    (arg5 : Memref sig .tc .vmem S2048x128 .f32) (harg5 : arg5.IsWhole) (arg6 : Memref sig .tc .vmem S2048x1 .f32) (harg6 : arg6.IsWhole)
    (arg7 : Memref sig .tc .vmem S2048x1 .f32) (harg7 : arg7.IsWhole)
    (x0 : Vec F S2048x256 .f32) (x1 : Vec F S256x128 .f32) (x2 : Vec F S128x1 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The region's proof data -/

/-- The arrays as the region finds them; after the body at point t each input's buffer at its block and each output's
    at what the body computes from the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KFrame1Runs.lean ====
/-
  The attention kernel's body on whole memrefs, one run per control case of its two conditionals. The grid is 8 row
  tiles by 4 column tiles; within a row tile the body carries three scratch arrays from one column tile to the next: the
  running row maximum, the running row sum and the running weighted sum of projected features.
  Case A (the first column tile): the body first resets the three scratch arrays, then folds the tile in.
  Case B (a middle column tile): it folds the tile into what the scratch arrays held.
  Case C (the last column tile): it folds the tile in and then stores the quotient through the unit into the output block.
  In cases A and B the output block's buffer is not touched. Each run's witness is the list of pieces (last store first)
  each written buffer ends with.
-/
import proofs.«152033_j31903017074983_2_alg».proof.Proof.Gen.Kernel.Launch
import proofs.«152033_j31903017074983_2_alg».proof.Proof.Gen.Kernel.Skeleton
import proofs.«152033_j31903017074983_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions of the two conditionals, from the grid coordinates -/

/-- The first conditional: the column tile is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional: the column tile is the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the pipeline calls the body with -/

/-- One staging buffer of the output window, through which its contents are stated. -/
abbrev VO1_4 : View sig .tc .vmem S1024x128 .f32 := (Memref.whole cc1_stg4_0 : Memref sig .tc .vmem S1024x128 .f32).view
abbrev ms1_0 (t : Fin cfg1.N) : Memref sig .tc .vmem S1024x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16384x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The three scratch arrays: the running maximum, the running sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view

/-! ## The runs -/

set_option maxHeartbeats 4000000 in
/-- Case A: the first column tile of a row tile. The scratch arrays come at anything. -/
noncomputable def kernelRun1_A (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__gat_kernel_eq_skeleton]; unfold cc1__gat_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- Case B: a middle column tile. The scratch arrays come at what the tile before left. -/
noncomputable def kernelRun1_B (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__gat_kernel_eq_skeleton]; unfold cc1__gat_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- Case C: the last column tile. The output block's buffer comes at anything and ends with the case's pieces. -/
noncomputable def kernelRun1_C (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨?_, ?_, ?_, ?_, fun E K => ?run⟩
  case run =>
    simp only [cc1__gat_kernel_eq_skeleton]; unfold cc1__gat_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.KFrame1.lean ====
/-
  The attention kernel's region of the program, at the buffer contents V the region is entered from: what the output
  block's buffer and the three scratch arrays hold after each grid point (by recursion on the point: a point that is not
  the first column tile of its row tile starts from what the point before left in the scratch arrays), the region's
  invariant carrying the scratch arrays from point to point, its proof data and the body obligation at every point.
-/
import proofs.«152033_j31903017074983_2_alg».proof.Proof.KFrame1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read off its run's pieces -/

/-- What case A leaves in the output block's buffer: its pieces read back (none: the block is not touched in this case, and nothing consults this value). -/
def out1_A_4 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) : Vec F S1024x128 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)
/-- Case A's pieces for scratch array 0 tile it. -/
theorem scover1_A_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y
/-- What case A leaves in scratch array 0. -/
def sout1_A_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)
/-- Case A's pieces for scratch array 1 tile it. -/
theorem scover1_A_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y
/-- What case A leaves in scratch array 1. -/
def sout1_A_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)
/-- Case A's pieces for scratch array 2 tile it. -/
theorem scover1_A_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x128.size (by sl_kernel_rfl) y
/-- What case A leaves in scratch array 2. -/
def sout1_A_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) : Vec F S1024x128 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)
/-- What case B leaves in the output block's buffer: its pieces read back (none: the block is not touched in this case, and nothing consults this value). -/
def out1_B_4 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)
/-- Case B's pieces for scratch array 0 tile it. -/
theorem scover1_B_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y
/-- What case B leaves in scratch array 0. -/
def sout1_B_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)
/-- Case B's pieces for scratch array 1 tile it. -/
theorem scover1_B_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y
/-- What case B leaves in scratch array 1. -/
def sout1_B_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)
/-- Case B's pieces for scratch array 2 tile it. -/
theorem scover1_B_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y
/-- What case B leaves in scratch array 2. -/
def sout1_B_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)
/-- Case C's pieces for the output block tile it. -/
theorem cover1_C_4 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x128.size (by sl_kernel_rfl) y
/-- What case C leaves in the output block's buffer: its pieces read back. -/
def out1_C_4 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)
/-- Case C's pieces for scratch array 0 tile it. -/
theorem scover1_C_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y
/-- What case C leaves in scratch array 0. -/
def sout1_C_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)
/-- Case C's pieces for scratch array 1 tile it. -/
theorem scover1_C_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y
/-- What case C leaves in scratch array 1. -/
def sout1_C_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)
/-- Case C's pieces for scratch array 2 tile it. -/
theorem scover1_C_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y
/-- What case C leaves in scratch array 2. -/
def sout1_C_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-- The region's invariant before the first point: the scoped buffers that are no staging buffer of this region (the
    other region's staging buffers and the three scratch arrays), each at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the buffers hold after each point -/

/-- The output block's buffer and the three scratch arrays after the body at position n: the case the point is in (the
    first, a middle or the last column tile of its row tile), run at the point's memrefs and input blocks, the scratch
    arrays taken from what position n - 1 left unless the point is a first column tile. -/
def outsAt1 (c : Dev nD) : (n : ℕ) → n < cfg1.N → Vec F S1024x128 .f32 × Vec F S1024x1 .f32 × Vec F S1024x1 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every scratch array at anything; afterwards each
    scratch array at what the point before left in it; beside them the other scoped buffers at some contents and the
    generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the point's position among the column tiles says which
    case it is in; the invariant hands the body the scratch arrays at what the point before left (at anything at a
    first column tile) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · by_cases h1 : t.val % 4 = 3
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      ·
        rw [PhiS_castSucc V c t, PhiS_zero V c _ _ hz, PhiA1_eq]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      ·
        rw [PhiS_castSucc V c t, PhiS_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      have hz : t.val ≠ 0 := by omega
      ·
        rw [PhiS_castSucc V c t, PhiS_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      have hz : t.val ≠ 0 := by omega
      ·
        rw [PhiS_castSucc V c t, PhiS_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back at some contents. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨R0, R1, R2, R3, R4, R5, R6, R7, R8, R9, R10, HS0, HS1, HS2⟩, Hg⟩
  isplitl [R0 R1 R2 R3 R4 R5 R6 R7 R8 R9 R10 HS0 HS1 HS2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HS0]; · iexists _; iexact HS0
    isplitl [HS1]; · iexists _; iexact HS1
    iexists _; iexact HS2
  iexact Hg

end Region1

end Cert.Kernel.Hand

end
-- ==== Proof.KFrameRun.lean ====
/-
  The whole run of the program: the buffer contents at each boundary between the host stretches and the two kernel
  regions, folded from the launch memory; each region as a segment entered from and left at those contents; and the
  run itself: every weakly fair execution terminates, nothing faulting, and every unscoped buffer ends at the last
  boundary's contents — the arguments as launched, the result array at what the attention region's write-backs leave.
-/
import proofs.«152033_j31903017074983_2_alg».proof.Proof.KFrame0
import proofs.«152033_j31903017074983_2_alg».proof.Proof.KFrame1
import proofs.«152033_j31903017074983_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the two slices of a (the projection region's entry). -/
abbrev W1 : Dev nD → Valuation τ sig (Elt F) := fun c => StableHlo.after hostOps0 (W0 m ρ c)
abbrev Va1 : (c : Dev nD) → (b : Ref sig .tc) → Buf (Elt F) ((c : Thread nD τ).loc b) := fun c b => W1 m ρ c b
/-- At the projection region's exit: its arrays at what its write-backs leave, every other buffer as entered. -/
def W2 (c : Dev nD) : Valuation τ sig (Elt F) :=
  Pipeline.withArrays spec0 c (W1 m ρ c) fun w => (dat0 (Va1 m ρ) c).arrAt w cfg0.N
theorem W2_arr (c : Dev nD) (w : Fin cfg0.W) :
    W2 m ρ c (Proc.devRef .tc (Pipeline.arrRef spec0 w)) = (dat0 (Va1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Va2 : (c : Dev nD) → (b : Ref sig .tc) → Buf (Elt F) ((c : Thread nD τ).loc b) := fun c b => W2 m ρ c b
theorem hF0 (c : Dev nD) (w : Fin cfg0.W) : (dat0 (Va1 m ρ) c).arrAt w cfg0.N = Va2 m ρ c (Pipeline.arrRef spec0 w) :=
  (W2_arr m ρ c w).symm
theorem hrest0 (c : Dev nD) : ∀ b, b ∉ Finset.univ.image (Pipeline.arrRef spec0) → Va2 m ρ c b = Va1 m ρ c b :=
  fun b hb => W2_of_ne m ρ c b fun w e => hb (Finset.mem_image.mpr ⟨w, Finset.mem_univ _, e⟩)

/-- After the slice of the row scores and the reshape of the column scores (the attention region's entry). -/
abbrev W3 : Dev nD → Valuation τ sig (Elt F) := fun c => StableHlo.after hostOps1 (W2 m ρ c)
abbrev Va3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (Va3 m ρ) c).arrAt w cfg1.N
theorem W4_arr (c : Dev nD) (w : Fin cfg1.W) :
    W4 m ρ c (Proc.devRef .tc (Pipeline.arrRef spec1 w)) = (dat1 (Va3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Va4 : (c : Dev nD) → (b : Ref sig .tc) → Buf (Elt F) ((c : Thread nD τ).loc b) := fun c b => W4 m ρ c b
theorem hF1 (c : Dev nD) (w : Fin cfg1.W) : (dat1 (Va3 m ρ) c).arrAt w cfg1.N = Va4 m ρ c (Pipeline.arrRef spec1 w) :=
  (W4_arr m ρ c w).symm
theorem hrest1 (c : Dev nD) : ∀ b, b ∉ Finset.univ.image (Pipeline.arrRef spec1) → Va4 m ρ c b = Va3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (Va1 m ρ) c).arrAt_in 0 rfl _).trans (A_eq0 (Va1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (Va3 m ρ) c).arrAt_in 0 rfl _).trans (A_eq1 (Va3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (Va1 m ρ) c).arrAt_in 1 rfl _).trans (A_eq0 (Va1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array ends at what the attention region's write-backs leave in it. -/
theorem W4_main_v5 (c : Dev nD) : W4 m ρ c (Proc.devRef .tc main_v5) = (dat1 (Va3 m ρ) c).arrAt 4 cfg1.N :=
  W4_arr m ρ c 4

/-! ## The proof data family and the thread state -/

abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (Va1 m ρ) c
  | ⟨1, _⟩ => fun c => dat1 (Va3 m ρ) c
abbrev 𝒱h : Variants := Variants.none
abbrev Lh : GSem nD τ sig → Finset Unit := fun _ => ∅
abbrev lvh : GSem nD τ sig → Unit → ℕ := fun _ _ => 0
/-- What rides beside the buffers through every segment: the generator register at some state and the core owing nothing. -/
abbrev Rh (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the write-backs leave; the generator
    register goes into the region's invariant and comes back; nothing is owed; the kernel has no semaphore of its own. -/
def preg0 : Pipeline.RegionSeg (pcfgs (F := F)) padm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ Lh lvh 0 fun _ _ => rfl
  pre c := iprop(StableHlo.held (c : Thread nD τ) (Pipeline.ucRefs τ sig) (W1 m ρ c) ∗ Rh c)
  post c := iprop(StableHlo.held (c : Thread nD τ) (Pipeline.ucRefs τ sig) (W2 m ρ c) ∗ Rh c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (Va1 m ρ c) (Va2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the write-backs leave; the generator
    register goes into the region's invariant and comes back; nothing is owed; the kernel has no semaphore of its own. -/
def preg1 : Pipeline.RegionSeg (pcfgs (F := F)) padm (pdats m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Va3 m ρ) c).loose
  hwaits := Pipeline.hwaits_of_owed_zero _ _ _ _ Lh lvh 1 fun _ _ => rfl
  pre c := iprop(StableHlo.held (c : Thread nD τ) (Pipeline.ucRefs τ sig) (W3 m ρ c) ∗ Rh c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have hΦ := hout1 (Va3 m ρ) c
    rw [Pipeline.ownSems0_none]
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (Va3 m ρ c) (Va4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev psegs : List (Pipeline.Seg (pcfgs (F := F)) padm (pdats m ρ) () defs₀ 𝒱h Lh lvh) :=
  [ .host (hseg hostOps0 hostOps0_sub hostOps0_fresh (W0 m ρ)),
    .region (preg0 m ρ),
    .host (hseg hostOps1 hostOps1_sub hostOps1_fresh (W2 m ρ)),
    .region (preg1 m ρ) ]
theorem main_run (c : Dev nD) : main (F := F) c = Pipeline.Seg.run (psegs m ρ) := (main_chain c).trans (by chain_rfl)

set_option backward.isDefEq.respectTransparency.types false in
/-- The run: from any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) padm (pdats m ρ) () cellOf_inj emb₁ defs₀ 𝒱h Lh lvh m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rh c)) (Tₙ := Tend m ρ)
    (hch := ⟨fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result named: the result array ends at what the attention region's write-backs leave, the arguments
    as launched. -/
theorem run_result : θ_run defs (onTc (τ := τ) (main (F := F))) ⟨m, fun _ => 0, ρ⟩ (fun r => ∀ c : Dev nD,
      r.2.mem ((c.tc : Thread nD τ).loc main_v5) = (dat1 (Va3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W4_main_v5 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.Frame0.lean ====
/-
  The projection kernel's region of the program, at the buffer contents V the region is entered from: what a grid
  point's body leaves in each of its three output blocks as a function of its four input blocks (the 2048 rows of x
  of the point, the whole of w, the two halves of a), the body's run, the region's proof data and the body
  obligation at every point. Point t computes rows 2048 t .. 2048 t + 2047 of wh = x w, of wh a1 and of wh a2.
-/
import proofs.«152033_j31903017074983_2_alg».proof.Proof.Gen.KernelIdeal.Launch
import proofs.«152033_j31903017074983_2_alg».proof.Proof.Gen.KernelIdeal.Skeleton
import proofs.«152033_j31903017074983_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not: an input the
    pipeline does not fetch at a point has not moved its block index since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref is read and written whole -/

abbrev rx0 : Rect S2048x256 := Rect.unit (s := S2048x256) ![0, 0] S2048x256.size inb_S2048x256_S2048x256_0_0
abbrev rx1 : Rect S256x128 := Rect.unit (s := S256x128) ![0, 0] S256x128.size inb_S256x128_S256x128_0_0
abbrev rx2 : Rect S128x1 := Rect.unit (s := S128x1) ![0, 0] S128x1.size inb_S128x1_S128x1_0_0
abbrev ro4 : Rect S2048x128 := Rect.unit (s := S2048x128) ![0, 0] S2048x128.size inb_S2048x128_S2048x128_0_0
abbrev ro5 : Rect S2048x1 := Rect.unit (s := S2048x1) ![0, 0] S2048x1.size inb_S2048x1_S2048x1_0_0

/-- The projected rows: the block of x times w. -/
def out0_4 (x0 : Vec F S2048x256 .f32) (x1 : Vec F S256x128 .f32) : Vec F S2048x128 .f32 :=
  View.canon [⟨ro4, k0_pay1 (View.ld x0 rx0) (View.ld x1 rx1)⟩]
/-- The projected rows against the first half of a. -/
def out0_5 (x0 : Vec F S2048x256 .f32) (x1 : Vec F S256x128 .f32) (x2 : Vec F S128x1 .f32) : Vec F S2048x1 .f32 :=
  View.canon [⟨ro5, k0_pay2 (View.ld x0 rx0) (View.ld x1 rx1) (View.ld x2 rx2)⟩]
/-- The projected rows against the second half of a. -/
def out0_6 (x0 : Vec F S2048x256 .f32) (x1 : Vec F S256x128 .f32) (x3 : Vec F S128x1 .f32) : Vec F S2048x1 .f32 :=
  View.canon [⟨ro5, k0_pay3 (View.ld x0 rx0) (View.ld x1 rx1) (View.ld x3 rx2)⟩]

theorem cover0_4 (p0 : Vec F S2048x128 .f32) (y : S2048x128.Idx) :
    ∃ pc ∈ ([⟨ro4, p0⟩] : List (View.Piece (Elt F) S2048x128 .f32)), y ∈ pc.1.set :=
  View.cover_of_tiled [⟨ro4, p0⟩] S2048x128.size (by rfl) y
theorem cover0_5 (p0 : Vec F S2048x1 .f32) (y : S2048x1.Idx) :
    ∃ pc ∈ ([⟨ro5, p0⟩] : List (View.Piece (Elt F) S2048x1 .f32)), y ∈ pc.1.set :=
  View.cover_of_tiled [⟨ro5, p0⟩] S2048x1.size (by rfl) y

set_option maxHeartbeats 1000000 in
/-- The body on whole staging memrefs, the inputs' at contents xW and the outputs' at anything, runs to the
    continuation holding the inputs' as they were and each output's at outK_W of the inputs'. -/
theorem sound_kernel0 (c : Dev nD) (E : Set ℕ) (i : grid0.Coords)
    (arg1 : Memref sig .tc .vmem S2048x256 .f32) (harg1 : arg1.IsWhole) (arg2 : Memref sig .tc .vmem S256x128 .f32) (harg2 : arg2.IsWhole)
    (arg3 : Memref sig .tc .vmem S128x1 .f32) (harg3 : arg3.IsWhole) (arg4 : Memref sig .tc .vmem S128x1 .f32) (harg4 : arg4.IsWhole)
    (arg5 : Memref sig .tc .vmem S2048x128 .f32) (harg5 : arg5.IsWhole) (arg6 : Memref sig .tc .vmem S2048x1 .f32) (harg6 : arg6.IsWhole)
    (arg7 : Memref sig .tc .vmem S2048x1 .f32) (harg7 : arg7.IsWhole)
    (x0 : Vec F S2048x256 .f32) (x1 : Vec F S256x128 .f32) (x2 : Vec F S128x1 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The region's proof data -/

/-- The arrays as the region finds them; after the body at point t each input's buffer at its block and each output's
    at what the body computes from the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Frame1Runs.lean ====
/-
  The attention kernel's body on whole memrefs, one run per control case of its two conditionals. The grid is 8 row
  tiles by 4 column tiles; within a row tile the body carries three scratch arrays from one column tile to the next: the
  running row maximum, the running row sum and the running weighted sum of projected features.
  Case A (the first column tile): the body first resets the three scratch arrays, then folds the tile in.
  Case B (a middle column tile): it folds the tile into what the scratch arrays held.
  Case C (the last column tile): it folds the tile in and then stores the quotient through the unit into the output block.
  In cases A and B the output block's buffer is not touched. Each run's witness is the list of pieces (last store first)
  each written buffer ends with.
-/
import proofs.«152033_j31903017074983_2_alg».proof.Proof.Gen.KernelIdeal.Launch
import proofs.«152033_j31903017074983_2_alg».proof.Proof.Gen.KernelIdeal.Skeleton
import proofs.«152033_j31903017074983_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions of the two conditionals, from the grid coordinates -/

/-- The first conditional: the column tile is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional: the column tile is the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the pipeline calls the body with -/

/-- One staging buffer of the output window, through which its contents are stated. -/
abbrev VO1_4 : View sig .tc .vmem S1024x128 .f32 := (Memref.whole cc1_stg4_0 : Memref sig .tc .vmem S1024x128 .f32).view
abbrev ms1_0 (t : Fin cfg1.N) : Memref sig .tc .vmem S1024x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16384x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The three scratch arrays: the running maximum, the running sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view

/-! ## The runs -/

set_option maxHeartbeats 4000000 in
/-- Case A: the first column tile of a row tile. The scratch arrays come at anything. -/
noncomputable def kernelRun1_A (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__gat_kernel_eq_skeleton]; unfold cc1__gat_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- Case B: a middle column tile. The scratch arrays come at what the tile before left. -/
noncomputable def kernelRun1_B (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__gat_kernel_eq_skeleton]; unfold cc1__gat_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- Case C: the last column tile. The output block's buffer comes at anything and ends with the case's pieces. -/
noncomputable def kernelRun1_C (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨?_, ?_, ?_, ?_, fun E K => ?run⟩
  case run =>
    simp only [cc1__gat_kernel_eq_skeleton]; unfold cc1__gat_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.Frame1.lean ====
/-
  The attention kernel's region of the program, at the buffer contents V the region is entered from: what the output
  block's buffer and the three scratch arrays hold after each grid point (by recursion on the point: a point that is not
  the first column tile of its row tile starts from what the point before left in the scratch arrays), the region's
  invariant carrying the scratch arrays from point to point, its proof data and the body obligation at every point.
-/
import proofs.«152033_j31903017074983_2_alg».proof.Proof.Frame1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read off its run's pieces -/

/-- What case A leaves in the output block's buffer: its pieces read back (none: the block is not touched in this case, and nothing consults this value). -/
def out1_A_4 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) : Vec F S1024x128 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)
/-- Case A's pieces for scratch array 0 tile it. -/
theorem scover1_A_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y
/-- What case A leaves in scratch array 0. -/
def sout1_A_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)
/-- Case A's pieces for scratch array 1 tile it. -/
theorem scover1_A_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y
/-- What case A leaves in scratch array 1. -/
def sout1_A_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)
/-- Case A's pieces for scratch array 2 tile it. -/
theorem scover1_A_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x128.size (by sl_kernel_rfl) y
/-- What case A leaves in scratch array 2. -/
def sout1_A_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x4096 .f32) (x1 : Vec F S1024x1 .f32) (x2 : Vec F S1x4096 .f32) (x3 : Vec F S16384x128 .f32) : Vec F S1024x128 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)
/-- What case B leaves in the output block's buffer: its pieces read back (none: the block is not touched in this case, and nothing consults this value). -/
def out1_B_4 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)
/-- Case B's pieces for scratch array 0 tile it. -/
theorem scover1_B_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y
/-- What case B leaves in scratch array 0. -/
def sout1_B_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)
/-- Case B's pieces for scratch array 1 tile it. -/
theorem scover1_B_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y
/-- What case B leaves in scratch array 1. -/
def sout1_B_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)
/-- Case B's pieces for scratch array 2 tile it. -/
theorem scover1_B_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y
/-- What case B leaves in scratch array 2. -/
def sout1_B_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)
/-- Case C's pieces for the output block tile it. -/
theorem cover1_C_4 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x128.size (by sl_kernel_rfl) y
/-- What case C leaves in the output block's buffer: its pieces read back. -/
def out1_C_4 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)
/-- Case C's pieces for scratch array 0 tile it. -/
theorem scover1_C_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y
/-- What case C leaves in scratch array 0. -/
def sout1_C_0 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)
/-- Case C's pieces for scratch array 1 tile it. -/
theorem scover1_C_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y
/-- What case C leaves in scratch array 1. -/
def sout1_C_1 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)
/-- Case C's pieces for scratch array 2 tile it. -/
theorem scover1_C_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y
/-- What case C leaves in scratch array 2. -/
def sout1_C_2 (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-- The region's invariant before the first point: the scoped buffers that are no staging buffer of this region (the
    other region's staging buffers and the three scratch arrays), each at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the buffers hold after each point -/

/-- The output block's buffer and the three scratch arrays after the body at position n: the case the point is in (the
    first, a middle or the last column tile of its row tile), run at the point's memrefs and input blocks, the scratch
    arrays taken from what position n - 1 left unless the point is a first column tile. -/
def outsAt1 (c : Dev nD) : (n : ℕ) → n < cfg1.N → Vec F S1024x128 .f32 × Vec F S1024x1 .f32 × Vec F S1024x1 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every scratch array at anything; afterwards each
    scratch array at what the point before left in it; beside them the other scoped buffers at some contents and the
    generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the point's position among the column tiles says which
    case it is in; the invariant hands the body the scratch arrays at what the point before left (at anything at a
    first column tile) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · by_cases h1 : t.val % 4 = 3
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      ·
        rw [PhiS_castSucc V c t, PhiS_zero V c _ _ hz, PhiA1_eq]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      ·
        rw [PhiS_castSucc V c t, PhiS_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      have hz : t.val ≠ 0 := by omega
      ·
        rw [PhiS_castSucc V c t, PhiS_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      have hz : t.val ≠ 0 := by omega
      ·
        rw [PhiS_castSucc V c t, PhiS_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back at some contents. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨R0, R1, R2, R3, R4, R5, R6, R7, R8, R9, R10, HS0, HS1, HS2⟩, Hg⟩
  isplitl [R0 R1 R2 R3 R4 R5 R6 R7 R8 R9 R10 HS0 HS1 HS2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HS0]; · iexists _; iexact HS0
    isplitl [HS1]; · iexists _; iexact HS1
    iexists _; iexact HS2
  iexact Hg

end Region1

end Cert.KernelIdeal.Hand

end
-- ==== Proof.FrameRun.lean ====
/-
  The whole run of the program: the buffer contents at each boundary between the host stretches and the two kernel
  regions, folded from the launch memory; each region as a segment entered from and left at those contents; and the
  run itself: every weakly fair execution terminates, nothing faulting, and every unscoped buffer ends at the last
  boundary's contents — the arguments as launched, the result array at what the attention region's write-backs leave.
-/
import proofs.«152033_j31903017074983_2_alg».proof.Proof.Frame0
import proofs.«152033_j31903017074983_2_alg».proof.Proof.Frame1
import proofs.«152033_j31903017074983_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the two slices of a (the projection region's entry). -/
abbrev W1 : Dev nD → Valuation τ sig (Elt F) := fun c => StableHlo.after hostOps0 (W0 m ρ c)
abbrev Va1 : (c : Dev nD) → (b : Ref sig .tc) → Buf (Elt F) ((c : Thread nD τ).loc b) := fun c b => W1 m ρ c b
/-- At the projection region's exit: its arrays at what its write-backs leave, every other buffer as entered. -/
def W2 (c : Dev nD) : Valuation τ sig (Elt F) :=
  Pipeline.withArrays spec0 c (W1 m ρ c) fun w => (dat0 (Va1 m ρ) c).arrAt w cfg0.N
theorem W2_arr (c : Dev nD) (w : Fin cfg0.W) :
    W2 m ρ c (Proc.devRef .tc (Pipeline.arrRef spec0 w)) = (dat0 (Va1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Va2 : (c : Dev nD) → (b : Ref sig .tc) → Buf (Elt F) ((c : Thread nD τ).loc b) := fun c b => W2 m ρ c b
theorem hF0 (c : Dev nD) (w : Fin cfg0.W) : (dat0 (Va1 m ρ) c).arrAt w cfg0.N = Va2 m ρ c (Pipeline.arrRef spec0 w) :=
  (W2_arr m ρ c w).symm
theorem hrest0 (c : Dev nD) : ∀ b, b ∉ Finset.univ.image (Pipeline.arrRef spec0) → Va2 m ρ c b = Va1 m ρ c b :=
  fun b hb => W2_of_ne m ρ c b fun w e => hb (Finset.mem_image.mpr ⟨w, Finset.mem_univ _, e⟩)

/-- After the slice of the row scores and the reshape of the column scores (the attention region's entry). -/
abbrev W3 : Dev nD → Valuation τ sig (Elt F) := fun c => StableHlo.after hostOps1 (W2 m ρ c)
abbrev Va3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (Va3 m ρ) c).arrAt w cfg1.N
theorem W4_arr (c : Dev nD) (w : Fin cfg1.W) :
    W4 m ρ c (Proc.devRef .tc (Pipeline.arrRef spec1 w)) = (dat1 (Va3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Va4 : (c : Dev nD) → (b : Ref sig .tc) → Buf (Elt F) ((c : Thread nD τ).loc b) := fun c b => W4 m ρ c b
theorem hF1 (c : Dev nD) (w : Fin cfg1.W) : (dat1 (Va3 m ρ) c).arrAt w cfg1.N = Va4 m ρ c (Pipeline.arrRef spec1 w) :=
  (W4_arr m ρ c w).symm
theorem hrest1 (c : Dev nD) : ∀ b, b ∉ Finset.univ.image (Pipeline.arrRef spec1) → Va4 m ρ c b = Va3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (Va1 m ρ) c).arrAt_in 0 rfl _).trans (A_eq0 (Va1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (Va3 m ρ) c).arrAt_in 0 rfl _).trans (A_eq1 (Va3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (Va1 m ρ) c).arrAt_in 1 rfl _).trans (A_eq0 (Va1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array ends at what the attention region's write-backs leave in it. -/
theorem W4_main_v5 (c : Dev nD) : W4 m ρ c (Proc.devRef .tc main_v5) = (dat1 (Va3 m ρ) c).arrAt 4 cfg1.N :=
  W4_arr m ρ c 4

/-! ## The proof data family and the thread state -/

abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (Va1 m ρ) c
  | ⟨1, _⟩ => fun c => dat1 (Va3 m ρ) c
abbrev 𝒱h : Variants := Variants.none
abbrev Lh : GSem nD τ sig → Finset Unit := fun _ => ∅
abbrev lvh : GSem nD τ sig → Unit → ℕ := fun _ _ => 0
/-- What rides beside the buffers through every segment: the generator register at some state and the core owing nothing. -/
abbrev Rh (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the write-backs leave; the generator
    register goes into the region's invariant and comes back; nothing is owed; the kernel has no semaphore of its own. -/
def preg0 : Pipeline.RegionSeg (pcfgs (F := F)) padm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ Lh lvh 0 fun _ _ => rfl
  pre c := iprop(StableHlo.held (c : Thread nD τ) (Pipeline.ucRefs τ sig) (W1 m ρ c) ∗ Rh c)
  post c := iprop(StableHlo.held (c : Thread nD τ) (Pipeline.ucRefs τ sig) (W2 m ρ c) ∗ Rh c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (Va1 m ρ c) (Va2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the write-backs leave; the generator
    register goes into the region's invariant and comes back; nothing is owed; the kernel has no semaphore of its own. -/
def preg1 : Pipeline.RegionSeg (pcfgs (F := F)) padm (pdats m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Va3 m ρ) c).loose
  hwaits := Pipeline.hwaits_of_owed_zero _ _ _ _ Lh lvh 1 fun _ _ => rfl
  pre c := iprop(StableHlo.held (c : Thread nD τ) (Pipeline.ucRefs τ sig) (W3 m ρ c) ∗ Rh c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have hΦ := hout1 (Va3 m ρ) c
    rw [Pipeline.ownSems0_none]
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (Va3 m ρ c) (Va4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev psegs : List (Pipeline.Seg (pcfgs (F := F)) padm (pdats m ρ) () defs₀ 𝒱h Lh lvh) :=
  [ .host (hseg hostOps0 hostOps0_sub hostOps0_fresh (W0 m ρ)),
    .region (preg0 m ρ),
    .host (hseg hostOps1 hostOps1_sub hostOps1_fresh (W2 m ρ)),
    .region (preg1 m ρ) ]
theorem main_run (c : Dev nD) : main (F := F) c = Pipeline.Seg.run (psegs m ρ) := (main_chain c).trans (by chain_rfl)

set_option backward.isDefEq.respectTransparency.types false in
/-- The run: from any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) padm (pdats m ρ) () cellOf_inj emb₁ defs₀ 𝒱h Lh lvh m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rh c)) (Tₙ := Tend m ρ)
    (hch := ⟨fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result named: the result array ends at what the attention region's write-backs leave, the arguments
    as launched. -/
theorem run_result : θ_run defs (onTc (τ := τ) (main (F := F))) ⟨m, fun _ => 0, ρ⟩ (fun r => ∀ c : Dev nD,
      r.2.mem ((c.tc : Thread nD τ).loc main_v5) = (dat1 (Va3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W4_main_v5 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/-
  The mathematics both programs compute, over the extended reals, as functions of the four argument arrays read by
  coordinates: x (16384 x 256 node features), adj (8192 x 16384 adjacency), w (256 x 128 projection), a (256 attention
  vector, its first half scoring the row node and its second half the column node).

  wh = x w is the projected feature matrix; wh1 and wh2 are its products with the two halves of a. The attention score of
  row r and column n is the leaky rectifier of wh1 r + wh2 n, kept where adj r n is nonzero and multiplied by adj r n, and
  replaced by a large negative finite constant where that product is zero. Each row of scores goes through a softmax and
  the softmax weights average the rows of wh; the result goes through the exponential linear unit.

  The reference (refOut) takes the row maximum M and the row sum L of exp (score - M) over all 16384 columns at once and
  divides each weight by L before the weighted sum. The kernel (kerOut) sweeps the columns in four tiles of 4096, carrying
  a running maximum m, a running sum l and a running weighted sum acc, rescaling l and acc by exp (m_old - m_new) at each
  tile, and divides acc by l once at the end.
-/
import Idealize.ShloMosaic.PureOps.Ideal
import Idealize.ShloMosaic.Lib.ValueIdx

noncomputable section

open scoped BigOperators

namespace Cert.GatSpec

open Idealize.ShloMosaic

/-- The leaky rectifier's slope, the binary32 word nearest 0.2 (the same word in both programs). -/
abbrev slope : EReal := Ideal.ofBits .f32 0x3E4CCCCD#32
/-- The finite stand-in for minus infinity that masks a zero attention product, the binary32 word nearest -9e15 (the same
    word in both programs). -/
abbrev negBig : EReal := Ideal.ofBits .f32 0xD9FFCB9E#32

variable (x : Fin 16384 → Fin 256 → EReal) (adj : Fin 8192 → Fin 16384 → EReal) (w : Fin 256 → Fin 128 → EReal)
  (a : Fin 256 → EReal)

/-- The projected features: row n of x times column o of w. -/
def wh (n : Fin 16384) (o : Fin 128) : EReal := ∑ k : Fin 256, x n k * w k o

/-- The first half of the attention vector. -/
def a1 (o : Fin 128) : EReal := a ⟨o.val, by omega⟩
/-- The second half of the attention vector. -/
def a2 (o : Fin 128) : EReal := a ⟨128 + o.val, by omega⟩

/-- The row node's score: the projected features against the first half of a. -/
def wh1 (n : Fin 16384) : EReal := ∑ o : Fin 128, wh x w n o * a1 a o
/-- The column node's score: the projected features against the second half of a. -/
def wh2 (n : Fin 16384) : EReal := ∑ o : Fin 128, wh x w n o * a2 a o

/-- The leaky rectifier. -/
def leaky (z : EReal) : EReal := if 0 ≤ z then z else slope * z

/-- The exponential linear unit. -/
def elu (q : EReal) : EReal := if 0 < q then q else Ideal.exp q - 1

/-- The masking of one attention entry: the rectified sum z of the two node scores is kept where the adjacency entry ad is
    nonzero, multiplied by ad, and replaced by the large negative constant where that product is zero. -/
def scoreOf (ad z : EReal) : EReal :=
  if (if ad ≠ 0 then leaky z else 0) * ad = 0 then negBig else (if ad ≠ 0 then leaky z else 0) * ad

/-- The masked attention score of row r (one of the first 8192 nodes) and column n. -/
def score (r : Fin 8192) (n : Fin 16384) : EReal :=
  if (if adj r n ≠ 0 then leaky (wh1 x w a ⟨r.val, by omega⟩ + wh2 x w a n) else 0) * adj r n = 0 then negBig
  else (if adj r n ≠ 0 then leaky (wh1 x w a ⟨r.val, by omega⟩ + wh2 x w a n) else 0) * adj r n

/-- The score is the masking of the adjacency entry and the sum of the two node scores. -/
theorem score_eq (r : Fin 8192) (n : Fin 16384) :
    score x adj w a r n = scoreOf (adj r n) (wh1 x w a ⟨r.val, by omega⟩ + wh2 x w a n) := rfl

/-! ## The reference: one softmax over the whole row -/

/-- The row's largest score (the supremum over the columns, from minus infinity). -/
def rowMax (r : Fin 8192) : EReal := Finset.univ.sup (score x adj w a r)
/-- The unnormalised softmax weight. -/
def wgt (r : Fin 8192) (n : Fin 16384) : EReal := Ideal.exp (score x adj w a r n - rowMax x adj w a r)
/-- The softmax denominator. -/
def rowSum (r : Fin 8192) : EReal := ∑ n : Fin 16384, wgt x adj w a r n
/-- The reference's result: normalise each weight, average the projected features, apply the unit. -/
def refOut (r : Fin 8192) (o : Fin 128) : EReal :=
  elu (∑ n : Fin 16384, Ideal.div (wgt x adj w a r n) (rowSum x adj w a r) * wh x w n o)

/-! ## The kernel: the same softmax swept over four column tiles -/

/-- Column c of tile j. (Taken modulo the row length so that it is total in j; the kernel meets j < 4 only.) -/
def colOf (j : ℕ) (c : Fin 4096) : Fin 16384 := ⟨(4096 * j + c.val) % 16384, Nat.mod_lt _ (by norm_num)⟩

/-- What the sweep carries from tile to tile: the running maximum, the running sum, the running weighted sum. -/
structure KState where
  m : EReal
  l : EReal
  acc : Fin 128 → EReal

/-- Before the first tile: minus infinity, zero, zero. -/
def kinit : KState := ⟨⊥, 0, fun _ => 0⟩

/-- The largest score within tile j of row r. -/
def tileMax (r : Fin 8192) (j : ℕ) : EReal := Finset.univ.sup fun c : Fin 4096 => score x adj w a r (colOf j c)

/-- One tile of the sweep: raise the maximum, rescale what was carried by exp (old maximum - new maximum), add the tile's
    weights and weighted features taken against the new maximum. -/
def kstep (r : Fin 8192) (j : ℕ) (s : KState) : KState :=
  ⟨max s.m (tileMax x adj w a r j),
   Ideal.exp (s.m - max s.m (tileMax x adj w a r j)) * s.l
     + ∑ c : Fin 4096, Ideal.exp (score x adj w a r (colOf j c) - max s.m (tileMax x adj w a r j)),
   fun o => Ideal.exp (s.m - max s.m (tileMax x adj w a r j)) * s.acc o
     + ∑ c : Fin 4096, Ideal.exp (score x adj w a r (colOf j c) - max s.m (tileMax x adj w a r j)) * wh x w (colOf j c) o⟩

/-- The carried state after the first j tiles. -/
def kstate (r : Fin 8192) : ℕ → KState
  | 0 => kinit
  | j + 1 => kstep x adj w a r j (kstate r j)

/-- The kernel's result: the weighted sum over the running sum after all four tiles, through the unit. -/
def kerOut (r : Fin 8192) (o : Fin 128) : EReal :=
  elu (Ideal.div ((kstate x adj w a r 4).acc o) (kstate x adj w a r 4).l)

/-- Every entry of the four arrays is a real number (what the precondition gives). -/
def Finite : Prop :=
  (∀ n k, ∃ y : ℝ, x n k = (y : EReal)) ∧ (∀ r n, ∃ y : ℝ, adj r n = (y : EReal))
    ∧ (∀ k o, ∃ y : ℝ, w k o = (y : EReal)) ∧ (∀ k, ∃ y : ℝ, a k = (y : EReal))

end Cert.GatSpec

end
-- ==== Proof.LibDotRows.lean ====
/-
  A plain two-dimensional contraction read at an index.

  For dimension numbers that contract the left operand's columns with the right operand's rows and have
  no batch axis — an M×K array times a K×N array — the sum over the contraction index that a matrix
  product denotes on the extended reals is the familiar row-by-column sum: entry (r, c) of the product is
  the sum over k < K of left (r, k) · right (k, c).  Both the kernel-side product into a zero accumulator
  and the host-side product follow.
-/
import Idealize.ShloMosaic.Lib.ValueIdx
import Idealize.ShloMosaic.PureOps.Ideal.Laws

noncomputable section

namespace Idealize.ShloMosaic.DotRows

open Idealize.ShloMosaic Idealize.ShloMosaic.ValueIdx

/-- The contraction sum of a plain M×K by K×N product at entry `j` is the sum over `k < K` of the left
    operand at (row of `j`, `k`) times the right operand at (`k`, column of `j`). -/
theorem contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  obtain ⟨lc, rc, ln, rn, lb, rb, wf⟩ := d
  dsimp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx j ((contrEquiv1 (DotDims.mk [1] [0] [0] [1] [] [] wf) K rfl rfl).symm k)
      = ix2 (j 0) k := funext fun a => Fin.ext (by
    match a with
    | ⟨0, _⟩ =>
      show ((DotDims.mk [1] [0] [0] [1] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [0] [0] [1] [] [] wf).lhsIdx_val_of_single rfl j _).trans hk)
  have er : (DotDims.mk [1] [0] [0] [1] [] [] wf).rhsIdx j ((contrEquiv1 (DotDims.mk [1] [0] [0] [1] [] [] wf) K rfl rfl).symm k)
      = ix2 k (j 1) := funext fun a => Fin.ext (by
    match a with
    | ⟨0, _⟩ => exact ((DotDims.mk [1] [0] [0] [1] [] [] wf).rhsIdx_val_of_single rfl j _).trans hk
    | ⟨1, _⟩ =>
      show ((DotDims.mk [1] [0] [0] [1] [] [] wf).rhsIdx j _ 1).val = (j 1).val
      unfold DotDims.rhsIdx
      rw [dif_neg (show ¬ (1 : Fin 2) ∈ ([] : List (Fin 2)) from List.not_mem_nil),
        dif_pos (show (1 : Fin 2) ∈ ([1] : List (Fin 2)) from List.mem_singleton.mpr rfl)]
      rfl)
  exact congrArg₂ (fun a b => lhs a * rhs b) el er

/-- A kernel-side matrix product into the zero accumulator, at the ideal values, is the row-by-column sum. -/
theorem matmul_zero_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j
      = ∑ k : Fin K, lhs (ix2 (j 0) k) * rhs (ix2 k (j 1)) :=
  (Ideal.matmul_constant_zero_apply d prec lhs rhs j).trans (contr_sum d hlc hrc hln hrn hlb hrb lhs rhs j)

/-- A host-side matrix product, at the ideal values, is the same row-by-column sum. -/
theorem dotGeneral_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    Host.dotGeneral d prec lhs rhs j = ∑ k : Fin K, lhs (ix2 (j 0) k) * rhs (ix2 k (j 1)) := by
  simp only [Host.dotGeneral]
  exact (Ideal.dotGeneral_apply d prec _ lhs rhs j).trans (contr_sum d hlc hrc hln hrn hlb hrb lhs rhs j)

/-- The same two facts at an index given by its two coordinates. -/
theorem matmul_zero_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) :=
  matmul_zero_apply d hlc hrc hln hrn hlb hrb prec lhs rhs (ix2 p q)

theorem dotGeneral_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) :=
  dotGeneral_apply d hlc hrc hln hrn hlb hrb prec lhs rhs (ix2 p q)

end Idealize.ShloMosaic.DotRows

end
-- ==== Proof.PayloadValues1.lean ====
/-
  The attention kernel's stored values, read entry by entry over the extended reals.

  Each value the kernel body stores is one term of the values it loaded.  Read at one entry (row p, column q or
  feature o) every such term is ordinary arithmetic: the masked score is the masking of the adjacency entry and the
  rectified sum of the two node scores; the raised maximum is the larger of the carried maximum and the supremum of the
  tile's scores along the row; the rescale factor and the tile's weights are exponentials of differences against the
  raised maximum; the new running sum and the new weighted sum are the rescaled carried values plus the row's sum of
  weights and the row of weights against the feature columns; the final value is the exponential linear unit of the
  quotient; and the three initial values are minus infinity, zero and zero.

  The only facts used beyond the pointwise reading of the elementwise operations are: a column of length a seen as an
  a x 1 array has the column's entry in each row; an a x 1 array broadcast along the columns has its row's entry
  everywhere; a lane reduction of an a x b array is the sum, or the supremum, over the b entries of the row; a product
  with the zero accumulator is the row-by-column sum.
-/
import proofs.«152033_j31903017074983_2_alg».proof.Proof.Gen.KernelIdeal.Skeleton
import proofs.«152033_j31903017074983_2_alg».proof.Proof.Spec
import proofs.«152033_j31903017074983_2_alg».proof.Proof.LibDotRows
import Idealize.ShloMosaic.Lib.ValueLayout
import Idealize.ShloMosaic.PureOps.Ideal.Laws

noncomputable section

open scoped BigOperators

namespace Cert.KernelIdeal.HandVal

open Cert.KernelIdeal Cert.KernelIdeal.Gen Idealize.ShloMosaic Idealize.ShloMosaic.ValueIdx

/-! ## Three words -/

/-- The all-ones-exponent negative word is minus infinity. -/
theorem ofBits_negInf : Ideal.ofBits .f32 0xFF800000#32 = ⊥ := by simp [Ideal.ofBits, Ideal.ieee]

/-- The word 0x3F800000 is one. -/
theorem ofBits_one : Ideal.ofBits .f32 0x3F800000#32 = 1 := by
  simp [Ideal.ofBits, Ideal.ieee, -EReal.coe_mul]; norm_num

/-- A select on a decided proposition's bit is the if-then-else on the proposition. -/
theorem select_ofBool {α : Type} (P : Prop) [Decidable P] (x y : α) :
    Scalar.select (BitVec.ofBool (decide P)) x y = if P then x else y := by
  unfold Scalar.select
  by_cases h : P <;> simp [h]

/-! ## Layout: a column as an a x 1 array, and an a x 1 array broadcast along the columns -/

section Layout
variable {α : Type}

/-- A length-a array seen as a x 1 has, in row i, the array's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 array broadcast to a x b has, at (p, c), the entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Lane reductions of an a x b array, read at a row -/

/-- The entry of an a x b array over row p with column k inserted is (p, k). -/
theorem lift_row {a b : ℕ} (h : (⟨2, ![a, b]⟩ : Shape).Reduces [1] ⟨1, ![a]⟩) (p : Fin a) (k : Fin b) :
    h.lift (ix1 p) k = ix2 p k := by
  funext c
  refine Fin.ext ?_
  match c with
  | ⟨0, _⟩ => rfl
  | ⟨1, _⟩ => rfl

/-- A fold of the maximum from minus infinity is the supremum. -/
theorem fold_max_bot_eq_sup {ι : Type} [DecidableEq ι] (s : Finset ι) (f : ι → EReal) :
    s.fold max ⊥ f = s.sup f := by
  induction s using Finset.induction_on with
  | empty => simp
  | insert a s ha ih => rw [Finset.fold_insert ha, Finset.sup_insert, ih]

/-- The lane sum of an a x b array at row p is the sum of the row's b entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ q : Fin b, src (ix2 p q) :=
  (Ideal.multiReduction_add_single src 0x00000000#32 h hφ hacc (ix1 p)).trans
    (Finset.sum_congr rfl fun k _ => congrArg src (lift_row h p k))

/-- The lane maximum of an a x b array at row p is the supremum of the row's b entries. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = Finset.univ.sup fun q : Fin b => src (ix2 p q) := by
  refine (Ideal.multiReduction_maximumf_single src 0xFF800000#32 h hφ hacc (ix1 p)).trans ?_
  rw [Ideal.ofBits_def, ofBits_negInf]
  have e : (src ∘ h.lift (ix1 p)) = fun q : Fin b => src (ix2 p q) := funext fun k => congrArg src (lift_row h p k)
  rw [e]
  exact fold_max_bot_eq_sup _ _

/-! ## The two case analyses, on one entry -/

/-- The masked score, as the kernel's selects compute it on one entry, is the specification's masking. -/
theorem score_word (ad z : EReal) :
    Scalar.select
        (Ideal.cmp .oeq
          (Scalar.select (Ideal.cmp .one ad (Ideal.ofBits .f32 0x00000000#32))
              (Scalar.select (Ideal.cmp .oge z (Ideal.ofBits .f32 0x00000000#32)) z (Ideal.ofBits .f32 0x3E4CCCCD#32 * z))
              (Ideal.ofBits .f32 0x00000000#32) * ad)
          (Ideal.ofBits .f32 0x00000000#32))
        (Ideal.ofBits .f32 0xD9FFCB9E#32)
        (Scalar.select (Ideal.cmp .one ad (Ideal.ofBits .f32 0x00000000#32))
              (Scalar.select (Ideal.cmp .oge z (Ideal.ofBits .f32 0x00000000#32)) z (Ideal.ofBits .f32 0x3E4CCCCD#32 * z))
              (Ideal.ofBits .f32 0x00000000#32) * ad)
      = Cert.GatSpec.scoreOf ad z := by
  rw [Ideal.ofBits_zero_f32]
  unfold Cert.GatSpec.scoreOf Cert.GatSpec.leaky Ideal.cmp
  simp only [select_ofBool]

/-- The exponential linear unit, as the kernel's select computes it on one entry. -/
theorem elu_word (d : EReal) :
    Scalar.select (Ideal.cmp .ogt d (Ideal.ofBits .f32 0x00000000#32)) d (Ideal.exp d - Ideal.ofBits .f32 0x3F800000#32)
      = Cert.GatSpec.elu d := by
  rw [Ideal.ofBits_zero_f32, ofBits_one]
  unfold Cert.GatSpec.elu Ideal.cmp
  simp only [select_ofBool]

/-! ## The attention kernel's values -/

/-- The masked score at (p, q): the masking of the adjacency entry and the sum of the row's and the column's node scores. -/
theorem pay1_8 (v3 : Vec Ideal S1024x4096 .f32) (v4 : Vec Ideal S1024x1 .f32) (v6 : Vec Ideal S1x4096 .f32)
    (p : Fin 1024) (q : Fin 4096) :
    k1_pay8 (F := Ideal) v3 v4 v6 (ix2 p q) = Cert.GatSpec.scoreOf (v3 (ix2 p q)) (v4 (ix2 p 0) + v6 (ix2 0 q)) := by
  have hA : addf (F := Ideal) (φ := .f32) (broadcastTo S1024x4096 (shapeCast S1024x1 v4 Facts₀.shapeCasts_S1024x1_S1024x1) Facts₀.broadcasts_S1024x1_S1024x4096)
      (broadcastTo S1024x4096 (shapeCast S1x4096 v6 Facts₀.shapeCasts_S1x4096_S1x4096) Facts₀.broadcasts_S1x4096_S1024x4096) (ix2 p q)
      = v4 (ix2 p 0) + v6 (ix2 0 q) := by
    rw [addf_apply, broadcastTo_a1_ab_apply, broadcastTo_1b_ab_apply, shapeCast_self, shapeCast_self]
  refine Eq.trans ?_ (score_word (v3 (ix2 p q)) (v4 (ix2 p 0) + v6 (ix2 0 q)))
  rw [← hA]
  rfl

/-- The raised maximum at row p: the larger of the carried maximum and the supremum of the row's scores over the tile. -/
theorem pay1_9 (v3 : Vec Ideal S1024x4096 .f32) (v4 : Vec Ideal S1024x1 .f32) (v6 : Vec Ideal S1x4096 .f32)
    (v25 : Vec Ideal S1024x1 .f32) (p : Fin 1024) :
    k1_pay9 (F := Ideal) v3 v4 v6 v25 (ix2 p 0)
      = max (v25 (ix2 p 0)) (Finset.univ.sup fun q : Fin 4096 => k1_pay8 (F := Ideal) v3 v4 v6 (ix2 p q)) := by
  unfold k1_pay9
  refine (maximumf_apply (φ := .f32) _ _ (ix2 p 0)).trans ?_
  refine congrArg (max (v25 (ix2 p 0))) ?_
  refine (shapeCast_a_a1_apply _ _ p 0).trans ?_
  exact rowMax_apply (k1_pay8 (F := Ideal) v3 v4 v6) _ _ _ p

/-- The rescale factor at row p: the exponential of the carried maximum less the raised one. -/
theorem pay1_10 (v3 : Vec Ideal S1024x4096 .f32) (v4 : Vec Ideal S1024x1 .f32) (v6 : Vec Ideal S1x4096 .f32)
    (v25 : Vec Ideal S1024x1 .f32) (v29 : Vec Ideal S1024x1 .f32) (p : Fin 1024) :
    k1_pay10 (F := Ideal) v3 v4 v6 v25 v29 (ix2 p 0)
      = Ideal.exp (v29 (ix2 p 0) - k1_pay9 (F := Ideal) v3 v4 v6 v25 (ix2 p 0)) := by
  unfold k1_pay10
  rfl

/-- The tile's weight at (p, q): the exponential of the score less the row's raised maximum. -/
theorem pay1_11 (v3 : Vec Ideal S1024x4096 .f32) (v4 : Vec Ideal S1024x1 .f32) (v6 : Vec Ideal S1x4096 .f32)
    (v25 : Vec Ideal S1024x1 .f32) (p : Fin 1024) (q : Fin 4096) :
    k1_pay11 (F := Ideal) v3 v4 v6 v25 (ix2 p q)
      = Ideal.exp (k1_pay8 (F := Ideal) v3 v4 v6 (ix2 p q) - k1_pay9 (F := Ideal) v3 v4 v6 v25 (ix2 p 0)) := by
  unfold k1_pay11
  exact congrArg (fun t => Ideal.exp (k1_pay8 (F := Ideal) v3 v4 v6 (ix2 p q) - t))
    (broadcastTo_a1_ab_apply (k1_pay9 (F := Ideal) v3 v4 v6 v25) _ p q)

/-- The new running sum at row p: the rescaled carried sum plus the sum of the row's weights. -/
theorem pay1_1 (v31 : FVec Ideal S1024x1 .f32) (v34 : FVec Ideal S1024x4096 .f32) (v35 : Vec Ideal S1024x1 .f32)
    (p : Fin 1024) :
    k1_pay1 (F := Ideal) v31 v34 v35 (ix2 p 0) = v31 (ix2 p 0) * v35 (ix2 p 0) + ∑ q : Fin 4096, v34 (ix2 p q) := by
  unfold k1_pay1
  rw [shapeCast_self]
  refine (addf_apply (φ := .f32) _ _ (ix2 p 0)).trans ?_
  refine congrArg (fun t => v31 (ix2 p 0) * v35 (ix2 p 0) + t) ?_
  refine (shapeCast_a_a1_apply _ _ p 0).trans ?_
  exact rowSum_apply v34 _ _ _ p

/-- The new weighted sum at (p, o): the rescaled carried value plus the row of weights against feature column o. -/
theorem pay1_2 (v31 : FVec Ideal S1024x1 .f32) (v34 : FVec Ideal S1024x4096 .f32) (v46 : Vec Ideal S4096x128 .f32)
    (v48 : Vec Ideal S1024x128 .f32) (p : Fin 1024) (o : Fin 128) :
    k1_pay2 (F := Ideal) v31 v34 v46 v48 (ix2 p o)
      = v31 (ix2 p 0) * v48 (ix2 p o) + ∑ q : Fin 4096, v34 (ix2 p q) * v46 (ix2 q o) := by
  unfold k1_pay2
  rw [shapeCast_self, shapeCast_self]
  refine (addf_apply (φ := .f32) _ _ (ix2 p o)).trans ?_
  refine congrArg₂ (· + ·) ?_ ?_
  · refine (mulf_apply (φ := .f32) _ _ (ix2 p o)).trans ?_
    exact congrArg (· * v48 (ix2 p o)) (broadcastTo_a1_ab_apply v31 _ p o)
  · exact DotRows.matmul_zero_ix2 dot_S1024x4096_S4096x128_S1024x128_1_0_0_1_n_n rfl rfl rfl rfl rfl rfl none v34 v46 p o

/-- The stored maximum is the raised maximum itself. -/
theorem pay1_3 (v28 : FVec Ideal S1024x1 .f32) : k1_pay3 (F := Ideal) v28 = v28 := by
  unfold k1_pay3
  exact shapeCast_self v28 _

/-- The final value at (p, o): the exponential linear unit of the weighted sum over the running sum. -/
theorem pay1_4 (v62 : Vec Ideal S1024x128 .f32) (v63 : Vec Ideal S1024x1 .f32) (p : Fin 1024) (o : Fin 128) :
    k1_pay4 (F := Ideal) v62 v63 (ix2 p o) = Cert.GatSpec.elu (Ideal.div (v62 (ix2 p o)) (v63 (ix2 p 0))) := by
  have hD : divf (F := Ideal) (φ := .f32) v62 (broadcastTo S1024x128 v63 Facts₀.broadcasts_S1024x1_S1024x128) (ix2 p o)
      = Ideal.div (v62 (ix2 p o)) (v63 (ix2 p 0)) := by
    rw [divf_apply, broadcastTo_a1_ab_apply]
  refine Eq.trans ?_ (elu_word (Ideal.div (v62 (ix2 p o)) (v63 (ix2 p 0))))
  rw [← hD]
  rfl

/-- The initial maximum is minus infinity. -/
theorem pay1_5 (p : Fin 1024) : k1_pay5 (F := Ideal) (ix2 p 0) = ⊥ := by
  unfold k1_pay5
  rw [shapeCast_self]
  exact ofBits_negInf

/-- The initial running sum is zero. -/
theorem pay1_6 (p : Fin 1024) : k1_pay6 (F := Ideal) (ix2 p 0) = 0 := by
  unfold k1_pay6
  rw [shapeCast_self]
  exact Ideal.ofBits_zero_f32

/-- The initial weighted sum is zero. -/
theorem pay1_7 (p : Fin 1024) (o : Fin 128) : k1_pay7 (F := Ideal) (ix2 p o) = 0 := by
  unfold k1_pay7
  rw [shapeCast_self]
  exact Ideal.ofBits_zero_f32

end Cert.KernelIdeal.HandVal

end
-- ==== Proof.TileStep.lean ====
/-
  One column tile of the attention sweep, for one row, as a function of the row's entries in the tile: the masked scores
  from the adjacency entries ad q and the node scores h1 (the row's) and h2 q (the columns'), the raised maximum, and the
  carried sum and weighted sum rescaled and extended by the tile's weights against the projected features whT q o.
  The specification's step (kstep) is this function at the tile's entries, and the kernel body's three stored payloads,
  read at the row, are this function at the entries of the blocks it loaded.
-/
import proofs.«152033_j31903017074983_2_alg».proof.Proof.Spec
import proofs.«152033_j31903017074983_2_alg».proof.Proof.PayloadValues1

noncomputable section

open scoped BigOperators

namespace Cert.GatSpec

open Idealize.ShloMosaic

/-- One tile of the sweep for one row, from the row's entries in the tile. -/
def kstepL (ad : Fin 4096 → EReal) (h1 : EReal) (h2 : Fin 4096 → EReal) (whT : Fin 4096 → Fin 128 → EReal) (s : KState) : KState :=
  ⟨max s.m (Finset.univ.sup fun q : Fin 4096 => scoreOf (ad q) (h1 + h2 q)),
   Ideal.exp (s.m - max s.m (Finset.univ.sup fun q : Fin 4096 => scoreOf (ad q) (h1 + h2 q))) * s.l
     + ∑ q : Fin 4096, Ideal.exp (scoreOf (ad q) (h1 + h2 q) - max s.m (Finset.univ.sup fun q : Fin 4096 => scoreOf (ad q) (h1 + h2 q))),
   fun o => Ideal.exp (s.m - max s.m (Finset.univ.sup fun q : Fin 4096 => scoreOf (ad q) (h1 + h2 q))) * s.acc o
     + ∑ q : Fin 4096, Ideal.exp (scoreOf (ad q) (h1 + h2 q) - max s.m (Finset.univ.sup fun q : Fin 4096 => scoreOf (ad q) (h1 + h2 q))) * whT q o⟩

/-- The specification's step is the tile function at the tile's entries of the four arrays. -/
theorem kstep_eq (x : Fin 16384 → Fin 256 → EReal) (adj : Fin 8192 → Fin 16384 → EReal) (w : Fin 256 → Fin 128 → EReal)
    (a : Fin 256 → EReal) (r : Fin 8192) (j : ℕ) (s : KState) :
    kstep x adj w a r j s
      = kstepL (fun q => adj r (colOf j q)) (wh1 x w a ⟨r.val, by omega⟩) (fun q => wh2 x w a (colOf j q))
          (fun q o => wh x w (colOf j q) o) s := rfl

end Cert.GatSpec

namespace Cert.KernelIdeal.HandVal

open Cert.KernelIdeal Cert.KernelIdeal.Gen Idealize.ShloMosaic Idealize.ShloMosaic.ValueIdx Cert.GatSpec

variable (x0 : Vec Ideal S1024x4096 .f32) (x1 : Vec Ideal S1024x1 .f32) (x2 : Vec Ideal S1x4096 .f32)
  (v46 : Vec Ideal S4096x128 .f32) (xs0 : Vec Ideal S1024x1 .f32) (xs1 : Vec Ideal S1024x1 .f32) (xs2 : Vec Ideal S1024x128 .f32)

/-- The carried state of row p read off the three scratch arrays. -/
def rowState (p : Fin 1024) : KState := ⟨xs0 (ix2 p 0), xs1 (ix2 p 0), fun o => xs2 (ix2 p o)⟩

/-- The tile function at row p of the loaded blocks. -/
def rowStep (p : Fin 1024) : KState :=
  kstepL (fun q => x0 (ix2 p q)) (x1 (ix2 p 0)) (fun q => x2 (ix2 0 q)) (fun q o => v46 (ix2 q o)) (rowState xs0 xs1 xs2 p)

/-- The masked scores of row p, as the body computes them. -/
theorem sup_pay8 (p : Fin 1024) :
    (Finset.univ.sup fun q : Fin 4096 => k1_pay8 (F := Ideal) x0 x1 x2 (ix2 p q))
      = Finset.univ.sup fun q : Fin 4096 => scoreOf (x0 (ix2 p q)) (x1 (ix2 p 0) + x2 (ix2 0 q)) :=
  congrArg (Finset.univ.sup) (funext fun q => pay1_8 x0 x1 x2 p q)

/-- The stored maximum at row p is the tile function's. -/
theorem step_m (p : Fin 1024) :
    k1_pay3 (F := Ideal) (k1_pay9 (F := Ideal) x0 x1 x2 xs0) (ix2 p 0) = (rowStep x0 x1 x2 v46 xs0 xs1 xs2 p).m := by
  rw [pay1_3, pay1_9, sup_pay8]; rfl

/-- The stored running sum at row p is the tile function's. -/
theorem step_l (p : Fin 1024) :
    k1_pay1 (F := Ideal) (k1_pay10 (F := Ideal) x0 x1 x2 xs0 xs0) (k1_pay11 (F := Ideal) x0 x1 x2 xs0) xs1 (ix2 p 0)
      = (rowStep x0 x1 x2 v46 xs0 xs1 xs2 p).l := by
  rw [pay1_1, pay1_10, pay1_9, sup_pay8]
  simp only [pay1_11, pay1_8, pay1_9, sup_pay8]
  rfl

/-- The stored running weighted sum at row p, column o, is the tile function's. -/
theorem step_acc (p : Fin 1024) (o : Fin 128) :
    k1_pay2 (F := Ideal) (k1_pay10 (F := Ideal) x0 x1 x2 xs0 xs0) (k1_pay11 (F := Ideal) x0 x1 x2 xs0) v46 xs2 (ix2 p o)
      = (rowStep x0 x1 x2 v46 xs0 xs1 xs2 p).acc o := by
  rw [pay1_2, pay1_10, pay1_9, sup_pay8]
  simp only [pay1_11, pay1_8, pay1_9, sup_pay8]
  rfl

end Cert.KernelIdeal.HandVal

end
-- ==== Proof.SweepBlocks.lean ====
/-
  The attention region's input blocks read at an index, in the specification's terms. Grid point t is row tile t / 4 and
  column tile t % 4: its adjacency block is rows 1024 (t / 4) .. and columns 4096 (t % 4) .. of the adjacency array, its
  row-score block the same rows of the row scores, its column-score block the same columns of the column scores, and the
  projected features come whole, the body slicing out the 4096 rows of the column tile itself. Given what the region's
  arrays hold on entry, one tile of the sweep computed from the blocks is the specification's step for the global row.
-/
import proofs.«152033_j31903017074983_2_alg».proof.Proof.Frame1
import proofs.«152033_j31903017074983_2_alg».proof.Proof.TileStep

set_option maxRecDepth 16384

noncomputable section

open scoped BigOperators

namespace Cert.KernelIdeal.HandVal

open Cert.KernelIdeal Cert.KernelIdeal.Gen Cert.KernelIdeal.Hand Idealize.ShloMosaic Idealize.ShloMosaic.TcCoe Idealize.ShloMosaic.ValueIdx Cert.GatSpec
open Idealize.SL.Sem

/-- The global row of local row p of the row tile of point t. (Modulo the row count, so that it is total in t.) -/
def rowOf (t : ℕ) (p : Fin 1024) : Fin 8192 := ⟨(1024 * (t / 4) + p.val) % 8192, Nat.mod_lt _ (by norm_num)⟩

/-- The printed index maps, decided over the grid. -/
theorem idx1_facts : ∀ t : Fin cfg1.N,
    win1_0.index t (0 : Fin 2) = t.val / 4 ∧ win1_0.index t (1 : Fin 2) = t.val % 4
    ∧ win1_1.index t (0 : Fin 2) = t.val / 4 ∧ win1_1.index t (1 : Fin 2) = 0
    ∧ win1_2.index t (0 : Fin 2) = 0 ∧ win1_2.index t (1 : Fin 2) = t.val % 4
    ∧ win1_3.index t (0 : Fin 2) = 0 ∧ win1_3.index t (1 : Fin 2) = 0
    ∧ win1_4.index t (0 : Fin 2) = t.val / 4 ∧ win1_4.index t (1 : Fin 2) = 0
    ∧ ((grid1.coords t) (1 : Fin 2)).val = t.val % 4 :=
  (by decide +kernel : ∀ t : Fin grid1.N, _)

/-- The body's own slice of the projected features: 4096 rows from the column tile's offset. -/
theorem ld_slice (x3 : Vec Ideal S16384x128 .f32) (i : grid1.Coords) (q : Fin 4096) (o : Fin 128) :
    View.ld x3 (Rect.unit (s := S16384x128) (k1_off1 i) S4096x128.size (k1_off1_inb i)) (ix2 q o)
      = x3 (ix2 (⟨(4096 * (i 1).val + q.val) % 16384, Nat.mod_lt _ (by norm_num)⟩ : Fin 16384) o) := by
  have hi : (i 1).val < 4 := (i 1).isLt
  have e0 : k1_off1 i 0 = 4096 * (i 1).val := by rw [k1_off1_eq]; rfl
  have e1 : k1_off1 i 1 = 0 := by rw [k1_off1_eq]; rfl
  show x3 ((Rect.unit (s := S16384x128) (k1_off1 i) S4096x128.size (k1_off1_inb i)).idx (ix2 q o)) = _
  refine congrArg x3 (funext fun d => Fin.ext ?_)
  match d with
  | ⟨0, _⟩ => show k1_off1 i 0 + 1 * q.val = (4096 * (i 1).val + q.val) % 16384; have hq := q.isLt; omega
  | ⟨1, _⟩ => show k1_off1 i 1 + 1 * o.val = o.val; omega

section Blocks

variable (V : (c : Dev nD) → (b : Ref sig .tc) → Buf (Elt Ideal) ((c : Thread nD τ).loc b)) (c : Dev nD)
variable (x : Fin 16384 → Fin 256 → EReal) (adj : Fin 8192 → Fin 16384 → EReal) (w : Fin 256 → Fin 128 → EReal) (a : Fin 256 → EReal)

/-- The adjacency block. -/
theorem blk0 (hAdj : ∀ (r : Fin 8192) (n : Fin 16384), (V c main_arg1 : S8192x16384.Idx → EReal) (ix2 r n) = adj r n)
    (t : Fin cfg1.N) (p : Fin 1024) (q : Fin 4096) :
    (iblk1 V c 0 t : S1024x4096.Idx → EReal) (ix2 p q) = adj (rowOf t.val p) (colOf (t.val % 4) q) := by
  obtain ⟨e0, e1, -⟩ := idx1_facts t
  have hN : t.val < 32 := lt_of_lt_of_eq t.isLt (show cfg1.N = 32 from N_1)
  rw [← hAdj]
  show (V c main_arg1 : S8192x16384.Idx → EReal) (((cfg1.win 0).blk t).view.emb (ix2 p q)) = _
  refine congrArg _ (funext fun d => Fin.ext ?_)
  match d with
  | ⟨0, _⟩ => show win1_0.index t (0 : Fin 2) * 1024 + 1 * p.val = (1024 * (t.val / 4) + p.val) % 8192; have hp := p.isLt; omega
  | ⟨1, _⟩ => show win1_0.index t (1 : Fin 2) * 4096 + 1 * q.val = (4096 * (t.val % 4) + q.val) % 16384; have hq := q.isLt; omega

/-- The row-score block. -/
theorem blk1 (hWh1 : ∀ r : Fin 8192, (V c main_v3 : S8192x1.Idx → EReal) (ix2 r 0) = wh1 x w a ⟨r.val, by omega⟩)
    (t : Fin cfg1.N) (p : Fin 1024) :
    (iblk1 V c 1 t : S1024x1.Idx → EReal) (ix2 p 0) = wh1 x w a ⟨(rowOf t.val p).val, by omega⟩ := by
  obtain ⟨-, -, e0, e1, -⟩ := idx1_facts t
  have hN : t.val < 32 := lt_of_lt_of_eq t.isLt (show cfg1.N = 32 from N_1)
  rw [← hWh1]
  show (V c main_v3 : S8192x1.Idx → EReal) (((cfg1.win 1).blk t).view.emb (ix2 p 0)) = _
  refine congrArg _ (funext fun d => Fin.ext ?_)
  match d with
  | ⟨0, _⟩ => show win1_1.index t (0 : Fin 2) * 1024 + 1 * p.val = (1024 * (t.val / 4) + p.val) % 8192; have hp := p.isLt; omega
  | ⟨1, _⟩ => show win1_1.index t (1 : Fin 2) * 1 + 1 * 0 = 0; omega

/-- The column-score block. -/
theorem blk2 (hWh2 : ∀ n : Fin 16384, (V c main_v4 : S1x16384.Idx → EReal) (ix2 0 n) = wh2 x w a n)
    (t : Fin cfg1.N) (q : Fin 4096) :
    (iblk1 V c 2 t : S1x4096.Idx → EReal) (ix2 0 q) = wh2 x w a (colOf (t.val % 4) q) := by
  obtain ⟨-, -, -, -, e0, e1, -⟩ := idx1_facts t
  rw [← hWh2]
  show (V c main_v4 : S1x16384.Idx → EReal) (((cfg1.win 2).blk t).view.emb (ix2 0 q)) = _
  refine congrArg _ (funext fun d => Fin.ext ?_)
  match d with
  | ⟨0, _⟩ => show win1_2.index t (0 : Fin 2) * 1 + 1 * 0 = 0; omega
  | ⟨1, _⟩ => show win1_2.index t (1 : Fin 2) * 4096 + 1 * q.val = (4096 * (t.val % 4) + q.val) % 16384; have hq := q.isLt; omega

/-- The projected features, whole. -/
theorem blk3 (hWh : ∀ (n : Fin 16384) (o : Fin 128), (V c main_v2_0 : S16384x128.Idx → EReal) (ix2 n o) = wh x w n o)
    (t : Fin cfg1.N) (n : Fin 16384) (o : Fin 128) :
    (iblk1 V c 3 t : S16384x128.Idx → EReal) (ix2 n o) = wh x w n o := by
  obtain ⟨-, -, -, -, -, -, e0, e1, -⟩ := idx1_facts t
  rw [← hWh]
  show (V c main_v2_0 : S16384x128.Idx → EReal) (((cfg1.win 3).blk t).view.emb (ix2 n o)) = _
  refine congrArg _ (funext fun d => Fin.ext ?_)
  match d with
  | ⟨0, _⟩ => show win1_3.index t (0 : Fin 2) * 16384 + 1 * n.val = n.val; omega
  | ⟨1, _⟩ => show win1_3.index t (1 : Fin 2) * 128 + 1 * o.val = o.val; omega

/-- One tile of the sweep computed from point t's blocks, for local row p carrying the state s, is the specification's
    step of column tile t % 4 for the global row. -/
theorem rowStep_eq
    (hAdj : ∀ (r : Fin 8192) (n : Fin 16384), (V c main_arg1 : S8192x16384.Idx → EReal) (ix2 r n) = adj r n)
    (hWh1 : ∀ r : Fin 8192, (V c main_v3 : S8192x1.Idx → EReal) (ix2 r 0) = wh1 x w a ⟨r.val, by omega⟩)
    (hWh2 : ∀ n : Fin 16384, (V c main_v4 : S1x16384.Idx → EReal) (ix2 0 n) = wh2 x w a n)
    (hWh : ∀ (n : Fin 16384) (o : Fin 128), (V c main_v2_0 : S16384x128.Idx → EReal) (ix2 n o) = wh x w n o)
    (t : Fin cfg1.N) (p : Fin 1024) (xs0 xs1 : Vec Ideal S1024x1 .f32) (xs2 : Vec Ideal S1024x128 .f32) (s : KState)
    (hs : rowState xs0 xs1 xs2 p = s) :
    rowStep (iblk1 V c 0 t) (iblk1 V c 1 t) (iblk1 V c 2 t)
        (View.ld (iblk1 V c 3 t) (Rect.unit (s := S16384x128) (k1_off1 (grid1.coords t)) S4096x128.size (k1_off1_inb (grid1.coords t))))
        xs0 xs1 xs2 p
      = kstep x adj w a (rowOf t.val p) (t.val % 4) s := by
  obtain ⟨-, -, -, -, -, -, -, -, -, -, ec⟩ := idx1_facts t
  unfold rowStep
  rw [hs, kstep_eq]
  have f0 : (fun q : Fin 4096 => (iblk1 V c 0 t : S1024x4096.Idx → EReal) (ix2 p q)) = fun q => adj (rowOf t.val p) (colOf (t.val % 4) q) :=
    funext fun q => blk0 V c adj hAdj t p q
  have f1 : (iblk1 V c 1 t : S1024x1.Idx → EReal) (ix2 p 0) = wh1 x w a ⟨(rowOf t.val p).val, by omega⟩ := blk1 V c x w a hWh1 t p
  have f2 : (fun q : Fin 4096 => (iblk1 V c 2 t : S1x4096.Idx → EReal) (ix2 0 q)) = fun q => wh2 x w a (colOf (t.val % 4) q) :=
    funext fun q => blk2 V c x w a hWh2 t q
  have f3 : (fun (q : Fin 4096) (o : Fin 128) => View.ld (iblk1 V c 3 t : S16384x128.Idx → EReal)
        (Rect.unit (s := S16384x128) (k1_off1 (grid1.coords t)) S4096x128.size (k1_off1_inb (grid1.coords t))) (ix2 q o))
      = fun q o => wh x w (colOf (t.val % 4) q) o := by
    funext q o
    rw [ld_slice, blk3 V c x w hWh t]
    refine congrArg (fun n => wh x w n o) (Fin.ext ?_)
    show (4096 * ((grid1.coords t) 1).val + q.val) % 16384 = (4096 * (t.val % 4) + q.val) % 16384
    rw [ec]
  rw [f0, f1, f2, f3]

end Blocks

end Cert.KernelIdeal.HandVal

end
-- ==== Proof.Pieces1.lean ====
/-
  What each control case of the attention kernel's body leaves in the buffers it writes, as the body's arithmetic applied
  to what it was handed.

  The body loads its three input blocks whole (the adjacency block x0, the row nodes' scores x1, the column nodes' scores
  x2) and a 4096-row slice of the projected features x3 at the tile's offset, and the three scratch arrays whole. A load
  through the whole rectangle at zero offsets reads the contents, one store through it leaves its payload whatever was
  stored before, and a whole load after a whole store reads the stored payload. So in every case each written buffer
  ends holding one payload term: the stored maximum of the raised maximum, the new running sum, the new weighted sum,
  and in the last column tile the unit of their quotient; in the first column tile the carried values are the initial
  ones the body has just stored.
-/
import proofs.«152033_j31903017074983_2_alg».proof.Proof.Frame1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two-axis zero offsets, however spelt, are the zero function. -/
theorem pieces1_hz : (![0, 0] : Fin 2 → Nat) = fun _ => 0 := funext fun a => by fin_cases a <;> rfl

/-! ## A middle column tile: the scratch arrays come at xs0 xs1 xs2 -/

/-- In a middle column tile the running-maximum array ends holding the stored maximum of the raised maximum, taken from the tile's three input blocks and what the tile before left. -/
theorem sout1_B_0_eq (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    sout1_B_0 c i arg2 harg2 arg3 harg3 arg4 harg4 arg5 harg5 arg6 harg6 arg7 harg7 arg8 harg8 arg9 harg9 hc0 hc1 x0 x1 x2 x3 xs0 xs1 xs2 = k1_pay3 (k1_pay9 x0 x1 x2 xs0) := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  (try dsimp only)
  rw [View.canon_unit_zero pieces1_hz]
  simp only [View.readAt_eq_ld, harg2.read_unread, harg3.read_unread, harg4.read_unread, harg5.read_unread, harg7.read_unread, harg8.read_unread, harg9.read_unread,
    View.ld_unit_zero (S := S1024x4096) pieces1_hz, View.ld_unit_zero (S := S1024x1) pieces1_hz, View.ld_unit_zero (S := S1x4096) pieces1_hz, View.ld_unit_zero (S := S1024x128) pieces1_hz]

/-- In a middle column tile the running-sum array ends holding the new running sum, taken from the tile's three input blocks and what the tile before left. -/
theorem sout1_B_1_eq (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    sout1_B_1 c i arg2 harg2 arg3 harg3 arg4 harg4 arg5 harg5 arg6 harg6 arg7 harg7 arg8 harg8 arg9 harg9 hc0 hc1 x0 x1 x2 x3 xs0 xs1 xs2 = k1_pay1 (k1_pay10 x0 x1 x2 xs0 xs0) (k1_pay11 x0 x1 x2 xs0) xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  (try dsimp only)
  rw [View.canon_unit_zero pieces1_hz]
  simp only [View.readAt_eq_ld, harg2.read_unread, harg3.read_unread, harg4.read_unread, harg5.read_unread, harg7.read_unread, harg8.read_unread, harg9.read_unread,
    View.ld_unit_zero (S := S1024x4096) pieces1_hz, View.ld_unit_zero (S := S1024x1) pieces1_hz, View.ld_unit_zero (S := S1x4096) pieces1_hz, View.ld_unit_zero (S := S1024x128) pieces1_hz]

/-- In a middle column tile the weighted-sum array ends holding the new weighted sum, taken from the tile's three input blocks and what the tile before left. -/
theorem sout1_B_2_eq (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    sout1_B_2 c i arg2 harg2 arg3 harg3 arg4 harg4 arg5 harg5 arg6 harg6 arg7 harg7 arg8 harg8 arg9 harg9 hc0 hc1 x0 x1 x2 x3 xs0 xs1 xs2 = k1_pay2 (k1_pay10 x0 x1 x2 xs0 xs0) (k1_pay11 x0 x1 x2 xs0) (View.ld x3 (Rect.unit (s := S16384x128) (k1_off1 i) S4096x128.size (k1_off1_inb i))) xs2 := by
  unfold sout1_B_2
  rw [View.read_writes_eq_canon _ _ _ (scover1_B_2 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  (try dsimp only)
  rw [View.canon_unit_zero pieces1_hz]
  simp only [View.readAt_eq_ld, harg2.read_unread, harg3.read_unread, harg4.read_unread, harg5.read_unread, harg7.read_unread, harg8.read_unread, harg9.read_unread,
    View.ld_unit_zero (S := S1024x4096) pieces1_hz, View.ld_unit_zero (S := S1024x1) pieces1_hz, View.ld_unit_zero (S := S1x4096) pieces1_hz, View.ld_unit_zero (S := S1024x128) pieces1_hz]

/-! ## The last column tile: the same three, and the output block -/

/-- In the last column tile the running-maximum array ends holding the stored maximum of the raised maximum, taken from the tile's three input blocks and what the tile before left. -/
theorem sout1_C_0_eq (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    sout1_C_0 c i arg2 harg2 arg3 harg3 arg4 harg4 arg5 harg5 arg6 harg6 arg7 harg7 arg8 harg8 arg9 harg9 hc0 hc1 x0 x1 x2 x3 xs0 xs1 xs2 = k1_pay3 (k1_pay9 x0 x1 x2 xs0) := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  (try dsimp only)
  rw [View.canon_unit_zero pieces1_hz]
  simp only [View.readAt_eq_ld, harg2.read_unread, harg3.read_unread, harg4.read_unread, harg5.read_unread, harg7.read_unread, harg8.read_unread, harg9.read_unread,
    View.ld_unit_zero (S := S1024x4096) pieces1_hz, View.ld_unit_zero (S := S1024x1) pieces1_hz, View.ld_unit_zero (S := S1x4096) pieces1_hz, View.ld_unit_zero (S := S1024x128) pieces1_hz]

/-- In the last column tile the running-sum array ends holding the new running sum, taken from the tile's three input blocks and what the tile before left. -/
theorem sout1_C_1_eq (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    sout1_C_1 c i arg2 harg2 arg3 harg3 arg4 harg4 arg5 harg5 arg6 harg6 arg7 harg7 arg8 harg8 arg9 harg9 hc0 hc1 x0 x1 x2 x3 xs0 xs1 xs2 = k1_pay1 (k1_pay10 x0 x1 x2 xs0 xs0) (k1_pay11 x0 x1 x2 xs0) xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  (try dsimp only)
  rw [View.canon_unit_zero pieces1_hz]
  simp only [View.readAt_eq_ld, harg2.read_unread, harg3.read_unread, harg4.read_unread, harg5.read_unread, harg7.read_unread, harg8.read_unread, harg9.read_unread,
    View.ld_unit_zero (S := S1024x4096) pieces1_hz, View.ld_unit_zero (S := S1024x1) pieces1_hz, View.ld_unit_zero (S := S1x4096) pieces1_hz, View.ld_unit_zero (S := S1024x128) pieces1_hz]

/-- In the last column tile the weighted-sum array ends holding the new weighted sum, taken from the tile's three input blocks and what the tile before left. -/
theorem sout1_C_2_eq (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    sout1_C_2 c i arg2 harg2 arg3 harg3 arg4 harg4 arg5 harg5 arg6 harg6 arg7 harg7 arg8 harg8 arg9 harg9 hc0 hc1 x0 x1 x2 x3 xs0 xs1 xs2 = k1_pay2 (k1_pay10 x0 x1 x2 xs0 xs0) (k1_pay11 x0 x1 x2 xs0) (View.ld x3 (Rect.unit (s := S16384x128) (k1_off1 i) S4096x128.size (k1_off1_inb i))) xs2 := by
  unfold sout1_C_2
  rw [View.read_writes_eq_canon _ _ _ (scover1_C_2 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  (try dsimp only)
  rw [View.canon_unit_zero pieces1_hz]
  simp only [View.readAt_eq_ld, harg2.read_unread, harg3.read_unread, harg4.read_unread, harg5.read_unread, harg7.read_unread, harg8.read_unread, harg9.read_unread,
    View.ld_unit_zero (S := S1024x4096) pieces1_hz, View.ld_unit_zero (S := S1024x1) pieces1_hz, View.ld_unit_zero (S := S1x4096) pieces1_hz, View.ld_unit_zero (S := S1024x128) pieces1_hz]

/-- In the last column tile the output block ends holding the unit applied to the quotient of the new weighted sum by the
    new running sum: the body reads back the two arrays it has just stored, and a whole-array load after a whole-array
    store reads the stored value. -/
theorem out1_C_4_eq (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x4096 .f32) (x1 : Vec F S1024x1 .f32) (x2 : Vec F S1x4096 .f32) (x3 : Vec F S16384x128 .f32) (xs0 : Vec F S1024x1 .f32) (xs1 : Vec F S1024x1 .f32) (xs2 : Vec F S1024x128 .f32) :
    out1_C_4 c i arg2 harg2 arg3 harg3 arg4 harg4 arg5 harg5 arg6 harg6 arg7 harg7 arg8 harg8 arg9 harg9 hc0 hc1 x0 x1 x2 x3 xs0 xs1 xs2 = k1_pay4 (k1_pay2 (k1_pay10 x0 x1 x2 xs0 xs0) (k1_pay11 x0 x1 x2 xs0) (View.ld x3 (Rect.unit (s := S16384x128) (k1_off1 i) S4096x128.size (k1_off1_inb i))) xs2) (k1_pay1 (k1_pay10 x0 x1 x2 xs0 xs0) (k1_pay11 x0 x1 x2 xs0) xs1) := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  (try dsimp only)
  rw [View.canon_unit_zero pieces1_hz, View.readCov_unit_zero (S := S1024x128) _ pieces1_hz, View.readCov_unit_zero (S := S1024x1) _ pieces1_hz]
  simp only [View.readAt_eq_ld, harg2.read_unread, harg3.read_unread, harg4.read_unread, harg5.read_unread, harg7.read_unread, harg8.read_unread, harg9.read_unread,
    View.ld_unit_zero (S := S1024x4096) pieces1_hz, View.ld_unit_zero (S := S1024x1) pieces1_hz, View.ld_unit_zero (S := S1x4096) pieces1_hz, View.ld_unit_zero (S := S1024x128) pieces1_hz]

/-! ## The first column tile: the body first stores the initial values and then folds the tile in from them -/

/-- In the first column tile the running-maximum array ends holding the stored maximum of the raised maximum, taken from the tile's three input blocks and the initial values (minus infinity, zero, zero) that the body has just stored. -/
theorem sout1_A_0_eq (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 : Vec F S1024x4096 .f32) (x1 : Vec F S1024x1 .f32) (x2 : Vec F S1x4096 .f32) (x3 : Vec F S16384x128 .f32) :
    sout1_A_0 c i arg2 harg2 arg3 harg3 arg4 harg4 arg5 harg5 arg6 harg6 arg7 harg7 arg8 harg8 arg9 harg9 hc0 hc1 x0 x1 x2 x3 = k1_pay3 (k1_pay9 x0 x1 x2 (k1_pay5 (F := F))) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  (try dsimp only)
  rw [View.canon_cons_unit_zero pieces1_hz]
  simp only [View.readCov_unit_zero (S := S1024x1) _ pieces1_hz, View.readCov_unit_zero (S := S1024x128) _ pieces1_hz, View.readAt_eq_ld, harg2.read_unread, harg3.read_unread, harg4.read_unread, harg5.read_unread, harg7.read_unread, harg8.read_unread, harg9.read_unread,
    View.ld_unit_zero (S := S1024x4096) pieces1_hz, View.ld_unit_zero (S := S1024x1) pieces1_hz, View.ld_unit_zero (S := S1x4096) pieces1_hz, View.ld_unit_zero (S := S1024x128) pieces1_hz]

/-- In the first column tile the running-sum array ends holding the new running sum, taken from the tile's three input blocks and the initial values (minus infinity, zero, zero) that the body has just stored. -/
theorem sout1_A_1_eq (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 : Vec F S1024x4096 .f32) (x1 : Vec F S1024x1 .f32) (x2 : Vec F S1x4096 .f32) (x3 : Vec F S16384x128 .f32) :
    sout1_A_1 c i arg2 harg2 arg3 harg3 arg4 harg4 arg5 harg5 arg6 harg6 arg7 harg7 arg8 harg8 arg9 harg9 hc0 hc1 x0 x1 x2 x3 = k1_pay1 (k1_pay10 x0 x1 x2 (k1_pay5 (F := F)) (k1_pay5 (F := F))) (k1_pay11 x0 x1 x2 (k1_pay5 (F := F))) (k1_pay6 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  (try dsimp only)
  rw [View.canon_cons_unit_zero pieces1_hz]
  simp only [View.readCov_unit_zero (S := S1024x1) _ pieces1_hz, View.readCov_unit_zero (S := S1024x128) _ pieces1_hz, View.readAt_eq_ld, harg2.read_unread, harg3.read_unread, harg4.read_unread, harg5.read_unread, harg7.read_unread, harg8.read_unread, harg9.read_unread,
    View.ld_unit_zero (S := S1024x4096) pieces1_hz, View.ld_unit_zero (S := S1024x1) pieces1_hz, View.ld_unit_zero (S := S1x4096) pieces1_hz, View.ld_unit_zero (S := S1024x128) pieces1_hz]

/-- In the first column tile the weighted-sum array ends holding the new weighted sum, taken from the tile's three input blocks and the initial values (minus infinity, zero, zero) that the body has just stored. -/
theorem sout1_A_2_eq (c : Dev nD) (i : grid1.Coords) (arg2 : Memref sig .tc .vmem S1024x4096 .f32) (harg2 : arg2.IsWhole) (arg3 : Memref sig .tc .vmem S1024x1 .f32) (harg3 : arg3.IsWhole) (arg4 : Memref sig .tc .vmem S1x4096 .f32) (harg4 : arg4.IsWhole) (arg5 : Memref sig .tc .vmem S16384x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 : Vec F S1024x4096 .f32) (x1 : Vec F S1024x1 .f32) (x2 : Vec F S1x4096 .f32) (x3 : Vec F S16384x128 .f32) :
    sout1_A_2 c i arg2 harg2 arg3 harg3 arg4 harg4 arg5 harg5 arg6 harg6 arg7 harg7 arg8 harg8 arg9 harg9 hc0 hc1 x0 x1 x2 x3 = k1_pay2 (k1_pay10 x0 x1 x2 (k1_pay5 (F := F)) (k1_pay5 (F := F))) (k1_pay11 x0 x1 x2 (k1_pay5 (F := F))) (View.ld x3 (Rect.unit (s := S16384x128) (k1_off1 i) S4096x128.size (k1_off1_inb i))) (k1_pay7 (F := F)) := by
  unfold sout1_A_2
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A
  dsimp only
  sl_unfold_words
  (try dsimp only)
  rw [View.canon_cons_unit_zero pieces1_hz]
  simp only [View.readCov_unit_zero (S := S1024x1) _ pieces1_hz, View.readCov_unit_zero (S := S1024x128) _ pieces1_hz, View.readAt_eq_ld, harg2.read_unread, harg3.read_unread, harg4.read_unread, harg5.read_unread, harg7.read_unread, harg8.read_unread, harg9.read_unread,
    View.ld_unit_zero (S := S1024x4096) pieces1_hz, View.ld_unit_zero (S := S1024x1) pieces1_hz, View.ld_unit_zero (S := S1x4096) pieces1_hz, View.ld_unit_zero (S := S1024x128) pieces1_hz]

end Cert.KernelIdeal.Hand

end
-- ==== Proof.SweepValue.lean ====
/-
  The attention sweep, point by point: after the grid point of row tile t / 4 and column tile t % 4, the three scratch
  arrays hold, at local row p, the specification's carried state of the global row after t % 4 + 1 tiles (the running
  maximum, the running sum, the running weighted sum). By induction on the point: the first column tile of a row tile
  starts from the initial state the body has just stored, every other one from what the point before left.
-/
import proofs.«152033_j31903017074983_2_alg».proof.Proof.SweepBlocks
import proofs.«152033_j31903017074983_2_alg».proof.Proof.Pieces1

set_option maxRecDepth 16384

noncomputable section

open scoped BigOperators

namespace Cert.KernelIdeal.HandVal

open Cert.KernelIdeal Cert.KernelIdeal.Gen Cert.KernelIdeal.Hand Idealize.ShloMosaic Idealize.ShloMosaic.TcCoe Idealize.ShloMosaic.ValueIdx Cert.GatSpec
open Idealize.SL.Sem
open Idealize.ShloMosaic.Pipeline (Dat)

/-- The three stored payloads of a tile, read at row p, are the tile function of the loaded blocks at the carried state. -/
theorem rowState_step (x0 : Vec Ideal S1024x4096 .f32) (x1 : Vec Ideal S1024x1 .f32) (x2 : Vec Ideal S1x4096 .f32)
    (v46 : Vec Ideal S4096x128 .f32) (xs0 : Vec Ideal S1024x1 .f32) (xs1 : Vec Ideal S1024x1 .f32) (xs2 : Vec Ideal S1024x128 .f32) (p : Fin 1024) :
    rowState (k1_pay3 (F := Ideal) (k1_pay9 (F := Ideal) x0 x1 x2 xs0))
        (k1_pay1 (F := Ideal) (k1_pay10 (F := Ideal) x0 x1 x2 xs0 xs0) (k1_pay11 (F := Ideal) x0 x1 x2 xs0) xs1)
        (k1_pay2 (F := Ideal) (k1_pay10 (F := Ideal) x0 x1 x2 xs0 xs0) (k1_pay11 (F := Ideal) x0 x1 x2 xs0) v46 xs2) p
      = rowStep x0 x1 x2 v46 xs0 xs1 xs2 p := by
  unfold rowState
  rw [step_m x0 x1 x2 v46 xs0 xs1 xs2 p, step_l x0 x1 x2 v46 xs0 xs1 xs2 p]
  simp only [step_acc x0 x1 x2 v46 xs0 xs1 xs2 p]

/-- The state the body stores before the first column tile is the specification's initial state. -/
theorem rowState_init (p : Fin 1024) : rowState (k1_pay5 (F := Ideal)) (k1_pay6 (F := Ideal)) (k1_pay7 (F := Ideal)) p = kinit := by
  unfold rowState kinit
  rw [pay1_5, pay1_6]
  simp only [pay1_7]

section Sweep

variable (V : (c : Dev nD) → (b : Ref sig .tc) → Buf (Elt Ideal) ((c : Thread nD τ).loc b)) (c : Dev nD)
variable (x : Fin 16384 → Fin 256 → EReal) (adj : Fin 8192 → Fin 16384 → EReal) (w : Fin 256 → Fin 128 → EReal) (a : Fin 256 → EReal)

/-- After point n the scratch arrays hold the carried state of each row of its row tile after n % 4 + 1 column tiles. -/
theorem sweep_inv (hAdj : ∀ (r : Fin 8192) (n : Fin 16384), (V c main_arg1 : S8192x16384.Idx → EReal) (ix2 r n) = adj r n)
    (hWh1 : ∀ r : Fin 8192, (V c main_v3 : S8192x1.Idx → EReal) (ix2 r 0) = wh1 x w a ⟨r.val, by omega⟩)
    (hWh2 : ∀ n : Fin 16384, (V c main_v4 : S1x16384.Idx → EReal) (ix2 0 n) = wh2 x w a n)
    (hWh : ∀ (n : Fin 16384) (o : Fin 128), (V c main_v2_0 : S16384x128.Idx → EReal) (ix2 n o) = wh x w n o) :
    ∀ (n : ℕ) (hn : n < cfg1.N) (p : Fin 1024),
      rowState (outsAt1 V c n hn).2.1 (outsAt1 V c n hn).2.2.1 (outsAt1 V c n hn).2.2.2 p
        = kstate x adj w a (rowOf n p) (n % 4 + 1) := by
  intro n
  induction n with
  | zero =>
    intro hn p
    have e : outsAt1 V c 0 hn = _ := outsAt1_A V c ⟨0, hn⟩ (Nat.zero_mod _) (by show ¬ (0 % 4 = 3); decide)
    rw [e]; dsimp only
    rw [sout1_A_0_eq, sout1_A_1_eq, sout1_A_2_eq]
    refine (rowState_step (iblk1 V c 0 ⟨0, hn⟩) (iblk1 V c 1 ⟨0, hn⟩) (iblk1 V c 2 ⟨0, hn⟩) (View.ld (iblk1 V c 3 ⟨0, hn⟩) (Rect.unit (s := S16384x128) (k1_off1 (grid1.coords ⟨0, hn⟩)) S4096x128.size (k1_off1_inb (grid1.coords ⟨0, hn⟩)))) (k1_pay5 (F := Ideal)) (k1_pay6 (F := Ideal)) (k1_pay7 (F := Ideal)) p).trans ?_
    exact rowStep_eq V c x adj w a hAdj hWh1 hWh2 hWh ⟨0, hn⟩ p (k1_pay5 (F := Ideal)) (k1_pay6 (F := Ideal)) (k1_pay7 (F := Ideal)) kinit (rowState_init p)
  | succ n ih =>
    intro hn p
    have hN : n + 1 < 32 := lt_of_lt_of_eq hn (show cfg1.N = 32 from N_1)
    by_cases h0 : (n + 1) % 4 = 0
    · have h1 : ¬ (n + 1) % 4 = 3 := by omega
      have e : outsAt1 V c (n + 1) hn = _ := outsAt1_A V c ⟨n + 1, hn⟩ h0 h1
      rw [e]; dsimp only
      rw [sout1_A_0_eq, sout1_A_1_eq, sout1_A_2_eq]
      refine (rowState_step (iblk1 V c 0 ⟨n + 1, hn⟩) (iblk1 V c 1 ⟨n + 1, hn⟩) (iblk1 V c 2 ⟨n + 1, hn⟩) (View.ld (iblk1 V c 3 ⟨n + 1, hn⟩) (Rect.unit (s := S16384x128) (k1_off1 (grid1.coords ⟨n + 1, hn⟩)) S4096x128.size (k1_off1_inb (grid1.coords ⟨n + 1, hn⟩)))) (k1_pay5 (F := Ideal)) (k1_pay6 (F := Ideal)) (k1_pay7 (F := Ideal)) p).trans ?_
      refine (rowStep_eq V c x adj w a hAdj hWh1 hWh2 hWh ⟨n + 1, hn⟩ p (k1_pay5 (F := Ideal)) (k1_pay6 (F := Ideal)) (k1_pay7 (F := Ideal)) kinit (rowState_init p)).trans ?_
      show kstep x adj w a (rowOf (n + 1) p) ((n + 1) % 4) kinit = kstate x adj w a (rowOf (n + 1) p) ((n + 1) % 4 + 1)
      rw [h0]; rfl
    · have hrow : rowOf (n + 1) p = rowOf n p := Fin.ext (by
        show (1024 * ((n + 1) / 4) + p.val) % 8192 = (1024 * (n / 4) + p.val) % 8192
        have : (n + 1) / 4 = n / 4 := by omega
        rw [this])
      have hj : (n + 1) % 4 = n % 4 + 1 := by omega
      have ihp := ih (Nat.lt_of_succ_lt hn) p
      have hprev : rowState (outsAt1 V c (n + 1 - 1) (Nat.lt_of_le_of_lt (Nat.sub_le _ _) hn)).2.1
          (outsAt1 V c (n + 1 - 1) (Nat.lt_of_le_of_lt (Nat.sub_le _ _) hn)).2.2.1
          (outsAt1 V c (n + 1 - 1) (Nat.lt_of_le_of_lt (Nat.sub_le _ _) hn)).2.2.2 p
          = kstate x adj w a (rowOf (n + 1) p) ((n + 1) % 4) := by
        rw [hrow, hj]; exact ihp
      by_cases h1 : (n + 1) % 4 = 3
      · have e : outsAt1 V c (n + 1) hn = _ := outsAt1_C V c ⟨n + 1, hn⟩ h0 h1
        rw [e]; dsimp only
        rw [sout1_C_0_eq, sout1_C_1_eq, sout1_C_2_eq]
        refine (rowState_step (iblk1 V c 0 ⟨n + 1, hn⟩) (iblk1 V c 1 ⟨n + 1, hn⟩) (iblk1 V c 2 ⟨n + 1, hn⟩) (View.ld (iblk1 V c 3 ⟨n + 1, hn⟩) (Rect.unit (s := S16384x128) (k1_off1 (grid1.coords ⟨n + 1, hn⟩)) S4096x128.size (k1_off1_inb (grid1.coords ⟨n + 1, hn⟩)))) _ _ _ p).trans ?_
        exact rowStep_eq V c x adj w a hAdj hWh1 hWh2 hWh ⟨n + 1, hn⟩ p _ _ _ _ hprev
      · have e : outsAt1 V c (n + 1) hn = _ := outsAt1_B V c ⟨n + 1, hn⟩ h0 h1
        rw [e]; dsimp only
        rw [sout1_B_0_eq, sout1_B_1_eq, sout1_B_2_eq]
        refine (rowState_step (iblk1 V c 0 ⟨n + 1, hn⟩) (iblk1 V c 1 ⟨n + 1, hn⟩) (iblk1 V c 2 ⟨n + 1, hn⟩) (View.ld (iblk1 V c 3 ⟨n + 1, hn⟩) (Rect.unit (s := S16384x128) (k1_off1 (grid1.coords ⟨n + 1, hn⟩)) S4096x128.size (k1_off1_inb (grid1.coords ⟨n + 1, hn⟩)))) _ _ _ p).trans ?_
        exact rowStep_eq V c x adj w a hAdj hWh1 hWh2 hWh ⟨n + 1, hn⟩ p _ _ _ _ hprev

end Sweep

end Cert.KernelIdeal.HandVal

end
-- ==== Proof.OutValue.lean ====
/-
  The attention region's result array. The output block is written back at the last column tile of each row tile, where
  the body stores, for each row of the tile, the carried weighted sum over the carried sum through the unit: the
  specification's kernel result of the global row. The eight written-back blocks tile the array.
-/
import proofs.«152033_j31903017074983_2_alg».proof.Proof.SweepValue
import Idealize.ShloMosaic.Lib.Pipeline.Value

set_option maxRecDepth 16384

noncomputable section

open scoped BigOperators

namespace Cert.KernelIdeal.HandVal

open Cert.KernelIdeal Cert.KernelIdeal.Gen Cert.KernelIdeal.Hand Idealize.ShloMosaic Idealize.ShloMosaic.TcCoe Idealize.ShloMosaic.ValueIdx Cert.GatSpec
open Idealize.SL.Sem
open Idealize.ShloMosaic.Pipeline (Dat)

section Out

variable (V : (c : Dev nD) → (b : Ref sig .tc) → Buf (Elt Ideal) ((c : Thread nD τ).loc b)) (c : Dev nD)
variable (x : Fin 16384 → Fin 256 → EReal) (adj : Fin 8192 → Fin 16384 → EReal) (w : Fin 256 → Fin 128 → EReal) (a : Fin 256 → EReal)

/-- The kernel's result array as one function of its index. -/
def Gout : S8192x128.Idx → EReal := fun i => kerOut x adj w a (i 0) (i 1)

/-- What a last column tile writes back is its block of the result function. -/
theorem att_flushed_eq (hAdj : ∀ (r : Fin 8192) (n : Fin 16384), (V c main_arg1 : S8192x16384.Idx → EReal) (ix2 r n) = adj r n)
    (hWh1 : ∀ r : Fin 8192, (V c main_v3 : S8192x1.Idx → EReal) (ix2 r 0) = wh1 x w a ⟨r.val, by omega⟩)
    (hWh2 : ∀ n : Fin 16384, (V c main_v4 : S1x16384.Idx → EReal) (ix2 0 n) = wh2 x w a n)
    (hWh : ∀ (n : Fin 16384) (o : Fin 128), (V c main_v2_0 : S16384x128.Idx → EReal) (ix2 n o) = wh x w n o)
    (t : Fin cfg1.N) (hf : (cfg1.win 4).flush t = true) :
    (dat1 V c).flushed 4 t = ((cfg1.win 4).blk t).view.read (Elt Ideal) (Gout x adj w a) := by
  have h1 : t.val % 4 = 3 := (flush1_4 t).mp hf
  have h0 : ¬ t.val % 4 = 0 := by omega
  obtain ⟨-, -, -, -, -, -, -, -, e0, e1, -⟩ := idx1_facts t
  have hN : t.val < 32 := lt_of_lt_of_eq t.isLt (show cfg1.N = 32 from N_1)
  show (cfg1.win 4).cut (grid1.coords t) ((dat1 V c).after 4 t) = _
  rw [after1_4, outsAt1_C V c t h0 h1]; dsimp only
  rw [out1_C_4_eq]
  funext j
  obtain ⟨p, o, rfl⟩ : ∃ (p : Fin 1024) (o : Fin 128), j = ix2 p o := ⟨j 0, j 1, eq_ix2 j⟩
  have hs := sweep_inv V c x adj w a hAdj hWh1 hWh2 hWh t.val t.isLt p
  rw [outsAt1_C V c t h0 h1] at hs; dsimp only at hs
  rw [sout1_C_0_eq, sout1_C_1_eq, sout1_C_2_eq] at hs
  have hl := congrArg KState.l hs
  have hacc := congrFun (congrArg KState.acc hs) o
  have h4 : t.val % 4 + 1 = 4 := by omega
  rw [h4] at hl hacc
  refine (pay1_4 _ _ p o).trans ?_
  show elu (Ideal.div _ _) = kerOut x adj w a _ _
  have hr : ((((cfg1.win 4).blk t).view.emb (ix2 p o)) 0 : Fin 8192) = rowOf t.val p := Fin.ext (by
    show win1_4.index t (0 : Fin 2) * 1024 + 1 * p.val = (1024 * (t.val / 4) + p.val) % 8192
    have hp := p.isLt; omega)
  have ho : ((((cfg1.win 4).blk t).view.emb (ix2 p o)) 1 : Fin 128) = o := Fin.ext (by
    show win1_4.index t (1 : Fin 2) * 128 + 1 * o.val = o.val
    omega)
  rw [hr, ho]
  unfold kerOut
  exact congrArg elu (by rw [← hacc, ← hl]; rfl)

/-- An index of the result array is in point t's block iff each coordinate is in the block's range on its axis. -/
theorem att_mem_blk (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v5).slice (win1_4.rect t)).set ↔ _
  rw [View.set_slice_whole, Rect.mem_set_unit]
  exact Iff.rfl

/-- Every index of the result array is in the block some last column tile writes back. -/
theorem att_cover (i : S8192x128.Idx) :
    ∃ t : Fin cfg1.N, (cfg1.win 4).flush t = true ∧ i ∈ ((cfg1.win 4).blk t).view.set := by
  have hi0 : (i 0).val < 8192 := (i 0).isLt
  have hi1 : (i 1).val < 128 := (i 1).isLt
  have hN : cfg1.N = 32 := N_1
  have ht : 4 * ((i 0).val / 1024) + 3 < cfg1.N := by rw [hN]; omega
  obtain ⟨-, -, -, -, -, -, -, -, e0, e1, -⟩ := idx1_facts ⟨4 * ((i 0).val / 1024) + 3, ht⟩
  refine ⟨⟨4 * ((i 0).val / 1024) + 3, ht⟩, (flush1_4 _).mpr (by show (4 * ((i 0).val / 1024) + 3) % 4 = 3; omega), ?_⟩
  rw [att_mem_blk]
  intro d
  match d with
  | ⟨0, _⟩ =>
    show win1_4.index ⟨4 * ((i 0).val / 1024) + 3, ht⟩ (0 : Fin 2) * 1024 ≤ (i 0).val ∧ (i 0).val < win1_4.index ⟨4 * ((i 0).val / 1024) + 3, ht⟩ (0 : Fin 2) * 1024 + 1024
    rw [e0]; show (4 * ((i 0).val / 1024) + 3) / 4 * 1024 ≤ (i 0).val ∧ (i 0).val < (4 * ((i 0).val / 1024) + 3) / 4 * 1024 + 1024
    omega
  | ⟨1, _⟩ =>
    show win1_4.index ⟨4 * ((i 0).val / 1024) + 3, ht⟩ (1 : Fin 2) * 128 ≤ (i 1).val ∧ (i 1).val < win1_4.index ⟨4 * ((i 0).val / 1024) + 3, ht⟩ (1 : Fin 2) * 128 + 128
    rw [e1]; omega

/-- The result array after the run is the kernel's result function. -/
theorem att_out (hAdj : ∀ (r : Fin 8192) (n : Fin 16384), (V c main_arg1 : S8192x16384.Idx → EReal) (ix2 r n) = adj r n)
    (hWh1 : ∀ r : Fin 8192, (V c main_v3 : S8192x1.Idx → EReal) (ix2 r 0) = wh1 x w a ⟨r.val, by omega⟩)
    (hWh2 : ∀ n : Fin 16384, (V c main_v4 : S1x16384.Idx → EReal) (ix2 0 n) = wh2 x w a n)
    (hWh : ∀ (n : Fin 16384) (o : Fin 128), (V c main_v2_0 : S16384x128.Idx → EReal) (ix2 n o) = wh x w n o) :
    (dat1 V c).arrAt 4 cfg1.N = Gout x adj w a :=
  (dat1 V c).arrAt_eq_of_cover 4 (Gout x adj w a) (fun t hf => att_flushed_eq V c x adj w a hAdj hWh1 hWh2 hWh t hf) (att_cover)

end Out

end Cert.KernelIdeal.HandVal

end
-- ==== Proof.HostStages.lean ====
/-
  The host stretches of the program, read at an index.

  Between the launch and the projection region two slices cut the attention vector into its halves; between the
  projection region and the attention region one slice keeps the first 8192 row scores and one reshape turns the column
  of column scores into a row. Each buffer such a stretch writes is its operation's function of the operand's contents,
  and a buffer no operation of a stretch writes (an argument, the projected features) is carried through unchanged; read
  at an index, a slice is the operand at the shifted index and the reshape is the operand at the index with the same
  row-major position.
-/
import proofs.«152033_j31903017074983_2_alg».proof.Proof.FrameRun
import Idealize.ShloMosaic.Lib.ValueLayout
import Idealize.ShloMosaic.Lib.Pipeline.Value
import Idealize.ShloMosaic.Lib.StableHlo.Run

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem Idealize.ShloMosaic.StableHlo

/-! ## Each stretch's written buffers as functions of the contents it starts from -/

/-- The first half of the attention vector after the first stretch: the slice of rows 0 to 127. -/
theorem after0_v0 (V : Valuation τ sig (Elt Ideal)) :
    after hostOps0 V (Proc.devRef .tc main_v0)
      = extractStridedSlice S128x1 ![0, 0] (V (Proc.devRef .tc main_arg3)) slices_S256x1_S128x1_0_0 := by
  after_results <;> rfl

/-- The second half of the attention vector after the first stretch: the slice of rows 128 to 255. -/
theorem after0_v1 (V : Valuation τ sig (Elt Ideal)) :
    after hostOps0 V (Proc.devRef .tc main_v1)
      = extractStridedSlice S128x1 ![128, 0] (V (Proc.devRef .tc main_arg3)) slices_S256x1_S128x1_128_0 := by
  after_results <;> rfl

/-- The row scores after the second stretch: the slice of the first 8192 rows of the projection's second result. -/
theorem after1_v3 (V : Valuation τ sig (Elt Ideal)) :
    after hostOps1 V (Proc.devRef .tc main_v3)
      = extractStridedSlice S8192x1 ![0, 0] (V (Proc.devRef .tc main_v2_1)) slices_S16384x1_S8192x1_0_0 := by
  after_results <;> rfl

/-- The column scores after the second stretch: the projection's third result, a column, cast to a row. -/
theorem after1_v4 (V : Valuation τ sig (Elt Ideal)) :
    after hostOps1 V (Proc.devRef .tc main_v4)
      = shapeCast S1x16384 (V (Proc.devRef .tc main_v2_2)) shapeCasts_S16384x1_S1x16384 := by
  after_results <;> rfl

variable (m : (ℓ : Loc nD τ sig) → Buf (Elt Ideal) ℓ) (ρ : Dev nD → PrngReg) (c : Dev nD)

/-! ## At the projection region's entry -/

/-- The node features enter the projection region as launched. -/
theorem hs_arg0 : Va1 m ρ c main_arg0 = m ((c : Thread nD τ).loc main_arg0) :=
  (after_of_writes_sub hostOps0 (W0 m ρ c) hostOps0_writes (by decide) :
    after hostOps0 (W0 m ρ c) (Proc.devRef .tc main_arg0) = W0 m ρ c (Proc.devRef .tc main_arg0)).trans rfl

/-- The projection enters the projection region as launched. -/
theorem hs_arg2 : Va1 m ρ c main_arg2 = m ((c : Thread nD τ).loc main_arg2) :=
  (after_of_writes_sub hostOps0 (W0 m ρ c) hostOps0_writes (by decide) :
    after hostOps0 (W0 m ρ c) (Proc.devRef .tc main_arg2) = W0 m ρ c (Proc.devRef .tc main_arg2)).trans rfl

/-- Entry o of the first half is entry o of the attention vector. -/
theorem hs_v0 (o : Fin 128) :
    (Va1 m ρ c main_v0 : S128x1.Idx → EReal) (ix2 o 0)
      = (m ((c : Thread nD τ).loc main_arg3) : S256x1.Idx → EReal) (ix2 ⟨o.val, by omega⟩ 0) :=
  (congrFun (after0_v0 (W0 m ρ c)) (ix2 o (0 : Fin 1))).trans
    (slice2_axis0_apply 0 _ slices_S256x1_S128x1_0_0 o (0 : Fin 1) (⟨o.val, by omega⟩ : Fin 256) (Nat.zero_add _).symm)

/-- Entry o of the second half is entry 128 + o of the attention vector. -/
theorem hs_v1 (o : Fin 128) :
    (Va1 m ρ c main_v1 : S128x1.Idx → EReal) (ix2 o 0)
      = (m ((c : Thread nD τ).loc main_arg3) : S256x1.Idx → EReal) (ix2 ⟨128 + o.val, by omega⟩ 0) :=
  (congrFun (after0_v1 (W0 m ρ c)) (ix2 o (0 : Fin 1))).trans
    (slice2_axis0_apply 128 _ slices_S256x1_S128x1_128_0 o (0 : Fin 1) (⟨128 + o.val, by omega⟩ : Fin 256) rfl)

/-! ## At the attention region's entry -/

/-- The adjacency enters the attention region as launched: neither stretch and not the projection region writes it. -/
theorem hs_arg1 : Va3 m ρ c main_arg1 = m ((c : Thread nD τ).loc main_arg1) :=
  calc W3 m ρ c (Proc.devRef .tc main_arg1)
    _ = W2 m ρ c (Proc.devRef .tc main_arg1) := after_of_writes_sub hostOps1 (W2 m ρ c) hostOps1_writes (by decide)
    _ = W1 m ρ c (Proc.devRef .tc main_arg1) := W2_of_ne m ρ c main_arg1 (by decide)
    _ = W0 m ρ c (Proc.devRef .tc main_arg1) := after_of_writes_sub hostOps0 (W0 m ρ c) hostOps0_writes (by decide)
    _ = m ((c : Thread nD τ).loc main_arg1) := rfl

/-- The projected features enter the attention region as the projection region's write-backs left them. -/
theorem hs_wh_eq : Va3 m ρ c main_v2_0 = (dat0 (Va1 m ρ) c).arrAt 4 cfg0.N :=
  (after_of_writes_sub hostOps1 (W2 m ρ c) hostOps1_writes (by decide) :
    after hostOps1 (W2 m ρ c) (Proc.devRef .tc main_v2_0) = W2 m ρ c (Proc.devRef .tc main_v2_0)).trans (W2_arr m ρ c 4)

/-- The same at an index. -/
theorem hs_wh (n : Fin 16384) (o : Fin 128) :
    (Va3 m ρ c main_v2_0 : S16384x128.Idx → EReal) (ix2 n o)
      = ((dat0 (Va1 m ρ) c).arrAt 4 cfg0.N : S16384x128.Idx → EReal) (ix2 n o) :=
  congrFun (hs_wh_eq m ρ c) (ix2 n o)

/-- Row score r at the attention region's entry is entry r of the projection region's second result. -/
theorem hs_v3 (r : Fin 8192) :
    (Va3 m ρ c main_v3 : S8192x1.Idx → EReal) (ix2 r 0)
      = ((dat0 (Va1 m ρ) c).arrAt 5 cfg0.N : S16384x1.Idx → EReal) (ix2 ⟨r.val, by omega⟩ 0) :=
  ((congrFun (after1_v3 (W2 m ρ c)) (ix2 r (0 : Fin 1))).trans
    (slice2_axis0_apply 0 _ slices_S16384x1_S8192x1_0_0 r (0 : Fin 1) (⟨r.val, by omega⟩ : Fin 16384) (Nat.zero_add _).symm)).trans
    (congrFun (W2_arr m ρ c 5) (ix2 (⟨r.val, by omega⟩ : Fin 16384) (0 : Fin 1)))

/-- Column score n at the attention region's entry is entry n of the projection region's third result. -/
theorem hs_v4 (n : Fin 16384) :
    (Va3 m ρ c main_v4 : S1x16384.Idx → EReal) (ix2 0 n)
      = ((dat0 (Va1 m ρ) c).arrAt 6 cfg0.N : S16384x1.Idx → EReal) (ix2 n 0) :=
  ((congrFun (after1_v4 (W2 m ρ c)) (ix2 (0 : Fin 1) n)).trans
    (shapeCast_apply _ shapeCasts_S16384x1_S1x16384 (ix2 (0 : Fin 1) n) (ix2 n (0 : Fin 1)) (by
      rw [Shape.rowMajor_val_two, Shape.rowMajor_val_two]
      show n.val * 1 + 0 = 0 * 16384 + n.val
      omega))).trans
    (congrFun (W2_arr m ρ c 6) (ix2 n (0 : Fin 1)))

end Cert.KernelIdeal.HandVal

end
-- ==== Proof.PayloadValues0.lean ====
/-
  The projection kernel's stored values, read entry by entry over the extended reals.

  The kernel stores three matrix products, each into the zero accumulator: the block of node features against the
  projection matrix, and that product against each of the two halves of the attention vector (as 128 x 1 columns).  Read
  at one entry each is the familiar row-by-column sum; the second and third are sums over the 128 projected features of
  the first product's entry times the column's entry.
-/
import proofs.«152033_j31903017074983_2_alg».proof.Proof.Gen.KernelIdeal.Skeleton
import proofs.«152033_j31903017074983_2_alg».proof.Proof.LibDotRows
import Idealize.ShloMosaic.Lib.ValueLayout

noncomputable section

open scoped BigOperators

namespace Cert.KernelIdeal.HandVal

open Cert.KernelIdeal Cert.KernelIdeal.Gen Idealize.ShloMosaic Idealize.ShloMosaic.ValueIdx

/-- The projected feature at (p, q): row p of the feature block against column q of the projection matrix. -/
theorem pay0_1 (x0 : Vec Ideal S2048x256 .f32) (x1 : Vec Ideal S256x128 .f32) (p : Fin 2048) (q : Fin 128) :
    k0_pay1 (F := Ideal) x0 x1 (ix2 p q) = ∑ k : Fin 256, x0 (ix2 p k) * x1 (ix2 k q) := by
  unfold k0_pay1
  exact DotRows.matmul_zero_ix2 dot_S2048x256_S256x128_S2048x128_1_0_0_1_n_n rfl rfl rfl rfl rfl rfl none x0 x1 p q

/-- The row node's score at row p: the projected features of row p against the first column. -/
theorem pay0_2 (x0 : Vec Ideal S2048x256 .f32) (x1 : Vec Ideal S256x128 .f32) (x2 : Vec Ideal S128x1 .f32) (p : Fin 2048) :
    k0_pay2 (F := Ideal) x0 x1 x2 (ix2 p 0)
      = ∑ o : Fin 128, (∑ k : Fin 256, x0 (ix2 p k) * x1 (ix2 k o)) * x2 (ix2 o 0) := by
  unfold k0_pay2
  rw [shapeCast_self]
  refine (DotRows.matmul_zero_ix2 dot_S2048x128_S128x1_S2048x1_1_0_0_1_n_n rfl rfl rfl rfl rfl rfl none
    (k0_pay1 (F := Ideal) x0 x1) x2 p 0).trans ?_
  exact Finset.sum_congr rfl fun o _ => congrArg (· * x2 (ix2 o 0)) (pay0_1 x0 x1 p o)

/-- The column node's score at row p: the projected features of row p against the second column. -/
theorem pay0_3 (x0 : Vec Ideal S2048x256 .f32) (x1 : Vec Ideal S256x128 .f32) (x3 : Vec Ideal S128x1 .f32) (p : Fin 2048) :
    k0_pay3 (F := Ideal) x0 x1 x3 (ix2 p 0)
      = ∑ o : Fin 128, (∑ k : Fin 256, x0 (ix2 p k) * x1 (ix2 k o)) * x3 (ix2 o 0) := by
  unfold k0_pay3
  rw [shapeCast_self]
  refine (DotRows.matmul_zero_ix2 dot_S2048x128_S128x1_S2048x1_1_0_0_1_n_n rfl rfl rfl rfl rfl rfl none
    (k0_pay1 (F := Ideal) x0 x1) x3 p 0).trans ?_
  exact Finset.sum_congr rfl fun o _ => congrArg (· * x3 (ix2 o 0)) (pay0_1 x0 x1 p o)

end Cert.KernelIdeal.HandVal

end
-- ==== Proof.ProjValue.lean ====
/-
  The projection region's three result arrays, as whole-array functions of the arrays the region is entered from.

  Grid point t holds rows 2048 t .. 2048 t + 2047 of the node features and the whole of the projection matrix and of the
  two attention columns, and writes rows 2048 t .. 2048 t + 2047 of each result. Entry (p, q) of what it writes is the
  row-by-column sum of the payload, and row p of the block is row 2048 t + p of the array, so every point writes its
  block of ONE function of the whole arrays: wh n o = ∑ k, x n k * w k o, and wh against each attention column. The eight
  blocks tile the 16384 rows (row n lies in the block of point n / 2048), so each result array ends holding that function.
-/
import proofs.«152033_j31903017074983_2_alg».proof.Proof.Frame0
import proofs.«152033_j31903017074983_2_alg».proof.Proof.PayloadValues0
import Idealize.ShloMosaic.Lib.Pipeline.Value

set_option maxRecDepth 16384

noncomputable section

open scoped BigOperators

namespace Cert.KernelIdeal.HandVal

open Cert.KernelIdeal Cert.KernelIdeal.Gen Idealize.ShloMosaic Idealize.ShloMosaic.TcCoe Idealize.ShloMosaic.ValueIdx
open Idealize.SL.Sem
open Idealize.ShloMosaic.Pipeline (Dat)

theorem zero_offsets : (![0, 0] : Fin 2 → Nat) = fun _ => 0 := funext fun a => by fin_cases a <;> rfl

/-! ## What a point leaves in its output blocks, entry by entry -/

theorem out0_4_entry (x0 : Vec Ideal S2048x256 .f32) (x1 : Vec Ideal S256x128 .f32) (p : Fin 2048) (q : Fin 128) :
    Hand.out0_4 (F := Ideal) x0 x1 (ix2 p q) = ∑ k : Fin 256, x0 (ix2 p k) * x1 (ix2 k q) := by
  unfold Hand.out0_4
  rw [View.canon_unit_zero zero_offsets]
  simp only [View.ld_unit_zero (S := S2048x256) zero_offsets, View.ld_unit_zero (S := S256x128) zero_offsets]
  exact pay0_1 x0 x1 p q

theorem out0_5_entry (x0 : Vec Ideal S2048x256 .f32) (x1 : Vec Ideal S256x128 .f32) (x2 : Vec Ideal S128x1 .f32) (p : Fin 2048) :
    Hand.out0_5 (F := Ideal) x0 x1 x2 (ix2 p 0)
      = ∑ o : Fin 128, (∑ k : Fin 256, x0 (ix2 p k) * x1 (ix2 k o)) * x2 (ix2 o 0) := by
  unfold Hand.out0_5
  rw [View.canon_unit_zero zero_offsets]
  simp only [View.ld_unit_zero (S := S2048x256) zero_offsets, View.ld_unit_zero (S := S256x128) zero_offsets,
    View.ld_unit_zero (S := S128x1) zero_offsets]
  exact pay0_2 x0 x1 x2 p

theorem out0_6_entry (x0 : Vec Ideal S2048x256 .f32) (x1 : Vec Ideal S256x128 .f32) (x3 : Vec Ideal S128x1 .f32) (p : Fin 2048) :
    Hand.out0_6 (F := Ideal) x0 x1 x3 (ix2 p 0)
      = ∑ o : Fin 128, (∑ k : Fin 256, x0 (ix2 p k) * x1 (ix2 k o)) * x3 (ix2 o 0) := by
  unfold Hand.out0_6
  rw [View.canon_unit_zero zero_offsets]
  simp only [View.ld_unit_zero (S := S2048x256) zero_offsets, View.ld_unit_zero (S := S256x128) zero_offsets,
    View.ld_unit_zero (S := S128x1) zero_offsets]
  exact pay0_3 x0 x1 x3 p

/-! ## The index maps, decided over the eight points -/

theorem grid_points : cfg0.N = 8 := N_0

theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

section

variable (V : (c : Dev nD) → (b : Ref sig .tc) → Buf (Elt Ideal) ((c : Thread nD τ).loc b))

/-! ## The arrays the region is entered from, read by coordinates -/

/-- The node features. -/
def xOf (c : Dev nD) : Fin 16384 → Fin 256 → EReal := fun n k => V c main_arg0 (ix2 n k)
/-- The projection matrix. -/
def wOf (c : Dev nD) : Fin 256 → Fin 128 → EReal := fun k o => V c main_arg2 (ix2 k o)
/-- The first half of the attention vector, a 128 x 1 column. -/
def a1Of (c : Dev nD) : Fin 128 → EReal := fun o => V c main_v0 (ix2 o 0)
/-- The second half of the attention vector, a 128 x 1 column. -/
def a2Of (c : Dev nD) : Fin 128 → EReal := fun o => V c main_v1 (ix2 o 0)

theorem xOf_apply (c : Dev nD) (n : Fin 16384) (k : Fin 256) :
    xOf V c n k = (V c main_arg0 : S16384x256.Idx → EReal) (ix2 n k) := rfl
theorem wOf_apply (c : Dev nD) (k : Fin 256) (o : Fin 128) :
    wOf V c k o = (V c main_arg2 : S256x128.Idx → EReal) (ix2 k o) := rfl
theorem a1Of_apply (c : Dev nD) (o : Fin 128) : a1Of V c o = (V c main_v0 : S128x1.Idx → EReal) (ix2 o 0) := rfl
theorem a2Of_apply (c : Dev nD) (o : Fin 128) : a2Of V c o = (V c main_v1 : S128x1.Idx → EReal) (ix2 o 0) := rfl

/-! ## Each input block read where its rectangle says -/

/-- Row p of the feature block of point t is row 2048 t + p of the feature array. -/
theorem iblk0_0_entry (c : Dev nD) (t : Fin cfg0.N) (p : Fin 2048) (k : Fin 256) (h : 2048 * t.val + p.val < 16384) :
    (Hand.iblk0 V c 0 t : Vec Ideal S2048x256 .f32) (ix2 p k) = xOf V c ⟨2048 * t.val + p.val, h⟩ k := by
  obtain ⟨⟨e0, e1⟩, -⟩ := index_facts t
  unfold Hand.iblk0 xOf
  rw [View.read_apply]
  show V c main_arg0 _ = V c main_arg0 _
  congr 1
  funext a
  apply Fin.ext
  match a with
  | ⟨0, _⟩ => show win0_0.index t (0 : Fin 2) * 2048 + 1 * p.val = 2048 * t.val + p.val; rw [e0]; omega
  | ⟨1, _⟩ => show win0_0.index t (1 : Fin 2) * 256 + 1 * k.val = k.val; rw [e1]; omega

/-- The projection matrix's block is the whole matrix at every point. -/
theorem iblk0_1_entry (c : Dev nD) (t : Fin cfg0.N) (k : Fin 256) (q : Fin 128) :
    (Hand.iblk0 V c 1 t : Vec Ideal S256x128 .f32) (ix2 k q) = wOf V c k q := by
  obtain ⟨-, ⟨e0, e1⟩, -⟩ := index_facts t
  unfold Hand.iblk0 wOf
  rw [View.read_apply]
  show V c main_arg2 _ = V c main_arg2 _
  congr 1
  funext a
  apply Fin.ext
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- The first attention column's block is the whole column at every point. -/
theorem iblk0_2_entry (c : Dev nD) (t : Fin cfg0.N) (o : Fin 128) :
    (Hand.iblk0 V c 2 t : Vec Ideal S128x1 .f32) (ix2 o 0) = a1Of V c o := by
  obtain ⟨-, -, ⟨e0, e1⟩, -⟩ := index_facts t
  unfold Hand.iblk0 a1Of
  rw [View.read_apply]
  show V c main_v0 _ = V c main_v0 _
  congr 1
  funext a
  apply Fin.ext
  match a with
  | ⟨0, _⟩ => show win0_2.index t (0 : Fin 2) * 128 + 1 * o.val = o.val; rw [e0]; omega
  | ⟨1, _⟩ => show win0_2.index t (1 : Fin 2) * 1 + 1 * 0 = 0; rw [e1]

/-- The second attention column's block is the whole column at every point. -/
theorem iblk0_3_entry (c : Dev nD) (t : Fin cfg0.N) (o : Fin 128) :
    (Hand.iblk0 V c 3 t : Vec Ideal S128x1 .f32) (ix2 o 0) = a2Of V c o := by
  obtain ⟨-, -, -, ⟨e0, e1⟩, -⟩ := index_facts t
  unfold Hand.iblk0 a2Of
  rw [View.read_apply]
  show V c main_v1 _ = V c main_v1 _
  congr 1
  funext a
  apply Fin.ext
  match a with
  | ⟨0, _⟩ => show win0_3.index t (0 : Fin 2) * 128 + 1 * o.val = o.val; rw [e0]; omega
  | ⟨1, _⟩ => show win0_3.index t (1 : Fin 2) * 1 + 1 * 0 = 0; rw [e1]

/-! ## The three results as functions of the whole arrays -/

/-- Functions on a rank-2 index set agree when they agree at every pair of coordinates. -/
theorem ext_ix2 {n0 n1 : ℕ} {α : Type} (f g : (⟨2, ![n0, n1]⟩ : Shape).Idx → α)
    (h : ∀ (p : Fin n0) (q : Fin n1), f (ix2 p q) = g (ix2 p q)) : f = g :=
  funext fun j => by rw [eq_ix2 j]; exact h _ _

/-- wh = x w. -/
def whG (X : Fin 16384 → Fin 256 → EReal) (W : Fin 256 → Fin 128 → EReal) : S16384x128.Idx → EReal :=
  fun i => ∑ k : Fin 256, X ⟨(i 0).val, idx2_lt0 i⟩ k * W k ⟨(i 1).val, idx2_lt1 i⟩
/-- wh against an attention column, a 16384 x 1 column. -/
def whaG (X : Fin 16384 → Fin 256 → EReal) (W : Fin 256 → Fin 128 → EReal) (A : Fin 128 → EReal) : S16384x1.Idx → EReal :=
  fun i => ∑ o : Fin 128, (∑ k : Fin 256, X ⟨(i 0).val, idx2_lt0 i⟩ k * W k o) * A o

theorem whG_apply (X : Fin 16384 → Fin 256 → EReal) (W : Fin 256 → Fin 128 → EReal) (n : Fin 16384) (o : Fin 128) :
    whG X W (ix2 n o) = ∑ k : Fin 256, X n k * W k o := rfl
theorem whaG_apply (X : Fin 16384 → Fin 256 → EReal) (W : Fin 256 → Fin 128 → EReal) (A : Fin 128 → EReal)
    (n : Fin 16384) (z : Fin 1) : whaG X W A (ix2 n z) = ∑ o : Fin 128, (∑ k : Fin 256, X n k * W k o) * A o := rfl

theorem point_lt (t : Fin cfg0.N) : t.val < 8 := by
  have h := t.isLt
  have hN : cfg0.N = 8 := grid_points
  omega

/-! ## Result 4: the projected features -/

/-- What point t writes back to result 4 is block t of wh. -/
theorem flushed4_eq (c : Dev nD) (t : Fin cfg0.N) :
    (Hand.dat0 (F := Ideal) V c).flushed 4 t
      = ((cfg0.win 4).blk t).view.read (Elt Ideal) (whG (xOf V c) (wOf V c)) := by
  show (cfg0.win 4).cut (grid0.coords t) ((Hand.dat0 (F := Ideal) V c).after 4 t) = _
  rw [Hand.after0_4]
  refine ext_ix2 (n0 := 2048) (n1 := 128) _ _ fun p q => ?_
  obtain ⟨-, -, -, -, ⟨e0, e1⟩, -⟩ := index_facts t
  have ht := point_lt t
  have hrow : 2048 * t.val + p.val < 16384 := by have := p.isLt; omega
  have hemb : ((cfg0.win 4).blk t).view.emb (ix2 p q) = (ix2 (⟨2048 * t.val + p.val, hrow⟩ : Fin 16384) q : S16384x128.Idx) := by
    funext a
    apply Fin.ext
    match a with
    | ⟨0, _⟩ => show win0_4.index t (0 : Fin 2) * 2048 + 1 * p.val = 2048 * t.val + p.val; rw [e0]; omega
    | ⟨1, _⟩ => show win0_4.index t (1 : Fin 2) * 128 + 1 * q.val = q.val; rw [e1]; omega
  show Hand.out0_4 (F := Ideal) (Hand.iblk0 V c 0 t) (Hand.iblk0 V c 1 t) (ix2 p q)
    = whG (xOf V c) (wOf V c) (((cfg0.win 4).blk t).view.emb (ix2 p q))
  refine (out0_4_entry (Hand.iblk0 V c 0 t) (Hand.iblk0 V c 1 t) p q).trans ?_
  refine Eq.trans ?_ (congrArg (whG (xOf V c) (wOf V c)) hemb).symm
  refine Eq.trans ?_ (whG_apply _ _ _ _).symm
  exact Finset.sum_congr rfl fun k _ =>
    congrArg₂ (fun u v : EReal => u * v) (iblk0_0_entry V c t p k hrow) (iblk0_1_entry V c t k q)

/-- An index of result 4 is in point t's block iff each coordinate is in the block's range on its axis. -/
theorem mem_blk4 (t : Fin cfg0.N) (i : S16384x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v2_0).slice (win0_4.rect t)).set ↔ _
  rw [View.set_slice_whole, Rect.mem_set_unit]
  exact Iff.rfl

/-- Row n of result 4 lies in the block of point n / 2048. -/
theorem cover4 (i : S16384x128.Idx) :
    ∃ t : Fin cfg0.N, (cfg0.win 4).flush t = true ∧ i ∈ ((cfg0.win 4).blk t).view.set := by
  have h0 : (i 0).val < 16384 := idx2_lt0 i
  have h1 : (i 1).val < 128 := idx2_lt1 i
  have hN : cfg0.N = 8 := grid_points
  obtain ⟨t, ht⟩ : ∃ t : Fin cfg0.N, t.val = (i 0).val / 2048 := ⟨⟨(i 0).val / 2048, by rw [hN]; omega⟩, rfl⟩
  obtain ⟨-, -, -, -, ⟨e0, e1⟩, -⟩ := index_facts t
  refine ⟨t, flush0_4 t, ?_⟩
  rw [mem_blk4]
  intro a
  match a with
  | ⟨0, _⟩ =>
    show win0_4.index t (0 : Fin 2) * 2048 ≤ (i 0).val ∧ (i 0).val < win0_4.index t (0 : Fin 2) * 2048 + 2048
    rw [e0]; omega
  | ⟨1, _⟩ =>
    show win0_4.index t (1 : Fin 2) * 128 ≤ (i 1).val ∧ (i 1).val < win0_4.index t (1 : Fin 2) * 128 + 128
    rw [e1]; omega

/-- Result array 4 ends holding wh. -/
theorem final4 (c : Dev nD) :
    (Hand.dat0 (F := Ideal) V c).arrAt 4 cfg0.N = whG (xOf V c) (wOf V c) :=
  (Hand.dat0 (F := Ideal) V c).arrAt_eq_of_cover 4 (whG (xOf V c) (wOf V c))
    (fun t _ => flushed4_eq V c t) cover4

/-! ## Result 5: the projected features against the first attention column -/

/-- What point t writes back to result 5 is block t of wh against the first attention column. -/
theorem flushed5_eq (c : Dev nD) (t : Fin cfg0.N) :
    (Hand.dat0 (F := Ideal) V c).flushed 5 t
      = ((cfg0.win 5).blk t).view.read (Elt Ideal) (whaG (xOf V c) (wOf V c) (a1Of V c)) := by
  show (cfg0.win 5).cut (grid0.coords t) ((Hand.dat0 (F := Ideal) V c).after 5 t) = _
  rw [Hand.after0_5]
  refine ext_ix2 (n0 := 2048) (n1 := 1) _ _ fun p q => ?_
  obtain rfl : q = 0 := Fin.fin_one_eq_zero q
  obtain ⟨-, -, -, -, -, ⟨e0, e1⟩, -⟩ := index_facts t
  have ht := point_lt t
  have hrow : 2048 * t.val + p.val < 16384 := by have := p.isLt; omega
  have hemb : ((cfg0.win 5).blk t).view.emb (ix2 p (0 : Fin 1)) = (ix2 (⟨2048 * t.val + p.val, hrow⟩ : Fin 16384) (0 : Fin 1) : S16384x1.Idx) := by
    funext a
    apply Fin.ext
    match a with
    | ⟨0, _⟩ => show win0_5.index t (0 : Fin 2) * 2048 + 1 * p.val = 2048 * t.val + p.val; rw [e0]; omega
    | ⟨1, _⟩ => show win0_5.index t (1 : Fin 2) * 1 + 1 * 0 = 0; rw [e1]
  show Hand.out0_5 (F := Ideal) (Hand.iblk0 V c 0 t) (Hand.iblk0 V c 1 t) (Hand.iblk0 V c 2 t) (ix2 p (0 : Fin 1))
    = whaG (xOf V c) (wOf V c) (a1Of V c) (((cfg0.win 5).blk t).view.emb (ix2 p (0 : Fin 1)))
  refine (out0_5_entry (Hand.iblk0 V c 0 t) (Hand.iblk0 V c 1 t) (Hand.iblk0 V c 2 t) p).trans ?_
  refine Eq.trans ?_ (congrArg (whaG (xOf V c) (wOf V c) (a1Of V c)) hemb).symm
  refine Eq.trans ?_ (whaG_apply _ _ _ _ _).symm
  exact Finset.sum_congr rfl fun o _ => congrArg₂ (fun u v : EReal => u * v)
    (Finset.sum_congr rfl fun k _ =>
      congrArg₂ (fun u v : EReal => u * v) (iblk0_0_entry V c t p k hrow) (iblk0_1_entry V c t k o))
    (iblk0_2_entry V c t o)

/-- An index of result 5 is in point t's block iff each coordinate is in the block's range on its axis. -/
theorem mem_blk5 (t : Fin cfg0.N) (i : S16384x1.Idx) :
    i ∈ ((cfg0.win 5).blk t).view.set ↔ ∀ a : Fin 2, win0_5.index t a * S2048x1.size a ≤ (i a).val
      ∧ (i a).val < win0_5.index t a * S2048x1.size a + S2048x1.size a := by
  show i ∈ ((View.whole main_v2_1).slice (win0_5.rect t)).set ↔ _
  rw [View.set_slice_whole, Rect.mem_set_unit]
  exact Iff.rfl

/-- Row n of result 5 lies in the block of point n / 2048. -/
theorem cover5 (i : S16384x1.Idx) :
    ∃ t : Fin cfg0.N, (cfg0.win 5).flush t = true ∧ i ∈ ((cfg0.win 5).blk t).view.set := by
  have h0 : (i 0).val < 16384 := idx2_lt0 i
  have h1 : (i 1).val < 1 := idx2_lt1 i
  have hN : cfg0.N = 8 := grid_points
  obtain ⟨t, ht⟩ : ∃ t : Fin cfg0.N, t.val = (i 0).val / 2048 := ⟨⟨(i 0).val / 2048, by rw [hN]; omega⟩, rfl⟩
  obtain ⟨-, -, -, -, -, ⟨e0, e1⟩, -⟩ := index_facts t
  refine ⟨t, flush0_5 t, ?_⟩
  rw [mem_blk5]
  intro a
  match a with
  | ⟨0, _⟩ =>
    show win0_5.index t (0 : Fin 2) * 2048 ≤ (i 0).val ∧ (i 0).val < win0_5.index t (0 : Fin 2) * 2048 + 2048
    rw [e0]; omega
  | ⟨1, _⟩ =>
    show win0_5.index t (1 : Fin 2) * 1 ≤ (i 1).val ∧ (i 1).val < win0_5.index t (1 : Fin 2) * 1 + 1
    rw [e1]; omega

/-- Result array 5 ends holding wh against the first attention column. -/
theorem final5 (c : Dev nD) :
    (Hand.dat0 (F := Ideal) V c).arrAt 5 cfg0.N = whaG (xOf V c) (wOf V c) (a1Of V c) :=
  (Hand.dat0 (F := Ideal) V c).arrAt_eq_of_cover 5 (whaG (xOf V c) (wOf V c) (a1Of V c))
    (fun t _ => flushed5_eq V c t) cover5

/-! ## Result 6: the projected features against the second attention column -/

/-- What point t writes back to result 6 is block t of wh against the second attention column. -/
theorem flushed6_eq (c : Dev nD) (t : Fin cfg0.N) :
    (Hand.dat0 (F := Ideal) V c).flushed 6 t
      = ((cfg0.win 6).blk t).view.read (Elt Ideal) (whaG (xOf V c) (wOf V c) (a2Of V c)) := by
  show (cfg0.win 6).cut (grid0.coords t) ((Hand.dat0 (F := Ideal) V c).after 6 t) = _
  rw [Hand.after0_6]
  refine ext_ix2 (n0 := 2048) (n1 := 1) _ _ fun p q => ?_
  obtain rfl : q = 0 := Fin.fin_one_eq_zero q
  obtain ⟨-, -, -, -, -, -, ⟨e0, e1⟩⟩ := index_facts t
  have ht := point_lt t
  have hrow : 2048 * t.val + p.val < 16384 := by have := p.isLt; omega
  have hemb : ((cfg0.win 6).blk t).view.emb (ix2 p (0 : Fin 1)) = (ix2 (⟨2048 * t.val + p.val, hrow⟩ : Fin 16384) (0 : Fin 1) : S16384x1.Idx) := by
    funext a
    apply Fin.ext
    match a with
    | ⟨0, _⟩ => show win0_6.index t (0 : Fin 2) * 2048 + 1 * p.val = 2048 * t.val + p.val; rw [e0]; omega
    | ⟨1, _⟩ => show win0_6.index t (1 : Fin 2) * 1 + 1 * 0 = 0; rw [e1]
  show Hand.out0_6 (F := Ideal) (Hand.iblk0 V c 0 t) (Hand.iblk0 V c 1 t) (Hand.iblk0 V c 3 t) (ix2 p (0 : Fin 1))
    = whaG (xOf V c) (wOf V c) (a2Of V c) (((cfg0.win 6).blk t).view.emb (ix2 p (0 : Fin 1)))
  refine (out0_6_entry (Hand.iblk0 V c 0 t) (Hand.iblk0 V c 1 t) (Hand.iblk0 V c 3 t) p).trans ?_
  refine Eq.trans ?_ (congrArg (whaG (xOf V c) (wOf V c) (a2Of V c)) hemb).symm
  refine Eq.trans ?_ (whaG_apply _ _ _ _ _).symm
  exact Finset.sum_congr rfl fun o _ => congrArg₂ (fun u v : EReal => u * v)
    (Finset.sum_congr rfl fun k _ =>
      congrArg₂ (fun u v : EReal => u * v) (iblk0_0_entry V c t p k hrow) (iblk0_1_entry V c t k o))
    (iblk0_3_entry V c t o)

/-- An index of result 6 is in point t's block iff each coordinate is in the block's range on its axis. -/
theorem mem_blk6 (t : Fin cfg0.N) (i : S16384x1.Idx) :
    i ∈ ((cfg0.win 6).blk t).view.set ↔ ∀ a : Fin 2, win0_6.index t a * S2048x1.size a ≤ (i a).val
      ∧ (i a).val < win0_6.index t a * S2048x1.size a + S2048x1.size a := by
  show i ∈ ((View.whole main_v2_2).slice (win0_6.rect t)).set ↔ _
  rw [View.set_slice_whole, Rect.mem_set_unit]
  exact Iff.rfl

/-- Row n of result 6 lies in the block of point n / 2048. -/
theorem cover6 (i : S16384x1.Idx) :
    ∃ t : Fin cfg0.N, (cfg0.win 6).flush t = true ∧ i ∈ ((cfg0.win 6).blk t).view.set := by
  have h0 : (i 0).val < 16384 := idx2_lt0 i
  have h1 : (i 1).val < 1 := idx2_lt1 i
  have hN : cfg0.N = 8 := grid_points
  obtain ⟨t, ht⟩ : ∃ t : Fin cfg0.N, t.val = (i 0).val / 2048 := ⟨⟨(i 0).val / 2048, by rw [hN]; omega⟩, rfl⟩
  obtain ⟨-, -, -, -, -, -, ⟨e0, e1⟩⟩ := index_facts t
  refine ⟨t, flush0_6 t, ?_⟩
  rw [mem_blk6]
  intro a
  match a with
  | ⟨0, _⟩ =>
    show win0_6.index t (0 : Fin 2) * 2048 ≤ (i 0).val ∧ (i 0).val < win0_6.index t (0 : Fin 2) * 2048 + 2048
    rw [e0]; omega
  | ⟨1, _⟩ =>
    show win0_6.index t (1 : Fin 2) * 1 ≤ (i 1).val ∧ (i 1).val < win0_6.index t (1 : Fin 2) * 1 + 1
    rw [e1]; omega

/-- Result array 6 ends holding wh against the second attention column. -/
theorem final6 (c : Dev nD) :
    (Hand.dat0 (F := Ideal) V c).arrAt 6 cfg0.N = whaG (xOf V c) (wOf V c) (a2Of V c) :=
  (Hand.dat0 (F := Ideal) V c).arrAt_eq_of_cover 6 (whaG (xOf V c) (wOf V c) (a2Of V c))
    (fun t _ => flushed6_eq V c t) cover6

/-! ## The three arrays read at an entry -/

/-- Entry (n, o) of result 4 is row n of x against column o of w. -/
theorem proj_wh (c : Dev nD) (n : Fin 16384) (o : Fin 128) :
    ((Hand.dat0 (F := Ideal) V c).arrAt 4 cfg0.N : S16384x128.Idx → EReal) (ix2 n o)
      = ∑ k : Fin 256, xOf V c n k * wOf V c k o :=
  congrFun (final4 V c) (ix2 n o)

/-- Entry n of result 5 is the projected features of row n against the first half of a. -/
theorem proj_wh1 (c : Dev nD) (n : Fin 16384) :
    ((Hand.dat0 (F := Ideal) V c).arrAt 5 cfg0.N : S16384x1.Idx → EReal) (ix2 n 0)
      = ∑ o : Fin 128, (∑ k : Fin 256, xOf V c n k * wOf V c k o) * a1Of V c o :=
  congrFun (final5 V c) (ix2 n 0)

/-- Entry n of result 6 is the projected features of row n against the second half of a. -/
theorem proj_wh2 (c : Dev nD) (n : Fin 16384) :
    ((Hand.dat0 (F := Ideal) V c).arrAt 6 cfg0.N : S16384x1.Idx → EReal) (ix2 n 0)
      = ∑ o : Fin 128, (∑ k : Fin 256, xOf V c n k * wOf V c k o) * a2Of V c o :=
  congrFun (final6 V c) (ix2 n 0)

end

end Cert.KernelIdeal.HandVal

end
-- ==== Proof.KernelValue.lean ====
/-
  The kernel program's result array as the specification's kernel result of the launch arrays: the projection region
  leaves the projected features and the two node-score columns, the host stretch between the regions slices and
  reshapes the node scores, and the attention region, entered from those contents, leaves the swept softmax average.
-/
import proofs.«152033_j31903017074983_2_alg».proof.Proof.OutValue
import proofs.«152033_j31903017074983_2_alg».proof.Proof.HostStages
import proofs.«152033_j31903017074983_2_alg».proof.Proof.ProjValue

set_option maxRecDepth 16384

noncomputable section

open scoped BigOperators

namespace Cert.KernelIdeal.HandVal

open Cert.KernelIdeal Cert.KernelIdeal.Gen Cert.KernelIdeal.Hand Idealize.ShloMosaic Idealize.ShloMosaic.TcCoe Idealize.ShloMosaic.ValueIdx Cert.GatSpec
open Idealize.SL.Sem
open Idealize.ShloMosaic.Pipeline (Dat)

section KV

variable (m : (ℓ : Loc nD τ sig) → Buf (Elt Ideal) ℓ) (ρ : Dev nD → PrngReg) (c : Dev nD)

/-- The four launch arrays of core c read by coordinates. -/
abbrev aX : Fin 16384 → Fin 256 → EReal := fun n k => m ((c : Thread nD τ).loc main_arg0) (ix2 n k)
abbrev aAdj : Fin 8192 → Fin 16384 → EReal := fun r n => m ((c : Thread nD τ).loc main_arg1) (ix2 r n)
abbrev aW : Fin 256 → Fin 128 → EReal := fun k o => m ((c : Thread nD τ).loc main_arg2) (ix2 k o)
abbrev aA : Fin 256 → EReal := fun k => m ((c : Thread nD τ).loc main_arg3) (ix2 k 0)

/-- The projection region finds x, w and the two halves of a as launched (the halves through the two slices). -/
theorem entry_x : xOf (Va1 m ρ) c = aX m c := by
  funext n k; rw [xOf_apply, hs_arg0]
theorem entry_w : wOf (Va1 m ρ) c = aW m c := by
  funext k o; rw [wOf_apply, hs_arg2]
theorem entry_a1 : a1Of (Va1 m ρ) c = a1 (aA m c) := by
  funext o; rw [a1Of_apply, hs_v0]; rfl
theorem entry_a2 : a2Of (Va1 m ρ) c = a2 (aA m c) := by
  funext o; rw [a2Of_apply, hs_v1]; rfl

/-- The attention region finds the adjacency array as launched. -/
theorem entry_adj (r : Fin 8192) (n : Fin 16384) :
    (Va3 m ρ c main_arg1 : S8192x16384.Idx → EReal) (ix2 r n) = aAdj m c r n := by
  rw [hs_arg1]

/-- It finds the projected features in the projection region's first result. -/
theorem entry_wh (n : Fin 16384) (o : Fin 128) :
    (Va3 m ρ c main_v2_0 : S16384x128.Idx → EReal) (ix2 n o) = wh (aX m c) (aW m c) n o := by
  rw [hs_wh, proj_wh, entry_x, entry_w]; rfl

/-- It finds the row scores in the slice of the projection region's second result. -/
theorem entry_wh1 (r : Fin 8192) :
    (Va3 m ρ c main_v3 : S8192x1.Idx → EReal) (ix2 r 0) = wh1 (aX m c) (aW m c) (aA m c) ⟨r.val, by omega⟩ := by
  rw [hs_v3, proj_wh1, entry_x, entry_w, entry_a1]; rfl

/-- It finds the column scores in the reshaped third result. -/
theorem entry_wh2 (n : Fin 16384) :
    (Va3 m ρ c main_v4 : S1x16384.Idx → EReal) (ix2 0 n) = wh2 (aX m c) (aW m c) (aA m c) n := by
  rw [hs_v4, proj_wh2, entry_x, entry_w, entry_a2]; rfl

/-- The result array after the run is the kernel's result function of the launch arrays. -/
theorem kernel_value :
    (dat1 (Va3 m ρ) c).arrAt 4 cfg1.N = Gout (aX m c) (aAdj m c) (aW m c) (aA m c) :=
  att_out (Va3 m ρ) c (aX m c) (aAdj m c) (aW m c) (aA m c) (entry_adj m ρ c) (entry_wh1 m ρ c) (entry_wh2 m ρ c) (entry_wh m ρ c)

end KV

end Cert.KernelIdeal.HandVal

end
-- ==== Proof.LibCalledOps.lean ====
/-
  An operation of a called (module-local) function, at LITERAL buffers, is the plain operation at those buffers.

  A called function's operations are written over references that carry the tensor type, and move the operation's
  function to the buffers' own types along an equation between the two types. When the buffers are given, the
  carried type is the buffer's own and that equation is reflexivity, so the transports are identities and the
  operation is the plain one. The statements below say so for an operation of each arity, with the operation's
  FUNCTION A VARIABLE: instantiating one at a function whose definition is a fold over a large array (a window sum
  over a million entries, a scatter) then never opens that definition, where comparing the two spellings of the
  operation directly may walk into it.

  Use: `(binary_of ra rb ry (by decide) rfl (by decide) rfl (by decide) rfl _ : TRef.binary (.of ra) (.of rb) (.of ry) f = binary ra rb ry f)`,
  then rewrite the called operations of an operation list with such equations and read the list with the usual lemmas.
-/
import Idealize.ShloMosaic.Lib.StableHlo

namespace Idealize.ShloMosaic.StableHlo.TRef

variable {τ : Topo} {sig : RefSig} {Val : EltTy → Type}

/-- A called function's constant at a literal buffer is the plain constant. -/
theorem nullary_of (ry : Ref sig .tc) (hy1 : ry.space ≠ .host) (hy2 : ry.isScoped = false) (v : ry.ty.Contents Val) :
    (TRef.nullary (TRef.of ry rfl hy1 hy2) v : HloOp τ sig Val) = StableHlo.nullary ry v ⟨hy1, hy2⟩ := rfl

/-- A called function's one-operand operation at literal buffers is the plain operation. -/
theorem unary_of (rx ry : Ref sig .tc) (hx1 : rx.space ≠ .host) (hx2 : rx.isScoped = false)
    (hy1 : ry.space ≠ .host) (hy2 : ry.isScoped = false) (f : rx.ty.Contents Val → ry.ty.Contents Val) :
    (TRef.unary (TRef.of rx rfl hx1 hx2) (TRef.of ry rfl hy1 hy2) f : HloOp τ sig Val)
      = StableHlo.unary rx ry f ⟨hx1, hx2⟩ ⟨hy1, hy2⟩ := rfl

/-- A called function's two-operand operation at literal buffers is the plain operation. -/
theorem binary_of (ra rb ry : Ref sig .tc)
    (ha1 : ra.space ≠ .host) (ha2 : ra.isScoped = false) (hb1 : rb.space ≠ .host) (hb2 : rb.isScoped = false)
    (hy1 : ry.space ≠ .host) (hy2 : ry.isScoped = false)
    (f : ra.ty.Contents Val → rb.ty.Contents Val → ry.ty.Contents Val) :
    (TRef.binary (TRef.of ra rfl ha1 ha2) (TRef.of rb rfl hb1 hb2) (TRef.of ry rfl hy1 hy2) f : HloOp τ sig Val)
      = StableHlo.binary ra rb ry f ⟨ha1, ha2⟩ ⟨hb1, hb2⟩ ⟨hy1, hy2⟩ := rfl

/-- A called function's three-operand operation at literal buffers is the plain operation. -/
theorem ternary_of (rc ra rb ry : Ref sig .tc)
    (hc1 : rc.space ≠ .host) (hc2 : rc.isScoped = false) (ha1 : ra.space ≠ .host) (ha2 : ra.isScoped = false)
    (hb1 : rb.space ≠ .host) (hb2 : rb.isScoped = false) (hy1 : ry.space ≠ .host) (hy2 : ry.isScoped = false)
    (f : rc.ty.Contents Val → ra.ty.Contents Val → rb.ty.Contents Val → ry.ty.Contents Val) :
    (TRef.ternary (TRef.of rc rfl hc1 hc2) (TRef.of ra rfl ha1 ha2) (TRef.of rb rfl hb1 hb2) (TRef.of ry rfl hy1 hy2) f : HloOp τ sig Val)
      = StableHlo.ternary rc ra rb ry f ⟨hc1, hc2⟩ ⟨ha1, ha2⟩ ⟨hb1, hb2⟩ ⟨hy1, hy2⟩ := rfl

end Idealize.ShloMosaic.StableHlo.TRef
-- ==== Proof.RefRun.lean ====
/-
  The reference program's run, read as a straight line of host operations.

  The reference's entry function calls four outlined functions: the leaky rectifier (which itself calls a three-way
  selection), two selections that mask the attention scores, and the exponential linear unit (which calls two more
  selections). Each called function's body is executed on the caller's operands, so the entry function is one
  straight line of sixty-one operations, the called bodies written out at their call sites over the buffers the
  calls name. Every weakly fair execution of that line terminates; the result buffer then holds the composition of
  the operations' functions applied to the four argument arrays, and the argument arrays are unchanged.

  The composition is stated in named stages, each a function of the arrays it reads, so that later lemmas can read
  one stage at a time: the projected features, the two node scores, their broadcast sum, the leaky rectifier, the
  two maskings, the row maximum, the exponentials, the row sum, the normalised weights, the weighted sum and the
  exponential linear unit.
-/
import proofs.«152033_j31903017074983_2_alg».proof.Proof.Gen.ReferenceIdeal
import proofs.«152033_j31903017074983_2_alg».proof.Proof.LibCalledOps
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

section Line

variable {F : FTy → Type} [FloatOps F]

/-- The entry function's sixty-one operations in order, the called functions' bodies written out at their call
    sites: the leaky rectifier's seven after the slope constant, one selection after the adjacency comparison, the
    masking selection's two after the large negative constant, and the exponential linear unit's fifteen at the end. -/
abbrev ops : List (HloOp τ sig (Elt F)) :=
  [ binary main_arg0 main_arg2 main_v0 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_v0 main_v1 ((extractStridedSlice S8192x128 ![0, 0] · slices_S16384x128_S8192x128_0_0) : (⟨S16384x128, .f32⟩ : BufTy).Contents (Elt F) → (⟨S8192x128, .f32⟩ : BufTy).Contents (Elt F)),
    unary main_arg3 main_v2 ((extractStridedSlice S128x1 ![0, 0] · slices_S256x1_S128x1_0_0) : (⟨S256x1, .f32⟩ : BufTy).Contents (Elt F) → (⟨S128x1, .f32⟩ : BufTy).Contents (Elt F)),
    binary main_v1 main_v2 main_v3 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_arg3 main_v4 ((extractStridedSlice S128x1 ![128, 0] · slices_S256x1_S128x1_128_0) : (⟨S256x1, .f32⟩ : BufTy).Contents (Elt F) → (⟨S128x1, .f32⟩ : BufTy).Contents (Elt F)),
    binary main_v0 main_v4 main_v5 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    unary main_v5 main_v6 ((transpose S1x16384 [1, 0] · transposes_S16384x1_S1x16384_1_0) : (⟨S16384x1, .f32⟩ : BufTy).Contents (Elt F) → (⟨S1x16384, .f32⟩ : BufTy).Contents (Elt F)),
    unary main_v3 main_v7 (broadcastInDim S8192x16384 ![0, 1] bcast_S8192x1_S8192x16384_0_1 : (⟨S8192x1, .f32⟩ : BufTy).Contents (Elt F) → (⟨S8192x16384, .f32⟩ : BufTy).Contents (Elt F)),
    unary main_v6 main_v8 (broadcastInDim S8192x16384 ![0, 1] bcast_S1x16384_S8192x16384_0_1 : (⟨S1x16384, .f32⟩ : BufTy).Contents (Elt F) → (⟨S8192x16384, .f32⟩ : BufTy).Contents (Elt F)),
    binary main_v7 main_v8 main_v9 (addf : (⟨S8192x16384, .f32⟩ : BufTy).Contents (Elt F) → (⟨S8192x16384, .f32⟩ : BufTy).Contents (Elt F) → (⟨S8192x16384, .f32⟩ : BufTy).Contents (Elt F)),
    nullary main_cst (constant S_ .f32 0x3E4CCCCD#32),
    nullary main_call0_cst (constant S_ .f32 0x00000000#32),
    unary main_call0_cst main_call0_v0 (broadcastInDim S8192x16384 ![] bcast_S_S8192x16384 : (⟨S_, .f32⟩ : BufTy).Contents (Elt F) → (⟨S8192x16384, .f32⟩ : BufTy).Contents (Elt F)),
    binary main_v9 main_call0_v0 main_call0_v1 (cmpf .oge : (⟨S8192x16384, .f32⟩ : BufTy).Contents (Elt F) → (⟨S8192x16384, .f32⟩ : BufTy).Contents (Elt F) → (⟨S8192x16384, .i1⟩ : BufTy).Contents (Elt F)),
    unary main_cst main_call0_v2 (id : (⟨S_, .f32⟩ : BufTy).Contents (Elt F) → (⟨S_, .f32⟩ : BufTy).Contents (Elt F)),
    unary main_call0_v2 main_call0_v3 (broadcastInDim S8192x16384 ![] bcast_S_S8192x16384 : (⟨S_, .f32⟩ : BufTy).Contents (Elt F) → (⟨S8192x16384, .f32⟩ : BufTy).Contents (Elt F)),
    binary main_call0_v3 main_v9 main_call0_v4 (mulf : (⟨S8192x16384, .f32⟩ : BufTy).Contents (Elt F) → (⟨S8192x16384, .f32⟩ : BufTy).Contents (Elt F) → (⟨S8192x16384, .f32⟩ : BufTy).Contents (Elt F)),
    ternary main_call0_v1 main_v9 main_call0_v4 main_v10 (select : (⟨S8192x16384, .i1⟩ : BufTy).Contents (Elt F) → (⟨S8192x16384, .f32⟩ : BufTy).Contents (Elt F) → (⟨S8192x16384, .f32⟩ : BufTy).Contents (Elt F) → (⟨S8192x16384, .f32⟩ : BufTy).Contents (Elt F)),
    nullary main_cst_0 (constant S_ .f32 0x00000000#32),
    unary main_cst_0 main_v11 (broadcastInDim S8192x16384 ![] bcast_S_S8192x16384 : (⟨S_, .f32⟩ : BufTy).Contents (Elt F) → (⟨S8192x16384, .f32⟩ : BufTy).Contents (Elt F)),
    binary main_arg1 main_v11 main_v12 (cmpf .une : (⟨S8192x16384, .f32⟩ : BufTy).Contents (Elt F) → (⟨S8192x16384, .f32⟩ : BufTy).Contents (Elt F) → (⟨S8192x16384, .i1⟩ : BufTy).Contents (Elt F)),
    nullary main_cst_1 (constant S_ .f32 0x00000000#32),
    unary main_cst_1 main_v13 (broadcastInDim S8192x16384 ![] bcast_S_S8192x16384 : (⟨S_, .f32⟩ : BufTy).Contents (Elt F) → (⟨S8192x16384, .f32⟩ : BufTy).Contents (Elt F)),
    ternary main_v12 main_v10 main_v13 main_v14 (select : (⟨S8192x16384, .i1⟩ : BufTy).Contents (Elt F) → (⟨S8192x16384, .f32⟩ : BufTy).Contents (Elt F) → (⟨S8192x16384, .f32⟩ : BufTy).Contents (Elt F) → (⟨S8192x16384, .f32⟩ : BufTy).Contents (Elt F)),
    binary main_v14 main_arg1 main_v15 (mulf : (⟨S8192x16384, .f32⟩ : BufTy).Contents (Elt F) → (⟨S8192x16384, .f32⟩ : BufTy).Contents (Elt F) → (⟨S8192x16384, .f32⟩ : BufTy).Contents (Elt F)),
    nullary main_cst_2 (constant S_ .f32 0x00000000#32),
    unary main_cst_2 main_v16 (broadcastInDim S8192x16384 ![] bcast_S_S8192x16384 : (⟨S_, .f32⟩ : BufTy).Contents (Elt F) → (⟨S8192x16384, .f32⟩ : BufTy).Contents (Elt F)),
    binary main_v15 main_v16 main_v17 (cmpf .oeq : (⟨S8192x16384, .f32⟩ : BufTy).Contents (Elt F) → (⟨S8192x16384, .f32⟩ : BufTy).Contents (Elt F) → (⟨S8192x16384, .i1⟩ : BufTy).Contents (Elt F)),
    nullary main_cst_3 (constant S_ .f32 0xD9FFCB9E#32),
    unary main_cst_3 main_call2_v0 (broadcastInDim S8192x16384 ![] bcast_S_S8192x16384 : (⟨S_, .f32⟩ : BufTy).Contents (Elt F) → (⟨S8192x16384, .f32⟩ : BufTy).Contents (Elt F)),
    ternary main_v17 main_call2_v0 main_v15 main_v18 (select : (⟨S8192x16384, .i1⟩ : BufTy).Contents (Elt F) → (⟨S8192x16384, .f32⟩ : BufTy).Contents (Elt F) → (⟨S8192x16384, .f32⟩ : BufTy).Contents (Elt F) → (⟨S8192x16384, .f32⟩ : BufTy).Contents (Elt F)),
    nullary main_cst_4 (constant S_ .f32 0xFF800000#32),
    binary main_v18 main_cst_4 main_v19 ((fun x v => Host.reduce FloatOps.maximumf x v reducesTo_S8192x16384_S8192_d1 h_S_) : (⟨S8192x16384, .f32⟩ : BufTy).Contents (Elt F) → (⟨S_, .f32⟩ : BufTy).Contents (Elt F) → (⟨S8192, .f32⟩ : BufTy).Contents (Elt F)),
    nullary main_cst_5 (constant S_ .f32 0xFF800000#32),
    unary main_cst_5 main_v20 (broadcastInDim S8192 ![] bcast_S_S8192 : (⟨S_, .f32⟩ : BufTy).Contents (Elt F) → (⟨S8192, .f32⟩ : BufTy).Contents (Elt F)),
    binary main_v20 main_v19 main_v21 (maximumf : (⟨S8192, .f32⟩ : BufTy).Contents (Elt F) → (⟨S8192, .f32⟩ : BufTy).Contents (Elt F) → (⟨S8192, .f32⟩ : BufTy).Contents (Elt F)),
    unary main_v21 main_v22 (broadcastInDim S8192x1 ![0] bcast_S8192_S8192x1_0 : (⟨S8192, .f32⟩ : BufTy).Contents (Elt F) → (⟨S8192x1, .f32⟩ : BufTy).Contents (Elt F)),
    unary main_v22 main_v23 (broadcastInDim S8192x16384 ![0, 1] bcast_S8192x1_S8192x16384_0_1 : (⟨S8192x1, .f32⟩ : BufTy).Contents (Elt F) → (⟨S8192x16384, .f32⟩ : BufTy).Contents (Elt F)),
    binary main_v18 main_v23 main_v24 (subf : (⟨S8192x16384, .f32⟩ : BufTy).Contents (Elt F) → (⟨S8192x16384, .f32⟩ : BufTy).Contents (Elt F) → (⟨S8192x16384, .f32⟩ : BufTy).Contents (Elt F)),
    unary main_v24 main_v25 (Host.exp : (⟨S8192x16384, .f32⟩ : BufTy).Contents (Elt F) → (⟨S8192x16384, .f32⟩ : BufTy).Contents (Elt F)),
    nullary main_cst_6 (constant S_ .f32 0x00000000#32),
    binary main_v25 main_cst_6 main_v26 ((fun x v => Host.reduceAdd x v reducesTo_S8192x16384_S8192_d1 h_S_) : (⟨S8192x16384, .f32⟩ : BufTy).Contents (Elt F) → (⟨S_, .f32⟩ : BufTy).Contents (Elt F) → (⟨S8192, .f32⟩ : BufTy).Contents (Elt F)),
    unary main_v26 main_v27 (broadcastInDim S8192x1 ![0] bcast_S8192_S8192x1_0 : (⟨S8192, .f32⟩ : BufTy).Contents (Elt F) → (⟨S8192x1, .f32⟩ : BufTy).Contents (Elt F)),
    unary main_v27 main_v28 (broadcastInDim S8192x16384 ![0, 1] bcast_S8192x1_S8192x16384_0_1 : (⟨S8192x1, .f32⟩ : BufTy).Contents (Elt F) → (⟨S8192x16384, .f32⟩ : BufTy).Contents (Elt F)),
    binary main_v25 main_v28 main_v29 (Host.divf : (⟨S8192x16384, .f32⟩ : BufTy).Contents (Elt F) → (⟨S8192x16384, .f32⟩ : BufTy).Contents (Elt F) → (⟨S8192x16384, .f32⟩ : BufTy).Contents (Elt F)),
    binary main_v29 main_v0 main_v30 ((fun l r => Host.dotGeneral dot_S8192x16384_S16384x128_S8192x128_1_0_0_1_n_n none l r) : (⟨S8192x16384, .f32⟩ : BufTy).Contents (Elt F) → (⟨S16384x128, .f32⟩ : BufTy).Contents (Elt F) → (⟨S8192x128, .f32⟩ : BufTy).Contents (Elt F)),
    nullary main_call3_cst (constant S_ .f32 0x00000000#32),
    unary main_call3_cst main_call3_v0 (broadcastInDim S8192x128 ![] bcast_S_S8192x128 : (⟨S_, .f32⟩ : BufTy).Contents (Elt F) → (⟨S8192x128, .f32⟩ : BufTy).Contents (Elt F)),
    binary main_v30 main_call3_v0 main_call3_v1 (cmpf .ogt : (⟨S8192x128, .f32⟩ : BufTy).Contents (Elt F) → (⟨S8192x128, .f32⟩ : BufTy).Contents (Elt F) → (⟨S8192x128, .i1⟩ : BufTy).Contents (Elt F)),
    nullary main_call3_cst_0 (constant S_ .f32 0x00000000#32),
    unary main_call3_cst_0 main_call3_v2 (broadcastInDim S8192x128 ![] bcast_S_S8192x128 : (⟨S_, .f32⟩ : BufTy).Contents (Elt F) → (⟨S8192x128, .f32⟩ : BufTy).Contents (Elt F)),
    binary main_v30 main_call3_v2 main_call3_v3 (cmpf .ogt : (⟨S8192x128, .f32⟩ : BufTy).Contents (Elt F) → (⟨S8192x128, .f32⟩ : BufTy).Contents (Elt F) → (⟨S8192x128, .i1⟩ : BufTy).Contents (Elt F)),
    nullary main_call3_cst_1 (constant S_ .f32 0x00000000#32),
    unary main_call3_cst_1 main_call3_call0_v0 (id : (⟨S_, .f32⟩ : BufTy).Contents (Elt F) → (⟨S_, .f32⟩ : BufTy).Contents (Elt F)),
    unary main_call3_call0_v0 main_call3_call0_v1 (broadcastInDim S8192x128 ![] bcast_S_S8192x128 : (⟨S_, .f32⟩ : BufTy).Contents (Elt F) → (⟨S8192x128, .f32⟩ : BufTy).Contents (Elt F)),
    ternary main_call3_v3 main_call3_call0_v1 main_v30 main_call3_v4 (select : (⟨S8192x128, .i1⟩ : BufTy).Contents (Elt F) → (⟨S8192x128, .f32⟩ : BufTy).Contents (Elt F) → (⟨S8192x128, .f32⟩ : BufTy).Contents (Elt F) → (⟨S8192x128, .f32⟩ : BufTy).Contents (Elt F)),
    unary main_call3_v4 main_call3_v5 (Host.expm1 : (⟨S8192x128, .f32⟩ : BufTy).Contents (Elt F) → (⟨S8192x128, .f32⟩ : BufTy).Contents (Elt F)),
    nullary main_call3_cst_2 (constant S_ .f32 0x3F800000#32),
    unary main_call3_cst_2 main_call3_v6 (broadcastInDim S8192x128 ![] bcast_S_S8192x128 : (⟨S_, .f32⟩ : BufTy).Contents (Elt F) → (⟨S8192x128, .f32⟩ : BufTy).Contents (Elt F)),
    binary main_call3_v6 main_call3_v5 main_call3_v7 (mulf : (⟨S8192x128, .f32⟩ : BufTy).Contents (Elt F) → (⟨S8192x128, .f32⟩ : BufTy).Contents (Elt F) → (⟨S8192x128, .f32⟩ : BufTy).Contents (Elt F)),
    ternary main_call3_v1 main_v30 main_call3_v7 main_v31 (select : (⟨S8192x128, .i1⟩ : BufTy).Contents (Elt F) → (⟨S8192x128, .f32⟩ : BufTy).Contents (Elt F) → (⟨S8192x128, .f32⟩ : BufTy).Contents (Elt F) → (⟨S8192x128, .f32⟩ : BufTy).Contents (Elt F)) ]

set_option maxRecDepth 8192 in
set_option maxHeartbeats 4000000 in
/-- The entry function is that straight line: the called functions unfolded at their calls and the call records at
    their fields, and sequencing reassociated. -/
theorem main_eq (c : Dev nD) : main (F := F) c = seq ops := by
  simp only [main, fn_leaky_relu.body, fn_where.body, fn_where_0.body, fn_elu.body, fn_where_1.body, fn_where_2.body,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., ternary_bufs_sub .., binary_bufs_sub .., nullary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

end Line

/-! ## The composition, in stages -/

/-- The all-zero array of the adjacency's shape. -/
def zerosA : FVec Ideal S8192x16384 .f32 :=
  broadcastInDim S8192x16384 ![] bcast_S_S8192x16384 (constant (F := Ideal) S_ .f32 0x00000000#32)

/-- The all-zero array of the result's shape. -/
def zerosO : FVec Ideal S8192x128 .f32 :=
  broadcastInDim S8192x128 ![] bcast_S_S8192x128 (constant (F := Ideal) S_ .f32 0x00000000#32)

/-- The projected features: the node features times the projection. -/
def whA (x : FVec Ideal S16384x256 .f32) (w : FVec Ideal S256x128 .f32) : FVec Ideal S16384x128 .f32 :=
  Host.dotGeneral dot_S16384x256_S256x128_S16384x128_1_0_0_1_n_n none x w

/-- The row nodes' scores: the first 8192 rows of the projected features times the first half of the attention vector. -/
def wh1A (x : FVec Ideal S16384x256 .f32) (w : FVec Ideal S256x128 .f32) (a : FVec Ideal S256x1 .f32) :
    FVec Ideal S8192x1 .f32 :=
  Host.dotGeneral dot_S8192x128_S128x1_S8192x1_1_0_0_1_n_n none
    (extractStridedSlice S8192x128 ![0, 0] (whA x w) slices_S16384x128_S8192x128_0_0)
    (extractStridedSlice S128x1 ![0, 0] a slices_S256x1_S128x1_0_0)

/-- The column nodes' scores: the projected features times the second half of the attention vector. -/
def wh2A (x : FVec Ideal S16384x256 .f32) (w : FVec Ideal S256x128 .f32) (a : FVec Ideal S256x1 .f32) :
    FVec Ideal S16384x1 .f32 :=
  Host.dotGeneral dot_S16384x128_S128x1_S16384x1_1_0_0_1_n_n none (whA x w)
    (extractStridedSlice S128x1 ![128, 0] a slices_S256x1_S128x1_128_0)

/-- The sum of a row node's score and a column node's score, at every (row, column). -/
def sumA (x : FVec Ideal S16384x256 .f32) (w : FVec Ideal S256x128 .f32) (a : FVec Ideal S256x1 .f32) :
    FVec Ideal S8192x16384 .f32 :=
  addf (broadcastInDim S8192x16384 ![0, 1] bcast_S8192x1_S8192x16384_0_1 (wh1A x w a))
    (broadcastInDim S8192x16384 ![0, 1] bcast_S1x16384_S8192x16384_0_1
      (transpose S1x16384 [1, 0] (wh2A x w a) transposes_S16384x1_S1x16384_1_0))

/-- The leaky rectifier, elementwise: the entry where it is at least zero, the slope times the entry elsewhere. -/
def leakyA (z : FVec Ideal S8192x16384 .f32) : FVec Ideal S8192x16384 .f32 :=
  select (cmpf .oge z zerosA) z
    (mulf (broadcastInDim S8192x16384 ![] bcast_S_S8192x16384 (id (constant (F := Ideal) S_ .f32 0x3E4CCCCD#32))) z)

/-- The first masking: the rectified entry where the adjacency is nonzero and zero elsewhere, times the adjacency. -/
def maskedA (adj z : FVec Ideal S8192x16384 .f32) : FVec Ideal S8192x16384 .f32 :=
  mulf (select (cmpf .une adj zerosA) z zerosA) adj

/-- The second masking: the large negative constant where the masked product is zero. -/
def scoreA (adj z : FVec Ideal S8192x16384 .f32) : FVec Ideal S8192x16384 .f32 :=
  select (cmpf .oeq (maskedA adj z) zerosA)
    (broadcastInDim S8192x16384 ![] bcast_S_S8192x16384 (constant (F := Ideal) S_ .f32 0xD9FFCB9E#32))
    (maskedA adj z)

/-- Each row's largest score. -/
def rowMaxA (s : FVec Ideal S8192x16384 .f32) : FVec Ideal S8192 .f32 :=
  maximumf (broadcastInDim S8192 ![] bcast_S_S8192 (constant (F := Ideal) S_ .f32 0xFF800000#32))
    (Host.reduce FloatOps.maximumf s (constant (F := Ideal) S_ .f32 0xFF800000#32) reducesTo_S8192x16384_S8192_d1 h_S_)

/-- A per-row value repeated along the row. -/
def colA (v : FVec Ideal S8192 .f32) : FVec Ideal S8192x16384 .f32 :=
  broadcastInDim S8192x16384 ![0, 1] bcast_S8192x1_S8192x16384_0_1 (broadcastInDim S8192x1 ![0] bcast_S8192_S8192x1_0 v)

/-- The unnormalised softmax weights: the exponential of each score less its row's maximum. -/
def wgtA (s : FVec Ideal S8192x16384 .f32) : FVec Ideal S8192x16384 .f32 :=
  Host.exp (subf s (colA (rowMaxA s)))

/-- Each row's sum of weights. -/
def rowSumA (e : FVec Ideal S8192x16384 .f32) : FVec Ideal S8192 .f32 :=
  Host.reduceAdd e (constant (F := Ideal) S_ .f32 0x00000000#32) reducesTo_S8192x16384_S8192_d1 h_S_

/-- The normalised softmax weights. -/
def attA (s : FVec Ideal S8192x16384 .f32) : FVec Ideal S8192x16384 .f32 :=
  Host.divf (wgtA s) (colA (rowSumA (wgtA s)))

/-- The weighted sum of the projected features. -/
def aggA (x : FVec Ideal S16384x256 .f32) (w : FVec Ideal S256x128 .f32) (s : FVec Ideal S8192x16384 .f32) :
    FVec Ideal S8192x128 .f32 :=
  Host.dotGeneral dot_S8192x16384_S16384x128_S8192x128_1_0_0_1_n_n none (attA s) (whA x w)

/-- The exponential linear unit, elementwise: the entry where it is positive, one times (the exponential less one) of
    the entry elsewhere (the inner selection feeds zero to the exponential where the entry is positive). -/
def eluA (q : FVec Ideal S8192x128 .f32) : FVec Ideal S8192x128 .f32 :=
  select (cmpf .ogt q zerosO) q
    (mulf (broadcastInDim S8192x128 ![] bcast_S_S8192x128 (constant (F := Ideal) S_ .f32 0x3F800000#32))
      (Host.expm1 (select (cmpf .ogt q zerosO)
        (broadcastInDim S8192x128 ![] bcast_S_S8192x128 (id (constant (F := Ideal) S_ .f32 0x00000000#32))) q)))

/-- The reference's result array as one pure term of the four argument arrays: the operations of the entry function
    composed, the called functions' operations written out. -/
def result (x : FVec Ideal S16384x256 .f32) (adj : FVec Ideal S8192x16384 .f32) (w : FVec Ideal S256x128 .f32)
    (a : FVec Ideal S256x1 .f32) : FVec Ideal S8192x128 .f32 :=
  eluA (aggA x w (scoreA adj (leakyA (sumA x w a))))

set_option maxRecDepth 16384 in
set_option maxHeartbeats 24000000 in
/-- The line's fold at the result buffer is the composition of the stages at the four argument buffers. -/
theorem out_eq (V : Valuation τ sig (Elt Ideal)) :
    after (ops (F := Ideal)) V (Proc.devRef .tc main_v31)
      = result (V (Proc.devRef .tc main_arg0)) (V (Proc.devRef .tc main_arg1)) (V (Proc.devRef .tc main_arg2))
          (V (Proc.devRef .tc main_arg3)) := by
  after_results_simp
  rfl

set_option maxRecDepth 16384 in
set_option maxHeartbeats 24000000 in
/-- No operation of the line writes an argument buffer. -/
theorem args_eq (V : Valuation τ sig (Elt Ideal)) :
    after (ops (F := Ideal)) V (Proc.devRef .tc main_arg0) = V (Proc.devRef .tc main_arg0)
    ∧ after (ops (F := Ideal)) V (Proc.devRef .tc main_arg1) = V (Proc.devRef .tc main_arg1)
    ∧ after (ops (F := Ideal)) V (Proc.devRef .tc main_arg2) = V (Proc.devRef .tc main_arg2)
    ∧ after (ops (F := Ideal)) V (Proc.devRef .tc main_arg3) = V (Proc.devRef .tc main_arg3) := by
  refine ⟨?_, ?_, ?_, ?_⟩ <;> after_results_simp

/-- On every device, from any memory with zero counters: every weakly fair execution of the reference's entry function
    terminates with the result buffer at the composed term of the argument arrays and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v31).trans (out_eq (launchContents m c)),
       (h c main_arg0).trans (args_eq (launchContents m c)).1,
       (h c main_arg1).trans (args_eq (launchContents m c)).2.1,
       (h c main_arg2).trans (args_eq (launchContents m c)).2.2.1,
       (h c main_arg3).trans (args_eq (launchContents m c)).2.2.2⟩)
    (run_seq scopedRefs_eq scopedSems_eq defs main (fun _ => ops) main_eq (fun _ => ops_sub) m ρ)

end Cert.ReferenceIdeal.Hand

end
-- ==== Proof.RefValue.lean ====
/-
  The reference's result read at an index.

  Each stage of the reference's composition is read at one index of its array: the three matrix products as
  row-by-column sums, the slices, the transpose and the broadcasts as the operand at the matching index, the
  comparisons and selections as conditionals on the extended reals, the row maximum as a supremum over the columns
  and the row sum as a sum over the columns. Put together, entry (r, o) of the result is the specification's value:
  the exponential linear unit of the softmax-weighted average of the projected features.
-/
import proofs.«152033_j31903017074983_2_alg».proof.Proof.RefRun
import proofs.«152033_j31903017074983_2_alg».proof.Proof.Spec
import proofs.«152033_j31903017074983_2_alg».proof.Proof.LibDotRows
import Idealize.ShloMosaic.Lib.ValueLayout
import Idealize.ShloMosaic.Lib.IdealHost
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## The arrays read by coordinates -/

/-- The node features by coordinates. -/
abbrev cX (x : FVec Ideal S16384x256 .f32) : Fin 16384 → Fin 256 → EReal := fun n k => x (ix2 n k)
/-- The adjacency by coordinates. -/
abbrev cAdj (adj : FVec Ideal S8192x16384 .f32) : Fin 8192 → Fin 16384 → EReal := fun r n => adj (ix2 r n)
/-- The projection by coordinates. -/
abbrev cW (w : FVec Ideal S256x128 .f32) : Fin 256 → Fin 128 → EReal := fun k o => w (ix2 k o)
/-- The attention vector by its one coordinate. -/
abbrev cA (a : FVec Ideal S256x1 .f32) : Fin 256 → EReal := fun k => a (ix2 k 0)

/-! ## The three products and their sum -/

/-- The projected features at (n, o): row n of the features against column o of the projection. -/
theorem whA_apply (x : FVec Ideal S16384x256 .f32) (w : FVec Ideal S256x128 .f32) (n : Fin 16384) (o : Fin 128) :
    whA x w (ix2 n o) = Cert.GatSpec.wh (cX x) (cW w) n o := by
  unfold whA Cert.GatSpec.wh
  exact DotRows.dotGeneral_ix2 dot_S16384x256_S256x128_S16384x128_1_0_0_1_n_n rfl rfl rfl rfl rfl rfl none x w n o

/-- A row node's score: the first 8192 rows of the projected features against the first half of the attention vector. -/
theorem wh1A_apply (x : FVec Ideal S16384x256 .f32) (w : FVec Ideal S256x128 .f32) (a : FVec Ideal S256x1 .f32)
    (r : Fin 8192) :
    wh1A x w a (ix2 r (0 : Fin 1)) = Cert.GatSpec.wh1 (cX x) (cW w) (cA a) ⟨r.val, by omega⟩ := by
  unfold wh1A Cert.GatSpec.wh1
  refine (DotRows.dotGeneral_ix2 dot_S8192x128_S128x1_S8192x1_1_0_0_1_n_n rfl rfl rfl rfl rfl rfl none _ _ r (0 : Fin 1)).trans ?_
  refine Finset.sum_congr rfl fun k _ => ?_
  rw [slice2_axis0_apply 0 (whA x w) slices_S16384x128_S8192x128_0_0 r k (⟨r.val, by omega⟩ : Fin 16384) (Nat.zero_add _).symm,
    slice2_axis0_apply 0 a slices_S256x1_S128x1_0_0 k (0 : Fin 1) (⟨k.val, by omega⟩ : Fin 256) (Nat.zero_add _).symm,
    whA_apply]
  rfl

/-- A column node's score: the projected features against the second half of the attention vector. -/
theorem wh2A_apply (x : FVec Ideal S16384x256 .f32) (w : FVec Ideal S256x128 .f32) (a : FVec Ideal S256x1 .f32)
    (n : Fin 16384) :
    wh2A x w a (ix2 n (0 : Fin 1)) = Cert.GatSpec.wh2 (cX x) (cW w) (cA a) n := by
  unfold wh2A Cert.GatSpec.wh2
  refine (DotRows.dotGeneral_ix2 dot_S16384x128_S128x1_S16384x1_1_0_0_1_n_n rfl rfl rfl rfl rfl rfl none _ _ n (0 : Fin 1)).trans ?_
  refine Finset.sum_congr rfl fun k _ => ?_
  rw [slice2_axis0_apply 128 a slices_S256x1_S128x1_128_0 k (0 : Fin 1) (⟨128 + k.val, by omega⟩ : Fin 256) rfl, whA_apply]
  rfl

/-- A column of per-row values repeated along the rows reads its row's value. -/
theorem bcastCol_apply (v : FVec Ideal S8192x1 .f32) (r : Fin 8192) (n : Fin 16384) :
    broadcastInDim S8192x16384 ![0, 1] bcast_S8192x1_S8192x16384_0_1 v (ix2 r n) = v (ix2 r (0 : Fin 1)) :=
  broadcastInDim_apply ![0, 1] bcast_S8192x1_S8192x16384_0_1 v (ix2 r n) (ix2 r (0 : Fin 1)) fun a =>
    match a with | ⟨0, _⟩ => rfl | ⟨1, _⟩ => rfl

/-- A row of per-column values repeated down the columns reads its column's value. -/
theorem bcastRow_apply (v : FVec Ideal S1x16384 .f32) (r : Fin 8192) (n : Fin 16384) :
    broadcastInDim S8192x16384 ![0, 1] bcast_S1x16384_S8192x16384_0_1 v (ix2 r n) = v (ix2 (0 : Fin 1) n) :=
  broadcastInDim_apply ![0, 1] bcast_S1x16384_S8192x16384_0_1 v (ix2 r n) (ix2 (0 : Fin 1) n) fun a =>
    match a with | ⟨0, _⟩ => rfl | ⟨1, _⟩ => rfl

/-- The broadcast sum at (r, n): row node r's score plus column node n's. -/
theorem sumA_apply (x : FVec Ideal S16384x256 .f32) (w : FVec Ideal S256x128 .f32) (a : FVec Ideal S256x1 .f32)
    (r : Fin 8192) (n : Fin 16384) :
    sumA x w a (ix2 r n)
      = Cert.GatSpec.wh1 (cX x) (cW w) (cA a) ⟨r.val, by omega⟩ + Cert.GatSpec.wh2 (cX x) (cW w) (cA a) n := by
  unfold sumA
  rw [addf_apply, bcastCol_apply, bcastRow_apply,
    transpose_ix2_apply (wh2A x w a) transposes_S16384x1_S1x16384_1_0 (0 : Fin 1) n, wh1A_apply, wh2A_apply]

/-! ## Words and constants -/

/-- A selection on the bit of a decided proposition is the conditional. -/
theorem select_decide {α : Type} (p : Prop) [Decidable p] (u v : α) :
    Scalar.select (BitVec.ofBool (decide p)) u v = if p then u else v := by
  by_cases hp : p
  · rw [if_pos hp, decide_eq_true hp]; exact select_one u v
  · rw [if_neg hp, decide_eq_false hp]; exact select_zero u v

/-- The word of minus infinity is the bottom extended real. -/
theorem ofBits_neg_inf_f32 : Ideal.ofBits .f32 0xFF800000#32 = ⊥ := by simp [Ideal.ofBits, Ideal.ieee]

/-- The all-zero array of the adjacency's shape reads zero. -/
theorem zerosA_apply (j : S8192x16384.Idx) : zerosA j = 0 := by
  unfold zerosA
  rw [broadcastInDim_scalar_apply, constant_apply, Ideal.ofBits_zero_f32]

/-- The all-zero array of the result's shape reads zero. -/
theorem zerosO_apply (j : S8192x128.Idx) : zerosO j = 0 := by
  unfold zerosO
  rw [broadcastInDim_scalar_apply, constant_apply, Ideal.ofBits_zero_f32]

/-! ## The rectifier and the two maskings -/

/-- The leaky rectifier at an index is the specification's rectifier of the entry. -/
theorem leakyA_apply (z : FVec Ideal S8192x16384 .f32) (j : S8192x16384.Idx) :
    leakyA z j = Cert.GatSpec.leaky (z j) := by
  unfold leakyA Cert.GatSpec.leaky
  rw [select_apply, cmpf_apply, mulf_apply, zerosA_apply, broadcastInDim_scalar_apply]
  exact select_decide (0 ≤ z j) (z j) _

/-- The first masking at an index. -/
theorem maskedA_apply (adj z : FVec Ideal S8192x16384 .f32) (j : S8192x16384.Idx) :
    maskedA adj z j = (if adj j ≠ 0 then z j else 0) * adj j := by
  unfold maskedA
  rw [mulf_apply, select_apply, cmpf_apply, zerosA_apply]
  exact congrArg (· * adj j) (select_decide (adj j ≠ 0) (z j) 0)

/-- The second masking at an index is the specification's masking of the adjacency entry and the rectified entry's
    argument. -/
theorem scoreA_apply (adj z : FVec Ideal S8192x16384 .f32) (j : S8192x16384.Idx) :
    scoreA adj z j
      = if (if adj j ≠ 0 then z j else 0) * adj j = 0 then Cert.GatSpec.negBig else (if adj j ≠ 0 then z j else 0) * adj j := by
  unfold scoreA
  rw [select_apply, cmpf_apply, zerosA_apply, maskedA_apply, broadcastInDim_scalar_apply]
  exact select_decide ((if adj j ≠ 0 then z j else 0) * adj j = 0) _ _

/-! ## The exponential linear unit -/

/-- The exponential linear unit at an index is the specification's unit of the entry. -/
theorem eluA_apply (q : FVec Ideal S8192x128 .f32) (j : S8192x128.Idx) : eluA q j = Cert.GatSpec.elu (q j) := by
  unfold eluA Cert.GatSpec.elu
  rw [select_apply, cmpf_apply, zerosO_apply, mulf_apply, broadcastInDim_scalar_apply, constant_apply, Ideal.ofBits_one_f32,
    one_mul]
  refine (select_decide (0 < q j) (q j) _).trans ?_
  by_cases hq : 0 < q j
  · rw [if_pos hq, if_pos hq]
  · rw [if_neg hq, if_neg hq]
    unfold Host.expm1
    rw [select_apply, cmpf_apply, zerosO_apply]
    have hsel : ∀ u : Ideal .f32, Scalar.select (FloatOps.cmpf (F := Ideal) (φ := .f32) .ogt (q j) 0) u (q j) = q j :=
      fun u => (select_decide (0 < q j) u (q j)).trans (if_neg hq)
    rw [hsel, Ideal.hostUnary_expm1_def]

/-! ## The row maximum, the weights, the row sum -/

/-- The reduction of the column axis, as the fact the reading lemmas take. -/
theorem reduces_cols : S8192x16384.Reduces [1] S8192 := by decide

/-- Row r with column n put back is (r, n). -/
theorem lift_cols (r : Fin 8192) (n : Fin 16384) : reduces_cols.lift (ix1 r) n = ix2 r n := by
  funext c; apply Fin.ext
  fin_cases c <;> rfl

/-- A per-row value repeated along its row reads the row's value. -/
theorem colA_apply (v : FVec Ideal S8192 .f32) (r : Fin 8192) (n : Fin 16384) : colA v (ix2 r n) = v (ix1 r) := by
  unfold colA
  rw [bcastCol_apply]
  exact broadcastInDim_apply ![0] bcast_S8192_S8192x1_0 v (ix2 r (0 : Fin 1)) (ix1 r) fun a =>
    match a with | ⟨0, _⟩ => rfl

/-- A fold of the maximum from the bottom element over all of a finite type is the supremum. -/
theorem fold_max_bot {ι : Type} [Fintype ι] (f : ι → EReal) :
    (Finset.univ : Finset ι).fold (FloatOps.maximumf (F := Ideal) (φ := .f32)) ⊥ f = Finset.univ.sup f := rfl

/-- Each row's largest score is the supremum of the row's entries. -/
theorem rowMaxA_apply (s : FVec Ideal S8192x16384 .f32) (r : Fin 8192) :
    rowMaxA s (ix1 r) = Finset.univ.sup fun n : Fin 16384 => s (ix2 r n) := by
  unfold rowMaxA
  rw [maximumf_apply, broadcastInDim_scalar_apply, constant_apply, ofBits_neg_inf_f32, bot_sup_eq,
    Host.reduce_eq_fold_single FloatOps.maximumf s _ reducesTo_S8192x16384_S8192_d1 reduces_cols h_S_ (ix1 r)]
  have hf : (s ∘ reduces_cols.lift (ix1 r)) = fun n : Fin 16384 => s (ix2 r n) :=
    funext fun n => congrArg s (lift_cols r n)
  have h0 : (constant (F := Ideal) S_ .f32 0xFF800000#32) (Shape.Idx.first h_S_) = (⊥ : EReal) := by
    rw [constant_apply, ofBits_neg_inf_f32]
  rw [h0]
  exact (congrArg (fun f => (Finset.univ : Finset (Fin 16384)).fold (FloatOps.maximumf (F := Ideal) (φ := .f32)) ⊥ f) hf).trans
    (fold_max_bot _)

/-- The unnormalised weight at (r, n): the exponential of the score less the row's maximum. -/
theorem wgtA_apply (s : FVec Ideal S8192x16384 .f32) (r : Fin 8192) (n : Fin 16384) :
    wgtA s (ix2 r n) = Ideal.exp (s (ix2 r n) - rowMaxA s (ix1 r)) := by
  unfold wgtA
  show FloatOps.hostUnary .exp (subf s (colA (rowMaxA s)) (ix2 r n)) = _
  rw [Ideal.hostUnary_exp_def, subf_apply, colA_apply]

/-- Each row's sum is the sum of the row's entries. -/
theorem rowSumA_apply (e : FVec Ideal S8192x16384 .f32) (r : Fin 8192) :
    rowSumA e (ix1 r) = ∑ n : Fin 16384, e (ix2 r n) := by
  unfold rowSumA
  rw [hostReduceAdd_apply, Ideal.hostReduceAdd_single reducesTo_S8192x16384_S8192_d1 reduces_cols, constant_apply,
    Ideal.ofBits_zero_f32, zero_add]
  exact Finset.sum_congr rfl fun n _ => congrArg e (lift_cols r n)

/-- The normalised weight at (r, n). -/
theorem attA_apply (s : FVec Ideal S8192x16384 .f32) (r : Fin 8192) (n : Fin 16384) :
    attA s (ix2 r n) = Ideal.div (wgtA s (ix2 r n)) (rowSumA (wgtA s) (ix1 r)) := by
  unfold attA
  rw [hostDivf_apply, colA_apply]

/-- The weighted sum at (r, o). -/
theorem aggA_apply (x : FVec Ideal S16384x256 .f32) (w : FVec Ideal S256x128 .f32) (s : FVec Ideal S8192x16384 .f32)
    (r : Fin 8192) (o : Fin 128) :
    aggA x w s (ix2 r o) = ∑ n : Fin 16384, attA s (ix2 r n) * whA x w (ix2 n o) := by
  unfold aggA
  exact DotRows.dotGeneral_ix2 dot_S8192x16384_S16384x128_S8192x128_1_0_0_1_n_n rfl rfl rfl rfl rfl rfl none _ _ r o

/-! ## The result -/

/-- The masked score array at (r, n) is the specification's score. -/
theorem score_apply (x : FVec Ideal S16384x256 .f32) (adj : FVec Ideal S8192x16384 .f32) (w : FVec Ideal S256x128 .f32)
    (a : FVec Ideal S256x1 .f32) (r : Fin 8192) (n : Fin 16384) :
    scoreA adj (leakyA (sumA x w a)) (ix2 r n) = Cert.GatSpec.score (cX x) (cAdj adj) (cW w) (cA a) r n := by
  rw [scoreA_apply, leakyA_apply, sumA_apply]
  rfl

/-- Entry (r, o) of the reference's result is the specification's value there. -/
theorem result_apply (x : FVec Ideal S16384x256 .f32) (adj : FVec Ideal S8192x16384 .f32) (w : FVec Ideal S256x128 .f32)
    (a : FVec Ideal S256x1 .f32) (r : Fin 8192) (o : Fin 128) :
    result x adj w a (ValueIdx.ix2 r o)
      = Cert.GatSpec.refOut (fun n k => x (ValueIdx.ix2 n k)) (fun r n => adj (ValueIdx.ix2 r n))
          (fun k o => w (ValueIdx.ix2 k o)) (fun k => a (ValueIdx.ix2 k 0)) r o := by
  have hmax : rowMaxA (scoreA adj (leakyA (sumA x w a))) (ix1 r)
      = Cert.GatSpec.rowMax (cX x) (cAdj adj) (cW w) (cA a) r := by
    rw [rowMaxA_apply]
    exact congrArg (fun f => Finset.univ.sup f) (funext fun n => score_apply x adj w a r n)
  have hw : ∀ n : Fin 16384, wgtA (scoreA adj (leakyA (sumA x w a))) (ix2 r n)
      = Cert.GatSpec.wgt (cX x) (cAdj adj) (cW w) (cA a) r n := fun n => by
    rw [wgtA_apply, hmax, score_apply]
    rfl
  have hsum : rowSumA (wgtA (scoreA adj (leakyA (sumA x w a)))) (ix1 r)
      = Cert.GatSpec.rowSum (cX x) (cAdj adj) (cW w) (cA a) r := by
    rw [rowSumA_apply]
    exact Finset.sum_congr rfl fun n _ => hw n
  unfold result
  rw [eluA_apply, aggA_apply]
  show Cert.GatSpec.elu _ = Cert.GatSpec.elu _
  refine congrArg Cert.GatSpec.elu (Finset.sum_congr rfl fun n _ => ?_)
  rw [attA_apply, hw, hsum, whA_apply]

end Cert.ReferenceIdeal.Hand

end
-- ==== Proof.SoftmaxLawA.lean ====
/-
  General facts behind the online-softmax law.

  (1) Extended reals that are real numbers are closed under sums, products and finite sums, and a binary
      floating-point word whose exponent field is not all ones denotes one.
  (2) The supremum, from minus infinity, of finitely many reals over a nonempty index set is the coercion of their
      real maximum.
  (3) Rescaling: multiplying a sum of exp (s - m) by exp (m - m') gives the same sum taken against m' (the law of
      exponents and distributivity over a finite sum), with or without weights.
  (4) The 16384 columns are exactly the columns of the four tiles of 4096: n corresponds to the pair
      (n / 4096, n % 4096), so a sum, or a supremum, over the four tiles is the sum, or supremum, over all columns.
-/
import proofs.«152033_j31903017074983_2_alg».proof.Proof.Spec

noncomputable section

open scoped BigOperators

namespace Cert.GatSpec

open Idealize.ShloMosaic

/-! ## Extended reals that are reals -/

/-- The extended real z is a real number. -/
def IsReal (z : EReal) : Prop := ∃ y : ℝ, z = (y : EReal)

theorem IsReal.coe (y : ℝ) : IsReal (y : EReal) := ⟨y, rfl⟩

theorem IsReal.zero : IsReal 0 := ⟨0, EReal.coe_zero.symm⟩

theorem IsReal.add {p q : EReal} (hp : IsReal p) (hq : IsReal q) : IsReal (p + q) := by
  obtain ⟨y, rfl⟩ := hp
  obtain ⟨z, rfl⟩ := hq
  exact ⟨y + z, (EReal.coe_add y z).symm⟩

theorem IsReal.mul {p q : EReal} (hp : IsReal p) (hq : IsReal q) : IsReal (p * q) := by
  obtain ⟨y, rfl⟩ := hp
  obtain ⟨z, rfl⟩ := hq
  exact ⟨y * z, (EReal.coe_mul y z).symm⟩

theorem IsReal.sum {ι : Type*} (S : Finset ι) (f : ι → EReal) (h : ∀ i ∈ S, IsReal (f i)) :
    IsReal (∑ i ∈ S, f i) := by
  classical
  induction S using Finset.induction_on with
  | empty => rw [Finset.sum_empty]; exact IsReal.zero
  | insert i S hi ih =>
    rw [Finset.sum_insert hi]
    exact (h i (Finset.mem_insert_self i S)).add (ih fun k hk => h k (Finset.mem_insert_of_mem hk))

/-- A binary floating-point word whose exponent field is not all ones (neither an infinity nor a NaN) denotes a real. -/
theorem ieee_isReal (e m : ℕ) {wd : ℕ} (b : BitVec wd) (h : (b.extractLsb' m e).toNat ≠ 2 ^ e - 1) :
    IsReal (Ideal.ieee e m b) := by
  unfold Ideal.ieee
  simp only [if_neg h]
  split_ifs <;> exact ⟨_, rfl⟩

/-! ## The supremum of finitely many reals -/

/-- Over a nonempty finite index set the supremum of coerced reals is the coercion of the real maximum. -/
theorem sup_coe {ι : Type*} (S : Finset ι) (hS : S.Nonempty) (f : ι → ℝ) :
    S.sup (fun i => (f i : EReal)) = ((S.sup' hS f : ℝ) : EReal) := by
  rw [← Finset.sup'_eq_sup hS]
  exact (Finset.comp_sup'_eq_sup'_comp hS (fun y : ℝ => (y : EReal)) (fun y z => EReal.coe_strictMono.monotone.map_max)).symm

/-! ## Rescaling a sum of exponentials -/

/-- exp (m - m') times the sum over the first j tiles of exp (s - m) is that sum taken against m'. -/
theorem rescale_sum {κ : Type*} [Fintype κ] (S : ℕ → κ → ℝ) (j : ℕ) (m m' : ℝ) :
    Real.exp (m - m') * ∑ j' ∈ Finset.range j, ∑ c : κ, Real.exp (S j' c - m)
      = ∑ j' ∈ Finset.range j, ∑ c : κ, Real.exp (S j' c - m') := by
  rw [Finset.mul_sum]
  refine Finset.sum_congr rfl fun j' _ => ?_
  rw [Finset.mul_sum]
  refine Finset.sum_congr rfl fun c _ => ?_
  rw [← Real.exp_add]
  congr 1
  ring

/-- The same with each exponential weighted by a real V. -/
theorem rescale_wsum {κ : Type*} [Fintype κ] (S V : ℕ → κ → ℝ) (j : ℕ) (m m' : ℝ) :
    Real.exp (m - m') * ∑ j' ∈ Finset.range j, ∑ c : κ, Real.exp (S j' c - m) * V j' c
      = ∑ j' ∈ Finset.range j, ∑ c : κ, Real.exp (S j' c - m') * V j' c := by
  rw [Finset.mul_sum]
  refine Finset.sum_congr rfl fun j' _ => ?_
  rw [Finset.mul_sum]
  refine Finset.sum_congr rfl fun c _ => ?_
  rw [← mul_assoc, ← Real.exp_add]
  congr 2
  ring

/-! ## The four tiles cover the columns exactly once -/

/-- Column n is column n % 4096 of tile n / 4096. -/
theorem colOf_div_mod (n : Fin 16384) :
    colOf (n.val / 4096) ⟨n.val % 4096, Nat.mod_lt _ (by norm_num)⟩ = n := by
  apply Fin.ext
  show (4096 * (n.val / 4096) + n.val % 4096) % 16384 = n.val
  have := n.isLt
  omega

/-- The pairs (tile, column within the tile) correspond one to one to the columns. -/
def tileEquiv : Fin 4 × Fin 4096 ≃ Fin 16384 where
  toFun p := colOf p.1.val p.2
  invFun n := (⟨n.val / 4096, by have := n.isLt; omega⟩, ⟨n.val % 4096, Nat.mod_lt _ (by norm_num)⟩)
  left_inv := by
    rintro ⟨⟨j, hj⟩, ⟨c, hc⟩⟩
    apply Prod.ext
    · apply Fin.ext
      show (4096 * j + c) % 16384 / 4096 = j
      omega
    · apply Fin.ext
      show (4096 * j + c) % 16384 % 4096 = c
      omega
  right_inv := fun n => colOf_div_mod n

/-- A sum over the four tiles is the sum over all columns. -/
theorem sum_tiles {β : Type*} [AddCommMonoid β] (f : Fin 16384 → β) :
    ∑ j ∈ Finset.range 4, ∑ c : Fin 4096, f (colOf j c) = ∑ n : Fin 16384, f n := by
  rw [Finset.sum_range (fun j => ∑ c : Fin 4096, f (colOf j c))]
  rw [← Fintype.sum_prod_type' (fun (j : Fin 4) (c : Fin 4096) => f (colOf j.val c))]
  exact Fintype.sum_equiv tileEquiv _ _ (fun _ => rfl)

/-- A supremum over the four tiles is the supremum over all columns. -/
theorem sup_tiles (f : Fin 16384 → EReal) :
    (Finset.range 4).sup (fun j => Finset.univ.sup fun c : Fin 4096 => f (colOf j c)) = Finset.univ.sup f := by
  apply le_antisymm
  · exact Finset.sup_le fun j _ => Finset.sup_le fun c _ => Finset.le_sup (f := f) (Finset.mem_univ _)
  · refine Finset.sup_le fun n _ => ?_
    have hj : n.val / 4096 ∈ Finset.range 4 := by
      rw [Finset.mem_range]
      have := n.isLt
      omega
    refine le_trans ?_ (Finset.le_sup (f := fun j => Finset.univ.sup fun c : Fin 4096 => f (colOf j c)) hj)
    have hc := Finset.le_sup (f := fun c : Fin 4096 => f (colOf (n.val / 4096) c))
      (Finset.mem_univ (⟨n.val % 4096, Nat.mod_lt _ (by norm_num)⟩ : Fin 4096))
    rw [colOf_div_mod n] at hc
    exact hc

end Cert.GatSpec

end
-- ==== Proof.SoftmaxLawB.lean ====
/-
  Under the finiteness of the four arrays every projected feature and every masked attention score is a real number.

  The projected features and the two score vectors are finite sums of products of reals. The leaky rectifier returns its
  argument or the slope times it, and the slope is a finite binary32 word. A masked score is either the masking constant,
  again a finite binary32 word, or a product of two reals.
-/
import proofs.«152033_j31903017074983_2_alg».proof.Proof.SoftmaxLawA

noncomputable section

open scoped BigOperators

namespace Cert.GatSpec

open Idealize.ShloMosaic

/-- The rectifier's slope is a real number. -/
theorem slope_isReal : IsReal slope := by
  unfold slope Ideal.ofBits
  exact ieee_isReal 8 23 _ (by decide)

/-- The masking constant is a real number. -/
theorem negBig_isReal : IsReal negBig := by
  unfold negBig Ideal.ofBits
  exact ieee_isReal 8 23 _ (by decide)

variable (x : Fin 16384 → Fin 256 → EReal) (adj : Fin 8192 → Fin 16384 → EReal) (w : Fin 256 → Fin 128 → EReal)
  (a : Fin 256 → EReal)

theorem wh_isReal (hx : ∀ n k, ∃ y : ℝ, x n k = (y : EReal)) (hw : ∀ k o, ∃ y : ℝ, w k o = (y : EReal))
    (n : Fin 16384) (o : Fin 128) : IsReal (wh x w n o) := by
  unfold wh
  exact IsReal.sum _ _ fun k _ => IsReal.mul (hx n k) (hw k o)

theorem wh1_isReal (hx : ∀ n k, ∃ y : ℝ, x n k = (y : EReal)) (hw : ∀ k o, ∃ y : ℝ, w k o = (y : EReal))
    (ha : ∀ k, ∃ y : ℝ, a k = (y : EReal)) (n : Fin 16384) : IsReal (wh1 x w a n) := by
  unfold wh1
  exact IsReal.sum _ _ fun o _ => IsReal.mul (wh_isReal x w hx hw n o) (ha _)

theorem wh2_isReal (hx : ∀ n k, ∃ y : ℝ, x n k = (y : EReal)) (hw : ∀ k o, ∃ y : ℝ, w k o = (y : EReal))
    (ha : ∀ k, ∃ y : ℝ, a k = (y : EReal)) (n : Fin 16384) : IsReal (wh2 x w a n) := by
  unfold wh2
  exact IsReal.sum _ _ fun o _ => IsReal.mul (wh_isReal x w hx hw n o) (ha _)

theorem leaky_isReal (z : EReal) (hz : IsReal z) : IsReal (leaky z) := by
  unfold leaky
  split_ifs
  · exact hz
  · exact IsReal.mul slope_isReal hz

/-- Every masked attention score is a real number. -/
theorem score_isReal (hx : ∀ n k, ∃ y : ℝ, x n k = (y : EReal)) (hadj : ∀ r n, ∃ y : ℝ, adj r n = (y : EReal))
    (hw : ∀ k o, ∃ y : ℝ, w k o = (y : EReal)) (ha : ∀ k, ∃ y : ℝ, a k = (y : EReal))
    (r : Fin 8192) (n : Fin 16384) : IsReal (score x adj w a r n) := by
  have hX : IsReal (if adj r n ≠ 0 then leaky (wh1 x w a ⟨r.val, by omega⟩ + wh2 x w a n) else 0) := by
    split_ifs
    · exact leaky_isReal _ (IsReal.add (wh1_isReal x w a hx hw ha _) (wh2_isReal x w a hx hw ha n))
    · exact IsReal.zero
  unfold score
  generalize (if adj r n ≠ 0 then leaky (wh1 x w a ⟨r.val, by omega⟩ + wh2 x w a n) else 0) = X at hX ⊢
  split_ifs
  · exact negBig_isReal
  · exact IsReal.mul hX (hadj r n)

end Cert.GatSpec

end
-- ==== Proof.LibERealFinite.lean ====
/-
  Extended reals that are reals.

  Three small facts used when a claim about extended reals holds only for finite inputs: the coercion from the
  reals commutes with finite sums; subtracting a real and adding it back changes no extended real, the two
  infinities included; and an extended real whose absolute value lies strictly below the word of +infinity (the test
  a finiteness precondition applies to every entry) is a real.
-/
import Idealize.ShloMosaic.PureOps.Ideal.Laws

noncomputable section

namespace Idealize.ShloMosaic.ERealFinite

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting a real and adding it back is the identity on every extended real, the infinities included. -/
theorem sub_add_cancel_coe (a : EReal) (c : ℝ) : a - (c : EReal) + (c : EReal) = a := by
  induction a using EReal.rec with
  | bot => simp
  | coe a => rw [← EReal.coe_sub, ← EReal.coe_add]; congr 1; ring
  | top => simp

/-- An extended real whose absolute value compares strictly below the single-precision word of +infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end Idealize.ShloMosaic.ERealFinite

end
-- ==== Proof.SoftmaxLawC.lean ====
/-
  The invariant of the column sweep.

  Fix a row and write s n for its score at column n and v n o for the projected feature, all reals. After the first j
  tiles (j at least 1) the carried maximum is a real m, the carried sum is the sum over those tiles' columns of
  exp (s - m), and the carried weighted sum is the sum of exp (s - m) v. The first tile starts from minus infinity and
  zeros: exp of minus infinity is zero and the carried sums are zero, so only the tile's own terms remain. A later tile
  raises m to m' = max m t (t the tile's real maximum) and multiplies what was carried by exp (m - m'), which turns
  each exp (s - m) into exp (s - m'). The carried maximum is, with no hypothesis, the supremum of the tile maxima, so
  after four tiles it is the maximum of the whole row.
-/
import proofs.«152033_j31903017074983_2_alg».proof.Proof.SoftmaxLawA
import proofs.«152033_j31903017074983_2_alg».proof.Proof.LibERealFinite

noncomputable section

open scoped BigOperators

namespace Cert.GatSpec

open Idealize.ShloMosaic

/-- The sum of exp (s - m) over the columns of the first j tiles. -/
def Lr (s : Fin 16384 → ℝ) (j : ℕ) (m : ℝ) : ℝ :=
  ∑ j' ∈ Finset.range j, ∑ c : Fin 4096, Real.exp (s (colOf j' c) - m)

/-- The sum of exp (s - m) u over the columns of the first j tiles. -/
def Ar (s u : Fin 16384 → ℝ) (j : ℕ) (m : ℝ) : ℝ :=
  ∑ j' ∈ Finset.range j, ∑ c : Fin 4096, Real.exp (s (colOf j' c) - m) * u (colOf j' c)

/-- The real maximum of s over the columns of tile j. -/
def tm (s : Fin 16384 → ℝ) (j : ℕ) : ℝ :=
  Finset.univ.sup' Finset.univ_nonempty fun c : Fin 4096 => s (colOf j c)

theorem Lr_succ (s : Fin 16384 → ℝ) (j : ℕ) (m m' : ℝ) :
    Real.exp (m - m') * Lr s j m + ∑ c : Fin 4096, Real.exp (s (colOf j c) - m') = Lr s (j + 1) m' := by
  have h := rescale_sum (fun j' (c : Fin 4096) => s (colOf j' c)) j m m'
  unfold Lr
  rw [Finset.sum_range_succ]
  exact congrArg (· + ∑ c : Fin 4096, Real.exp (s (colOf j c) - m')) h

theorem Ar_succ (s u : Fin 16384 → ℝ) (j : ℕ) (m m' : ℝ) :
    Real.exp (m - m') * Ar s u j m + ∑ c : Fin 4096, Real.exp (s (colOf j c) - m') * u (colOf j c)
      = Ar s u (j + 1) m' := by
  have h := rescale_wsum (fun j' (c : Fin 4096) => s (colOf j' c)) (fun j' (c : Fin 4096) => u (colOf j' c)) j m m'
  unfold Ar
  rw [Finset.sum_range_succ]
  exact congrArg (· + ∑ c : Fin 4096, Real.exp (s (colOf j c) - m') * u (colOf j c)) h

/-- After all four tiles the sums run over every column. -/
theorem Lr_four (s : Fin 16384 → ℝ) (m : ℝ) : Lr s 4 m = ∑ n : Fin 16384, Real.exp (s n - m) :=
  sum_tiles fun n => Real.exp (s n - m)

theorem Ar_four (s u : Fin 16384 → ℝ) (m : ℝ) : Ar s u 4 m = ∑ n : Fin 16384, Real.exp (s n - m) * u n :=
  sum_tiles fun n => Real.exp (s n - m) * u n

variable (x : Fin 16384 → Fin 256 → EReal) (adj : Fin 8192 → Fin 16384 → EReal) (w : Fin 256 → Fin 128 → EReal)
  (a : Fin 256 → EReal) (r : Fin 8192)

theorem kstate_zero : kstate x adj w a r 0 = kinit := rfl

theorem kstate_succ (j : ℕ) :
    kstate x adj w a r (j + 1) = kstep x adj w a r j (kstate x adj w a r j) := rfl

/-- The carried maximum is the supremum of the tile maxima swept so far. -/
theorem kstate_m (j : ℕ) : (kstate x adj w a r j).m = (Finset.range j).sup (tileMax x adj w a r) := by
  induction j with
  | zero => rw [Finset.range_zero, Finset.sup_empty]; rfl
  | succ j ih =>
    rw [Finset.range_add_one, Finset.sup_insert, ← ih, kstate_succ]
    exact max_comm _ _

/-- The supremum of the four tile maxima is the row maximum. -/
theorem sup_tileMax : (Finset.range 4).sup (tileMax x adj w a r) = rowMax x adj w a r :=
  sup_tiles (score x adj w a r)

variable (s : Fin 16384 → ℝ) (v : Fin 16384 → Fin 128 → ℝ)
  (hs : ∀ n, score x adj w a r n = (s n : EReal)) (hv : ∀ n o, wh x w n o = (v n o : EReal))

include hs in
theorem tileMax_eq (j : ℕ) : tileMax x adj w a r j = (tm s j : EReal) := by
  unfold tileMax tm
  simp only [hs]
  exact sup_coe _ _ _

include hs in
/-- A tile's sum of weights against a real maximum. -/
theorem tile_l (j : ℕ) (m' : ℝ) :
    ∑ c : Fin 4096, Ideal.exp (score x adj w a r (colOf j c) - (m' : EReal))
      = ((∑ c : Fin 4096, Real.exp (s (colOf j c) - m') : ℝ) : EReal) := by
  rw [ERealFinite.coe_sum]
  refine Finset.sum_congr rfl fun c _ => ?_
  rw [hs, ← EReal.coe_sub, Ideal.exp_coe]

include hs hv in
/-- A tile's weighted sum of projected features against a real maximum. -/
theorem tile_acc (j : ℕ) (m' : ℝ) (o : Fin 128) :
    ∑ c : Fin 4096, Ideal.exp (score x adj w a r (colOf j c) - (m' : EReal)) * wh x w (colOf j c) o
      = ((∑ c : Fin 4096, Real.exp (s (colOf j c) - m') * v (colOf j c) o : ℝ) : EReal) := by
  rw [ERealFinite.coe_sum]
  refine Finset.sum_congr rfl fun c _ => ?_
  rw [hs, hv, ← EReal.coe_sub, Ideal.exp_coe, ← EReal.coe_mul]

include hs hv in
/-- The first tile: from minus infinity and zeros only the tile's own terms remain. -/
theorem kstep_bot (j : ℕ) (st : KState) (hm : st.m = ⊥) (hl : st.l = 0) (hacc : ∀ o, st.acc o = 0) :
    (kstep x adj w a r j st).m = (tm s j : EReal)
      ∧ (kstep x adj w a r j st).l = ((∑ c : Fin 4096, Real.exp (s (colOf j c) - tm s j) : ℝ) : EReal)
      ∧ ∀ o, (kstep x adj w a r j st).acc o
          = ((∑ c : Fin 4096, Real.exp (s (colOf j c) - tm s j) * v (colOf j c) o : ℝ) : EReal) := by
  have hmax : max st.m (tileMax x adj w a r j) = (tm s j : EReal) := by
    rw [hm, max_bot_left, tileMax_eq x adj w a r s hs]
  refine ⟨hmax, ?_, fun o => ?_⟩
  · show Ideal.exp (st.m - max st.m (tileMax x adj w a r j)) * st.l
        + ∑ c : Fin 4096, Ideal.exp (score x adj w a r (colOf j c) - max st.m (tileMax x adj w a r j)) = _
    rw [hmax, hl, mul_zero, zero_add, tile_l x adj w a r s hs]
  · show Ideal.exp (st.m - max st.m (tileMax x adj w a r j)) * st.acc o
        + ∑ c : Fin 4096, Ideal.exp (score x adj w a r (colOf j c) - max st.m (tileMax x adj w a r j))
            * wh x w (colOf j c) o = _
    rw [hmax, hacc o, mul_zero, zero_add, tile_acc x adj w a r s v hs hv]

include hs hv in
/-- A later tile: the carried sums are rescaled to the raised maximum and the tile's terms are added. -/
theorem kstep_real (j : ℕ) (st : KState) (m : ℝ) (hm : st.m = (m : EReal)) (hl : st.l = (Lr s j m : EReal))
    (hacc : ∀ o, st.acc o = (Ar s (fun n => v n o) j m : EReal)) :
    (kstep x adj w a r j st).m = ((max m (tm s j) : ℝ) : EReal)
      ∧ (kstep x adj w a r j st).l = (Lr s (j + 1) (max m (tm s j)) : EReal)
      ∧ ∀ o, (kstep x adj w a r j st).acc o = (Ar s (fun n => v n o) (j + 1) (max m (tm s j)) : EReal) := by
  have hmax : max st.m (tileMax x adj w a r j) = ((max m (tm s j) : ℝ) : EReal) := by
    rw [hm, tileMax_eq x adj w a r s hs]
    exact (EReal.coe_strictMono.monotone.map_max).symm
  refine ⟨hmax, ?_, fun o => ?_⟩
  · show Ideal.exp (st.m - max st.m (tileMax x adj w a r j)) * st.l
        + ∑ c : Fin 4096, Ideal.exp (score x adj w a r (colOf j c) - max st.m (tileMax x adj w a r j)) = _
    rw [hmax, hm, hl, ← EReal.coe_sub, Ideal.exp_coe, ← EReal.coe_mul, tile_l x adj w a r s hs, ← EReal.coe_add,
      Lr_succ]
  · show Ideal.exp (st.m - max st.m (tileMax x adj w a r j)) * st.acc o
        + ∑ c : Fin 4096, Ideal.exp (score x adj w a r (colOf j c) - max st.m (tileMax x adj w a r j))
            * wh x w (colOf j c) o = _
    rw [hmax, hm, hacc o, ← EReal.coe_sub, Ideal.exp_coe, ← EReal.coe_mul, tile_acc x adj w a r s v hs hv,
      ← EReal.coe_add]
    exact congrArg _ (Ar_succ s (fun n => v n o) j m (max m (tm s j)))

include hs hv in
/-- The invariant: after j tiles, j at least 1, the carried state is the real maximum and the two sums against it. -/
theorem kstate_inv (j : ℕ) (hj : 1 ≤ j) :
    ∃ m : ℝ, (kstate x adj w a r j).m = (m : EReal) ∧ (kstate x adj w a r j).l = (Lr s j m : EReal)
      ∧ ∀ o, (kstate x adj w a r j).acc o = (Ar s (fun n => v n o) j m : EReal) := by
  induction j, hj using Nat.le_induction with
  | base =>
    obtain ⟨h1, h2, h3⟩ := kstep_bot x adj w a r s v hs hv 0 kinit rfl rfl (fun _ => rfl)
    refine ⟨tm s 0, h1, ?_, fun o => ?_⟩
    · rw [kstate_succ, kstate_zero, h2]; unfold Lr; rw [Finset.sum_range_one]
    · rw [kstate_succ, kstate_zero, h3 o]; unfold Ar; rw [Finset.sum_range_one]
  | succ j hj ih =>
    obtain ⟨m, hm, hl, hacc⟩ := ih
    exact ⟨_, kstep_real x adj w a r s v hs hv j (kstate x adj w a r j) m hm hl hacc⟩

end Cert.GatSpec

end
-- ==== Proof.SoftmaxLaw.lean ====
/-
  The online softmax-weighted average of the column sweep equals the one-pass softmax-weighted average, when every entry
  of the four arrays is a real number.

  Fix a row; its scores s n and the projected features v n o are reals. After the four tiles the sweep carries the row
  maximum m, the sum L = ∑ n, exp (s n - m) and the weighted sum ∑ n, exp (s n - m) v n o. L is a positive real, so both
  divisions are products with 1 / L, and (∑ n, exp (s n - m) v n o) (1 / L) = ∑ n, (exp (s n - m) (1 / L)) v n o by
  distributivity. Both results are the exponential linear unit of that one quotient.
-/
import proofs.«152033_j31903017074983_2_alg».proof.Proof.SoftmaxLawB
import proofs.«152033_j31903017074983_2_alg».proof.Proof.SoftmaxLawC

noncomputable section

open scoped BigOperators

namespace Cert.GatSpec

open Idealize.ShloMosaic

theorem kerOut_eq_refOut (x : Fin 16384 → Fin 256 → EReal) (adj : Fin 8192 → Fin 16384 → EReal)
    (w : Fin 256 → Fin 128 → EReal) (a : Fin 256 → EReal)
    (h : Finite x adj w a) (r : Fin 8192) (o : Fin 128) : kerOut x adj w a r o = refOut x adj w a r o := by
  obtain ⟨hx, hadj, hw, ha⟩ := h
  have hsr : ∀ n, ∃ y : ℝ, score x adj w a r n = (y : EReal) := fun n => score_isReal x adj w a hx hadj hw ha r n
  have hvr : ∀ n o, ∃ y : ℝ, wh x w n o = (y : EReal) := fun n o => wh_isReal x w hx hw n o
  choose s hs using hsr
  choose v hv using hvr
  obtain ⟨m, hm, hl, hacc⟩ := kstate_inv x adj w a r s v hs hv 4 (by norm_num)
  -- the carried maximum after four tiles is the row maximum
  have hM : rowMax x adj w a r = (m : EReal) := by
    rw [← hm, kstate_m, sup_tileMax]
  have hwgt : ∀ n, wgt x adj w a r n = ((Real.exp (s n - m) : ℝ) : EReal) := fun n => by
    unfold wgt
    rw [hs, hM, ← EReal.coe_sub, Ideal.exp_coe]
  have hL : rowSum x adj w a r = ((∑ n : Fin 16384, Real.exp (s n - m) : ℝ) : EReal) := by
    unfold rowSum
    rw [ERealFinite.coe_sum]
    exact Finset.sum_congr rfl fun n _ => hwgt n
  -- the softmax denominator is a positive real
  have hLpos : (0 : ℝ) < ∑ n : Fin 16384, Real.exp (s n - m) :=
    Finset.sum_pos (fun n _ => Real.exp_pos _) Finset.univ_nonempty
  unfold kerOut refOut
  refine congrArg elu ?_
  rw [hl, hacc o, Lr_four, Ar_four, hL, Ideal.div_coe hLpos.ne', ← EReal.coe_mul, Finset.sum_mul,
    ERealFinite.coe_sum]
  refine Finset.sum_congr rfl fun n _ => ?_
  rw [hwgt, hv, Ideal.div_coe hLpos.ne', ← EReal.coe_mul, ← EReal.coe_mul]
  refine congrArg Real.toEReal ?_
  ring

end Cert.GatSpec

end
-- ==== Proof.PreFinite.lean ====
/-
  The precondition decoded: every entry of the four argument arrays is a real number.

  The precondition says that a host predicate of the four arrays is the one-bit word 1. The predicate is the
  conjunction of four tests, one per array, each the conjunction over every entry of "the absolute value compares
  strictly below plus infinity". A conjunction of one-bit words that is 1 has every conjunct 1; a conjunction over all
  entries that is 1 has the test 1 at every entry; and an extended real whose absolute value is strictly below plus
  infinity is neither infinity, hence a real.
-/
import proofs.«152033_j31903017074983_2_alg».proof.Proof.Spec
import proofs.«152033_j31903017074983_2_alg».proof.Proof.LibERealFinite
import proofs.«152033_j31903017074983_2_alg».proof.Defs
import proofs.«152033_j31903017074983_2_alg».proof.Proof.Gen.Pre_finite_inputs
import proofs.«152033_j31903017074983_2_alg».proof.Proof.Gen.KernelIdeal
import Idealize.ShloMosaic.Lib.ReduceAll
import Idealize.ShloMosaic.Lib.ValueIdx
import Idealize.ShloMosaic.Lib.IdealHost

noncomputable section

namespace Cert.PreFinite

open Idealize.ShloMosaic Idealize.SL.Sem Idealize.ShloMosaic.ValueIdx

/-- The scalar shape has one index. -/
instance : Subsingleton (⟨0, ![]⟩ : Shape).Idx := ⟨fun a b => funext fun d => d.elim0⟩

/-- One array's test: if the conjunction over all entries of "the absolute value is strictly below plus infinity" is
    the word 1, then every entry is a real. -/
theorem all_real {S : Shape} {axes : List (Fin S.rank)} (x : FVec Ideal S .f32)
    (hb : (⟨0, ![]⟩ : Shape).BroadcastsInDim S ![]) (hr : S.ReducesTo axes (⟨0, ![]⟩ : Shape))
    (hu : 0 < (⟨0, ![]⟩ : Shape).numel) (j : (⟨0, ![]⟩ : Shape).Idx)
    (e : Host.reduce IntOp.andi
          (cmpf .olt (Host.absf x) (broadcastInDim S ![] hb (constant (F := Ideal) (⟨0, ![]⟩ : Shape) .f32 0x7F800000#32)))
          (constantI (⟨0, ![]⟩ : Shape) 1 1#1) hr hu j = 1#1)
    (i : S.Idx) : ∃ y : ℝ, x i = (y : EReal) := by
  have h1 := Host.reduce_andi_all _ _ hr hu j e i
  have hc : broadcastInDim S ![] hb (constant (F := Ideal) (⟨0, ![]⟩ : Shape) .f32 0x7F800000#32) i
      = Ideal.ofBits .f32 0x7F800000#32 := by
    rw [broadcastInDim_scalar_apply, constant_apply]
  have h2 : Ideal.cmp .olt (max (x i) (-(x i))) (Ideal.ofBits .f32 0x7F800000#32) = 1#1 := by
    rw [← hc]; exact h1
  exact ERealFinite.real_of_abs_lt (x i) h2

/-- From the precondition, on every device, every entry of the four argument arrays read by coordinates is a real. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.GatSpec.Finite (fun n k => m ((c.tc : Thread Cert.KernelIdeal.nD Cert.KernelIdeal.τ).loc Cert.KernelIdeal.main_arg0) (ValueIdx.ix2 n k))
      (fun r n => m ((c.tc : Thread _ _).loc Cert.KernelIdeal.main_arg1) (ValueIdx.ix2 r n))
      (fun k o => m ((c.tc : Thread _ _).loc Cert.KernelIdeal.main_arg2) (ValueIdx.ix2 k o))
      (fun k => m ((c.tc : Thread _ _).loc Cert.KernelIdeal.main_arg3) (ValueIdx.ix2 k 0)) := by
  have e := congrFun (h c) ValueIdx.ix0
  unfold Cert.Pre_finite_inputs.fn Cert.Pre_finite_inputs.fn_part1 at e
  dsimp only at e
  obtain ⟨e012, e3⟩ := IntOp.andi_eq_one.1 e
  obtain ⟨e01, e2⟩ := IntOp.andi_eq_one.1 e012
  obtain ⟨e0, e1⟩ := IntOp.andi_eq_one.1 e01
  exact ⟨fun n k => all_real _ _ _ _ _ e0 (ix2 n k), fun r n => all_real _ _ _ _ _ e1 (ix2 r n),
    fun k o => all_real _ _ _ _ _ e2 (ix2 k o), fun k => all_real _ _ _ _ _ e3 (ix2 k 0)⟩

end Cert.PreFinite

end
-- ==== Proof.lean ====
/-
  The certificate's claims. Both kernel programs' frames come from the run of the program as host stretches and two
  kernel regions (the projection, then the attention sweep with its three scratch arrays carried from column tile to
  column tile); the reference's frame from its run as a list of host operations. The idealised kernel and the
  idealised reference end with equal results: the kernel's result array is the swept softmax average of the launch
  arrays, the reference's the one-pass softmax average, and for finite inputs the two agree row by row (the exponent
  law and distributivity over the finite sums, on the reals).
-/
import proofs.«152033_j31903017074983_2_alg».proof.Defs
import proofs.«152033_j31903017074983_2_alg».proof.Proof.Gen.Kernel
import proofs.«152033_j31903017074983_2_alg».proof.Proof.Gen.KernelIdeal
import proofs.«152033_j31903017074983_2_alg».proof.Proof.Gen.ReferenceIdeal
import proofs.«152033_j31903017074983_2_alg».proof.Proof.Gen.Pre_finite_inputs
import proofs.«152033_j31903017074983_2_alg».proof.Proof.KFrameRun
import proofs.«152033_j31903017074983_2_alg».proof.Proof.FrameRun
import proofs.«152033_j31903017074983_2_alg».proof.Proof.KernelValue
import proofs.«152033_j31903017074983_2_alg».proof.Proof.RefValue
import proofs.«152033_j31903017074983_2_alg».proof.Proof.SoftmaxLaw
import proofs.«152033_j31903017074983_2_alg».proof.Proof.PreFinite
import Idealize.ShloMosaic.Adequacy
import Idealize.ShloMosaic.Init

noncomputable section

namespace Cert.Proof

open Idealize.ShloMosaic Idealize.SL.Sem Idealize.ShloMosaic.ValueIdx

/-- The word-level kernel program runs to the end and leaves its arguments as launched. -/
theorem frame_k : Cert.frame_Kernel := fun m ρ _ => Cert.Kernel.Hand.frame m ρ

/-- So does the idealised kernel program. -/
theorem frame_ki : Cert.frame_KernelIdeal := fun m ρ _ => Cert.KernelIdeal.Hand.frame m ρ

/-- And the idealised reference: its run with the result dropped. -/
theorem frame_ri : Cert.frame_ReferenceIdeal := fun m ρ _ =>
  (θ_run Cert.ReferenceIdeal.defs _ _).mono (fun _ h c => (h c).2) (Cert.ReferenceIdeal.Hand.run m ρ)

/-- The two idealised programs, from memories agreeing on the arguments, end with equal results: index by index the
    reference's one-pass softmax average is the kernel's swept one, the inputs being finite. -/
theorem algebraic : Cert.algebraic_KernelIdeal_ReferenceIdeal := by
  intro m ρ m' ρ' hpre hagree
  refine ⟨fun c => (Cert.KernelIdeal.Hand.dat1 (Cert.KernelIdeal.Hand.Va3 m ρ) c).arrAt 4 Cert.KernelIdeal.cfg1.N,
    Cert.KernelIdeal.Hand.run_result m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2]
  show _ = (Cert.KernelIdeal.Hand.dat1 (Cert.KernelIdeal.Hand.Va3 m ρ) c).arrAt 4 Cert.KernelIdeal.cfg1.N
  rw [Cert.KernelIdeal.HandVal.kernel_value m ρ c]
  funext i
  obtain ⟨r, o, rfl⟩ : ∃ (r : Fin 8192) (o : Fin 128), i = ix2 r o := ⟨i 0, i 1, eq_ix2 i⟩
  rw [Cert.ReferenceIdeal.Hand.result_apply]
  exact (Cert.GatSpec.kerOut_eq_refOut _ _ _ _ (Cert.PreFinite.finite_of_pre m hpre c) r o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
